-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S512x2048 : Shape := ⟨2, ![512, 2048]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S2048x128 : Shape := ⟨2, ![2048, 128]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2048x128 : S_.BroadcastsInDim S2048x128 (![] : Fin 0 → Fin S2048x128.rank)
  reducesTo_S2048x128_S_d0_1 : S2048x128.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg16 : FVec F S128 .f32) (main_arg17 : FVec F S128 .f32) (main_arg18 : FVec F S256x1 .f32) (main_arg19 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S256x1 .f32 := Host.absf main_arg18
  let main_cst_30 : FVec F S_ .f32 := constant S_ .f32 0x7F800000#32
  let main_v80 : FVec F S256x1 .f32 := broadcastInDim S256x1 ![] bcast_S_S256x1 main_cst_30
  let main_v81 : IVec S256x1 1 := cmpf .olt main_v79 main_v80
  let main_c_31 : IVec S_ 1 := constantI S_ 1 1#1
  let main_v82 : IVec S_ 1 := (fun x v => Host.reduce IntOp.andi x v reducesTo_S256x1_S_d0_1 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_v83 main_v84 main_cst_32

def fn_part3 {F : FTy → Type} [FloatOps F] (main_arg13 : FVec F S128x128 .f32) (main_arg14 : FVec F S128 .f32) (main_arg15 : FVec F S2048x128 .f32) (main_arg16 : FVec F S128 .f32) (main_arg17 : FVec F S128 .f32) (main_arg18 : FVec F S256x1 .f32) (main_arg19 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S2048x128 .f32 := Host.absf main_arg15
  let main_cst_24 : FVec F S_ .f32 := constant S_ .f32 0x7F800000#32
  let main_v65 : FVec F S2048x128 .f32 := broadcastInDim S2048x128 ![] bcast_S_S2048x128 main_cst_24
  let main_v66 : IVec S2048x128 1 := cmpf .olt main_v64 main_v65
  let main_c_25 : IVec S_ 1 := constantI S_ 1 1#1
  let main_v67 : IVec S_ 1 := (fun x v => Host.reduce IntOp.andi x v reducesTo_S2048x128_S_d0_1 h_S_) main_v66 main_c_25
  fn_part4 (F := F) main_arg16 main_arg17 main_arg18 main_arg19 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S2048x128 .f32) (main_arg16 : FVec F S128 .f32) (main_arg17 : FVec F S128 .f32) (main_arg18 : FVec F S256x1 .f32) (main_arg19 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S2048x128 .f32) (main_arg16 : FVec F S128 .f32) (main_arg17 : FVec F S128 .f32) (main_arg18 : FVec F S256x1 .f32) (main_arg19 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S100000x128 .f32) (main_arg1 : FVec F S512x2048 .f32) (main_arg2 : IVec S2x1600000 32) (main_arg3 : IVec S100000 32) (main_arg4 : FVec F S128x128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S2048x128 .f32) (main_arg16 : FVec F S128 .f32) (main_arg17 : FVec F S128 .f32) (main_arg18 : FVec F S256x1 .f32) (main_arg19 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S512x2048 : Shape := ⟨2, ![512, 2048]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S2048x128 : Shape := ⟨2, ![2048, 128]⟩
abbrev S256x1 : Shape := ⟨2, ![256, 1]⟩
abbrev S1 : Shape := ⟨1, ![1]⟩
abbrev S1x1600000 : Shape := ⟨2, ![1, 1600000]⟩
abbrev S1600000 : Shape := ⟨1, ![1600000]⟩
abbrev S5000x128 : Shape := ⟨2, ![5000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S128x1 : Shape := ⟨2, ![128, 1]⟩
abbrev S100000x1 : Shape := ⟨2, ![100000, 1]⟩
abbrev S5000x1 : Shape := ⟨2, ![5000, 1]⟩
abbrev S512 : Shape := ⟨1, ![512]⟩
abbrev S512x1 : Shape := ⟨2, ![512, 1]⟩
abbrev S512x128 : Shape := ⟨2, ![512, 128]⟩
abbrev S1x1 : Shape := ⟨2, ![1, 1]⟩

abbrev nBuf : Space → Nat
  | .hbm => 76
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S512x2048, .f32⟩
  | .hbm, ⟨2, _⟩ => ⟨S2x1600000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S2048x128, .f32⟩
  | .hbm, ⟨16, _⟩ => ⟨S128, .f32⟩
  | .hbm, ⟨17, _⟩ => ⟨S128, .f32⟩
  | .hbm, ⟨18, _⟩ => ⟨S256x1, .f32⟩
  | .hbm, ⟨19, _⟩ => ⟨S1, .f32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S100000x128, .f32⟩
  | .hbm, ⟨25, _⟩ => ⟨S100000x128, .bf16⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .bf16⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .bf16⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .bf16⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S128x1, .f32⟩
  | .hbm, ⟨57, _⟩ => ⟨S128x1, .f32⟩
  | .hbm, ⟨58, _⟩ => ⟨S100000x1, .f32⟩
  | .hbm, ⟨59, _⟩ => ⟨S100000, .f32⟩
  | .hbm, ⟨60, _⟩ => ⟨S_, .f32⟩
  | .hbm, ⟨61, _⟩ => ⟨S512, .f32⟩
  | .hbm, ⟨62, _⟩ => ⟨S100000x1, .i32⟩
  | .hbm, ⟨63, _⟩ => ⟨S512, .f32⟩
  | .hbm, ⟨64, _⟩ => ⟨S_, .f32⟩
  | .hbm, ⟨65, _⟩ => ⟨S100000, .f32⟩
  | .hbm, ⟨66, _⟩ => ⟨S_, .f32⟩
  | .hbm, ⟨67, _⟩ => ⟨S512, .f32⟩
  | .hbm, ⟨68, _⟩ => ⟨S100000x1, .i32⟩
  | .hbm, ⟨69, _⟩ => ⟨S512, .f32⟩
  | .hbm, ⟨70, _⟩ => ⟨S_, .f32⟩
  | .hbm, ⟨71, _⟩ => ⟨S512, .f32⟩
  | .hbm, ⟨72, _⟩ => ⟨S512, .f32⟩
  | .hbm, ⟨73, _⟩ => ⟨S512, .f32⟩
  | .hbm, ⟨74, _⟩ => ⟨S512x1, .f32⟩
  | .hbm, ⟨75, _⟩ => ⟨S512x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S128, .f32⟩
  | .local _ .vmem, ⟨5, _⟩ => ⟨S5000x128, .f32⟩
  | .local _ .vmem, ⟨6, _⟩ => ⟨S5000x128, .f32⟩
  | .local _ .vmem, ⟨7, _⟩ => ⟨S5000x128, .bf16⟩
  | .local _ .vmem, ⟨8, _⟩ => ⟨S5000x128, .bf16⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S128, .f32⟩
  | .local _ .vmem, ⟨17, _⟩ => ⟨S5000x128, .f32⟩
  | .local _ .vmem, ⟨18, _⟩ => ⟨S5000x128, .f32⟩
  | .local _ .vmem, ⟨19, _⟩ => ⟨S5000x128, .bf16⟩
  | .local _ .vmem, ⟨20, _⟩ => ⟨S5000x128, .bf16⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S128, .f32⟩
  | .local _ .vmem, ⟨27, _⟩ => ⟨S128x128, .f32⟩
  | .local _ .vmem, ⟨28, _⟩ => ⟨S128, .f32⟩
  | .local _ .vmem, ⟨29, _⟩ => ⟨S128x1, .f32⟩
  | .local _ .vmem, ⟨30, _⟩ => ⟨S5000x1, .f32⟩
  | .local _ .vmem, ⟨31, _⟩ => ⟨S5000x1, .f32⟩
  | .local _ .vmem, ⟨32, _⟩ => ⟨S512x2048, .f32⟩
  | .local _ .vmem, ⟨33, _⟩ => ⟨S2048x128, .f32⟩
  | .local _ .vmem, ⟨34, _⟩ => ⟨S128, .f32⟩
  | .local _ .vmem, ⟨35, _⟩ => ⟨S128, .f32⟩
  | .local _ .vmem, ⟨36, _⟩ => ⟨S512x1, .f32⟩
  | .local _ .vmem, ⟨37, _⟩ => ⟨S128x1, .f32⟩
  | .local _ .vmem, ⟨38, _⟩ => ⟨S1, .f32⟩
  | .local _ .vmem, ⟨39, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4_0 : Ref sig .tc := ⟨.hbm, 24, rfl⟩
abbrev main_v4_1 : Ref sig .tc := ⟨.hbm, 25, rfl⟩
abbrev main_c : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16_0 : Ref sig .tc := ⟨.hbm, 40, rfl⟩
abbrev main_v16_1 : Ref sig .tc := ⟨.hbm, 41, rfl⟩
abbrev main_c_1 : Ref sig .tc := ⟨.hbm, 42, rfl⟩
abbrev main_v17 : Ref sig .tc := ⟨.hbm, 43, rfl⟩
abbrev main_v18 : Ref sig .tc := ⟨.hbm, 44, rfl⟩
abbrev main_c_2 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_3 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_4 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_5 : Ref sig .tc := ⟨.hbm, 64, rfl⟩
abbrev main_v35 : Ref sig .tc := ⟨.hbm, 65, rfl⟩
abbrev main_cst_6 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_7 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc3_sem0_0 : DmaSem sig := 32
abbrev cc3_sem1_0 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S2048x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S5000x128_S5000x128 : S5000x128.ShapeCasts S5000x128
  slices_S256x1_S128x1_0_0 : S256x1.Slices ![0, 0] S128x1
  slices_S256x1_S128x1_128_0 : S256x1.Slices ![128, 0] S128x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  bcast_S_S512 : S_.BroadcastsInDim S512 (![] : Fin 0 → Fin S512.rank)
  bcast_S100000_S100000x1_0 : S100000.BroadcastsInDim S100000x1 (![0] : Fin 1 → Fin S100000x1.rank)
  bcast_S_S100000 : S_.BroadcastsInDim S100000 (![] : Fin 0 → Fin S100000.rank)
  bcast_S512_S512x1_0 : S512.BroadcastsInDim S512x1 (![0] : Fin 1 → Fin S512x1.rank)
  inb_S512x2048_S512x2048_0_0 : ∀ a, (![0, 0] : Fin 2 → Nat) a + S512x2048.size a ≤ S512x2048.size a
  h_S512x2048 : 0 < S512x2048.numel
  inb_S2048x128_S2048x128_0_0 : ∀ a, (![0, 0] : Fin 2 → Nat) a + S2048x128.size a ≤ S2048x128.size a
  h_S2048x128 : 0 < S2048x128.numel
  broadcasts_S1x128_S512x128 : S1x128.Broadcasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x1_S5000x1_1_0_0_1_n_n_wf : DotDims.WF S5000x128 S128x1 S5000x1 [1] [0] [0] [1] [] []
  scatter_S512_S100000x1_S100000_n_0_0_1_wf : ScatterDims.WF S512 S100000x1 S100000 [] [0] [0] 1
  dot_S512x2048_S2048x128_S512x128_1_0_0_1_n_n_wf : DotDims.WF S512x2048 S2048x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .bf16 = 32 ∨ (Rect.block (s := S100000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .bf16 = 32 ∨ (Rect.block (s := S100000x128) S5000x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x1.size a ≤ S128x1.size a
  hwx2_6 : ∀ i : grid2.Coords, EltTy.bits .f32 = 32 ∨ (Rect.block (s := S128x1) S128x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x1.size a ≤ S100000x1.size a
  hwx2_7 : ∀ i : grid2.Coords, EltTy.bits .f32 = 32 ∨ (Rect.block (s := S100000x1) S5000x1.size (cc2_transform_7 i) (hinb2_7 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S512x2048.size a
  hwx3_0 : ∀ i : grid3.Coords, EltTy.bits .f32 = 32 ∨ (Rect.block (s := S512x2048) S512x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S2048x128.size a
  hwx3_1 : ∀ i : grid3.Coords, EltTy.bits .f32 = 32 ∨ (Rect.block (s := S2048x128) S2048x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x1.size a ≤ S512x1.size a
  hwx3_4 : ∀ i : grid3.Coords, EltTy.bits .f32 = 32 ∨ (Rect.block (s := S512x1) S512x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1.size a ≤ S1.size a
  hwx3_6 : ∀ i : grid3.Coords, EltTy.bits .f32 = 32 ∨ (Rect.block (s := S1) S1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512x1.size a ≤ S512x1.size a
  hwx3_7 : ∀ i : grid3.Coords, EltTy.bits .f32 = 32 ∨ (Rect.block (s := S512x1) S512x1.size (cc3_transform_7 i) (hinb3_7 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v16_1) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16_0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S128x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v30) S5000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg1) S512x2048.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg15) S2048x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg16) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg17) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42) S512x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v29) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg19) S1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v43) S512x1.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S512x2048 : Shape := ⟨2, ![512, 2048]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S2048x128 : Shape := ⟨2, ![2048, 128]⟩
abbrev S256x1 : Shape := ⟨2, ![256, 1]⟩
abbrev S1 : Shape := ⟨1, ![1]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x256 : Shape := ⟨2, ![512, 256]⟩
abbrev S1x1 : Shape := ⟨2, ![1, 1]⟩

abbrev nBuf : Space → Nat
  | .hbm => 119
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S512x2048, .f32⟩
  | .hbm, ⟨2, _⟩ => ⟨S2x1600000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S2048x128, .f32⟩
  | .hbm, ⟨16, _⟩ => ⟨S128, .f32⟩
  | .hbm, ⟨17, _⟩ => ⟨S128, .f32⟩
  | .hbm, ⟨18, _⟩ => ⟨S256x1, .f32⟩
  | .hbm, ⟨19, _⟩ => ⟨S1, .f32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .i1⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .i1⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .i1⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S512x128, .f32⟩
  | .hbm, ⟨89, _⟩ => ⟨S100000x1, .i32⟩
  | .hbm, ⟨90, _⟩ => ⟨S512x128, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S512, .f32⟩
  | .hbm, ⟨95, _⟩ => ⟨S100000x1, .i32⟩
  | .hbm, ⟨96, _⟩ => ⟨S512, .f32⟩
  | .hbm, ⟨97, _⟩ => ⟨S_, .f32⟩
  | .hbm, ⟨98, _⟩ => ⟨S512, .f32⟩
  | .hbm, ⟨99, _⟩ => ⟨S512, .f32⟩
  | .hbm, ⟨100, _⟩ => ⟨S512x1, .f32⟩
  | .hbm, ⟨101, _⟩ => ⟨S512x128, .f32⟩
  | .hbm, ⟨102, _⟩ => ⟨S512x128, .f32⟩
  | .hbm, ⟨103, _⟩ => ⟨S512x128, .f32⟩
  | .hbm, ⟨104, _⟩ => ⟨S1x128, .f32⟩
  | .hbm, ⟨105, _⟩ => ⟨S512x128, .f32⟩
  | .hbm, ⟨106, _⟩ => ⟨S512x128, .f32⟩
  | .hbm, ⟨107, _⟩ => ⟨S_, .f32⟩
  | .hbm, ⟨108, _⟩ => ⟨S512x128, .f32⟩
  | .hbm, ⟨109, _⟩ => ⟨S512x128, .i1⟩
  | .hbm, ⟨110, _⟩ => ⟨S1x128, .f32⟩
  | .hbm, ⟨111, _⟩ => ⟨S512x128, .f32⟩
  | .hbm, ⟨112, _⟩ => ⟨S512x128, .f32⟩
  | .hbm, ⟨113, _⟩ => ⟨S512x128, .f32⟩
  | .hbm, ⟨114, _⟩ => ⟨S512x256, .f32⟩
  | .hbm, ⟨115, _⟩ => ⟨S512x1, .f32⟩
  | .hbm, ⟨116, _⟩ => ⟨S1x1, .f32⟩
  | .hbm, ⟨117, _⟩ => ⟨S512x1, .f32⟩
  | .hbm, ⟨118, _⟩ => ⟨S512x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_0 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_3 : Ref sig .tc := ⟨.hbm, 61, rfl⟩
abbrev main_v36 : Ref sig .tc := ⟨.hbm, 62, rfl⟩
abbrev main_v37 : Ref sig .tc := ⟨.hbm, 63, rfl⟩
abbrev main_c_4 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_6 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_7 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_cst_9 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_10 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_11 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  concatenates_S512x128_S512x128_S512x256_d1 : Shape.Concatenates [S512x128, S512x128] S512x256 1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x2048_S2048x128_S512x128_1_0_0_1_n_n_wf : DotDims.WF S512x2048 S2048x128 S512x128 [1] [0] [0] [1] [] []
  dot_S512x256_S256x1_S512x1_1_0_0_1_n_n_wf : DotDims.WF S512x256 S256x1 S512x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

class Facts : Prop extends Facts₀ where

variable [Facts]
-- ==== Proof.KRun.lean ====
/-
  The kernel program's run with its result named: every weakly fair execution ends, nothing faulting, with the result
  buffer holding what the last region's write-backs leave in it (the fold of the program's segments from the launch
  memory, `W8`), and the twenty argument arrays as launched. This is the run the frame already takes through the four
  regions and the host operations between them, read once more with the result buffer kept in the post.
-/
import proofs.«151545_j56994216017995_2_alg».proof.Proof.Gen.KernelIdeal.Frame

noncomputable section

set_option maxRecDepth 16384

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments as launched. -/
theorem run_named : θ_run defs (onTc (τ := τ) (main (F := F))) ⟨m, fun _ => 0, ρ⟩ (fun r => ∀ c : Dev nD,
      r.2.mem ((c.tc : Thread nD τ).loc main_v43) = W8 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v43 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c)⟩)

end Cert.KernelIdeal.Gen

end
-- ==== Proof.Net.lean ====
/-
  The network both programs compute, written once as functions on the extended reals, index by index.

  A dense layer is a matrix product plus a bias row, passed through a leaky rectifier whose slope is a row:
  `prelu y a = y` when `y > 0` and `a * y` otherwise.  A graph layer adds two matrix products: one of the
  aggregated neighbour rows, one of the node's own row.  The aggregation over edges is a parameter `A` (an operator
  on node matrices): both programs apply the same gather and scatter, and nothing here looks inside it.

  The two programs differ only in how the node rows are pooled per graph and projected to one number.
  * `refOut`: sum the rows of each graph, divide by the graph's size (at least one), put the pooled row beside the
    fingerprint row, and take the product with the 256-row column `Wpost`, plus `bpost`.
  * `kerOut`: take the product of every node row with the first 128 rows of `Wpost` first (one number per node),
    sum those numbers per graph, divide by the graph's size, and add the product of the fingerprint row with the last
    128 rows of `Wpost`, plus `bpost`.
  They agree when every entry is a real number, since a finite sum of reals distributes over a product.
-/
import Idealize.ShloMosaic.PureOps.Ideal
import Idealize.ShloMosaic.PureOps.Ideal.Laws
import Idealize.ShloMosaic.Lib.ValueIdx

noncomputable section

open scoped BigOperators

namespace Cert.Net

open Idealize.ShloMosaic Idealize.ShloMosaic.ValueIdx

/-- An `n` by `c` matrix of extended reals. -/
abbrev Mat (n c : ℕ) : Type := (⟨2, ![n, c]⟩ : Shape).Idx → EReal
/-- A row of `c` extended reals. -/
abbrev Vc (c : ℕ) : Type := (⟨1, ![c]⟩ : Shape).Idx → EReal
/-- A column of `e` 32-bit index words. -/
abbrev Col (e : ℕ) : Type := (⟨2, ![e, 1]⟩ : Shape).Idx → BitVec 32

/-- The word of the float zero and of the float one. -/
abbrev zeroW : EReal := Ideal.ofBits .f32 0x00000000#32
abbrev oneW : EReal := Ideal.ofBits .f32 0x3F800000#32

/-- The leaky rectifier: `y` where `y > 0`, `a * y` elsewhere. -/
def prelu (y a : EReal) : EReal := Scalar.select (Ideal.cmp .ogt y zeroW) y (a * y)

/-- The matrix product, entry by entry. -/
def dot {n k c : ℕ} (x : Mat n k) (W : Mat k c) : Mat n c :=
  fun i => ∑ t : Fin k, x (ix2 (i 0) t) * W (ix2 t (i 1))

/-- A dense layer: `prelu (x W + b) a`. -/
def lin {n k c : ℕ} (x : Mat n k) (W : Mat k c) (b a : Vc c) : Mat n c :=
  fun i => prelu (dot x W i + b (ix1 (i 1))) (a (ix1 (i 1)))

/-- A graph layer: `prelu ((g Wl + bl) + h Wr) a`, `g` the aggregated rows and `h` the nodes' own rows. -/
def sage {n c : ℕ} (g h : Mat n c) (Wl : Mat c c) (bl : Vc c) (Wr : Mat c c) (a : Vc c) : Mat n c :=
  fun i => prelu ((dot g Wl i + bl (ix1 (i 1))) + dot h Wr i) (a (ix1 (i 1)))

/-- The first and the last 128 rows of a 256-row column. -/
def top (W : Mat 256 1) : Mat 128 1 := fun i => W (ix2 ⟨(i 0).val, by have : (i 0).val < 128 := (i 0).isLt; omega⟩ (i 1))
def bot (W : Mat 256 1) : Mat 128 1 := fun i => W (ix2 ⟨128 + (i 0).val, by have : (i 0).val < 128 := (i 0).isLt; omega⟩ (i 1))

section Network

variable (A : Mat 100000 128 → Mat 100000 128)
  (x : Mat 100000 128) (fp : Mat 512 2048) (bc : Col 100000)
  (Wpre : Mat 128 128) (bpre apre : Vc 128)
  (Wl1 : Mat 128 128) (bl1 : Vc 128) (Wr1 : Mat 128 128) (a1 : Vc 128)
  (Wl2 : Mat 128 128) (bl2 : Vc 128) (Wr2 : Mat 128 128) (a2 : Vc 128)
  (Wfp : Mat 2048 128) (bfp afp : Vc 128) (Wpost : Mat 256 1) (bpost : Vc 1)

/-- The node rows after the input layer, the first and the second graph layer. -/
def h0 : Mat 100000 128 := lin x Wpre bpre apre
def h1 : Mat 100000 128 := sage (A (h0 x Wpre bpre apre)) (h0 x Wpre bpre apre) Wl1 bl1 Wr1 a1
def h2 : Mat 100000 128 :=
  sage (A (h1 A x Wpre bpre apre Wl1 bl1 Wr1 a1)) (h1 A x Wpre bpre apre Wl1 bl1 Wr1 a1) Wl2 bl2 Wr2 a2

/-- The fingerprint rows. -/
def fpEmb : Mat 512 128 := lin fp Wfp bfp afp

/-- The size of graph `g`: one for every node whose index word, read signed, is `g`. -/
def cnt : Vc 512 := fun g =>
  zeroW + ∑ e : Fin 100000, if (bc (ix2 e (0 : Fin 1))).toInt = ((g 0).val : ℤ) then oneW else 0
/-- The divisor: the size, or one for an empty graph. -/
def den : Vc 512 := fun g => max (cnt bc g) oneW

/-- The rows of `h` summed per graph. -/
def segRows (h : Mat 100000 128) : Mat 512 128 := fun i =>
  zeroW + ∑ e : Fin 100000, if (bc (ix2 e (0 : Fin 1))).toInt = ((i 0).val : ℤ) then h (ix2 e (i 1)) else 0
/-- A node column `o` summed per graph. -/
def segCol (o : Mat 100000 1) : Vc 512 := fun g =>
  zeroW + ∑ e : Fin 100000, if (bc (ix2 e (0 : Fin 1))).toInt = ((g 0).val : ℤ) then o (ix2 e (0 : Fin 1)) else 0

/-- The pooled rows: the per-graph sums divided by the divisor. -/
def pooled (h : Mat 100000 128) : Mat 512 128 := fun i => Ideal.div (segRows bc h i) (den bc (ix1 (i 0)))

/-- The pooled row beside the fingerprint row. -/
def cat (h : Mat 100000 128) (f : Mat 512 128) : Mat 512 256 := fun i =>
  if hlt : (i 1).val < 128 then pooled bc h (ix2 (i 0) ⟨(i 1).val, hlt⟩)
  else f (ix2 (i 0) ⟨(i 1).val - 128, by have : (i 1).val < 256 := (i 1).isLt; omega⟩)

/-- Pool, then project. -/
def refOutOf (h : Mat 100000 128) (f : Mat 512 128) : Mat 512 1 := fun i =>
  dot (cat bc h f) Wpost i + bpost (ix1 (0 : Fin 1))

/-- Project every node, then pool. -/
def kerOutOf (h : Mat 100000 128) (f : Mat 512 128) : Mat 512 1 := fun i =>
  (dot f (bot Wpost) i + Ideal.div (segCol bc (dot h (top Wpost)) (ix1 (i 0))) (den bc (ix1 (i 0))))
    + bpost (ix1 (0 : Fin 1))

/-- What the reference program returns. -/
def refOut : Mat 512 1 :=
  refOutOf bc Wpost bpost (h2 A x Wpre bpre apre Wl1 bl1 Wr1 a1 Wl2 bl2 Wr2 a2) (fpEmb fp Wfp bfp afp)

/-- What the kernel program returns. -/
def kerOut : Mat 512 1 :=
  kerOutOf bc Wpost bpost (h2 A x Wpre bpre apre Wl1 bl1 Wr1 a1 Wl2 bl2 Wr2 a2) (fpEmb fp Wfp bfp afp)

end Network

end Cert.Net

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.KPay.lean ====
/-
  The bodies of the four kernels, each as one function of its loaded blocks on the extended reals.

  Every body rounds its operands to a narrower float format before a matrix product; on the extended reals a change
  of format is the identity, and a product into a zero accumulator is the plain sum over the contracted index. A bias
  or slope row, cast to one row and broadcast over the block's rows, reads its own entry in every row. What is left
  is the dense layer `Net.lin`, the graph layer `Net.sage`, the graph layer followed by the product with a
  128-row column, and the fingerprint layer's product with a 128-row column plus the pooled column plus the bias.
-/
import proofs.«151545_j56994216017995_2_alg».proof.Proof.Gen.KernelIdeal.Skeleton
import proofs.«151545_j56994216017995_2_alg».proof.Proof.Net
import proofs.«151545_j56994216017995_2_alg».proof.Proof.LibRowOps
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen

/-- The product of a `[5000, 128]` block with a `[128, 128]` matrix into a zero accumulator, entry `(p, c)`. -/
theorem mm_5000_128_128 {φ₁ φ₂ : FTy} (lhs : FVec Ideal S5000x128 φ₁) (rhs : FVec Ideal S128x128 φ₂) (p : Fin 5000) (c : Fin 128) :
    matmul dot_S5000x128_S128x128_S5000x128_1_0_0_1_n_n none lhs rhs (constant S5000x128 .f32 0x00000000#32) (ix2 p c)
      = ∑ x : Fin 128, lhs (ix2 p x) * rhs (ix2 x c) :=
  Cert.LibRowOps.matmul_zero_apply dot_S5000x128_S128x128_S5000x128_1_0_0_1_n_n none lhs rhs rfl rfl
    (fun j q => by
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl)
    (fun j q => dot_S5000x128_S128x128_S5000x128_1_0_0_1_n_n.lhsIdx_val_of_single rfl j q)
    (fun j q => dot_S5000x128_S128x128_S5000x128_1_0_0_1_n_n.rhsIdx_val_of_single rfl j q)
    (fun j q => by
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)
    p c

/-- The product of a `[5000, 128]` block with a `[128, 1]` matrix into a zero accumulator, entry `(p, c)`. -/
theorem mm_5000_128_1 {φ₁ φ₂ : FTy} (lhs : FVec Ideal S5000x128 φ₁) (rhs : FVec Ideal S128x1 φ₂) (p : Fin 5000) (c : Fin 1) :
    matmul dot_S5000x128_S128x1_S5000x1_1_0_0_1_n_n none lhs rhs (constant S5000x1 .f32 0x00000000#32) (ix2 p c)
      = ∑ x : Fin 128, lhs (ix2 p x) * rhs (ix2 x c) :=
  Cert.LibRowOps.matmul_zero_apply dot_S5000x128_S128x1_S5000x1_1_0_0_1_n_n none lhs rhs rfl rfl
    (fun j q => by
      unfold DotDims.lhsIdx
      rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
      rfl)
    (fun j q => dot_S5000x128_S128x1_S5000x1_1_0_0_1_n_n.lhsIdx_val_of_single rfl j q)
    (fun j q => dot_S5000x128_S128x1_S5000x1_1_0_0_1_n_n.rhsIdx_val_of_single rfl j q)
    (fun j q => by
      unfold DotDims.rhsIdx
      rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
      rfl)
    p c

/-- The product of a `[512, 2048]` block with a `[2048, 128]` matrix into a zero accumulator, entry `(p, c)`. -/
theorem mm_512_2048_128 {φ₁ φ₂ : FTy} (lhs : FVec Ideal S512x2048 φ₁) (rhs : FVec Ideal S2048x128 φ₂) (p : Fin 512) (c : Fin 128) :
    matmul dot_S512x2048_S2048x128_S512x128_1_0_0_1_n_n none lhs rhs (constant S512x128 .f32 0x00000000#32) (ix2 p c)
      = ∑ x : Fin 2048, lhs (ix2 p x) * rhs (ix2 x c) :=
  Cert.LibRowOps.matmul_zero_apply dot_S512x2048_S2048x128_S512x128_1_0_0_1_n_n none lhs rhs rfl rfl
    (fun j q => by
      unfold DotDims.lhsIdx
      rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
      rfl)
    (fun j q => dot_S512x2048_S2048x128_S512x128_1_0_0_1_n_n.lhsIdx_val_of_single rfl j q)
    (fun j q => dot_S512x2048_S2048x128_S512x128_1_0_0_1_n_n.rhsIdx_val_of_single rfl j q)
    (fun j q => by
      unfold DotDims.rhsIdx
      rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
      rfl)
    p c

/-- The product of a `[512, 128]` block with a `[128, 1]` matrix into a zero accumulator, entry `(p, c)`. -/
theorem mm_512_128_1 {φ₁ φ₂ : FTy} (lhs : FVec Ideal S512x128 φ₁) (rhs : FVec Ideal S128x1 φ₂) (p : Fin 512) (c : Fin 1) :
    matmul dot_S512x128_S128x1_S512x1_1_0_0_1_n_n none lhs rhs (constant S512x1 .f32 0x00000000#32) (ix2 p c)
      = ∑ x : Fin 128, lhs (ix2 p x) * rhs (ix2 x c) :=
  Cert.LibRowOps.matmul_zero_apply dot_S512x128_S128x1_S512x1_1_0_0_1_n_n none lhs rhs rfl rfl
    (fun j q => by
      unfold DotDims.lhsIdx
      rw [dif_neg (show ¬(0 : Fin S512x128.rank) ∈ dot_S512x128_S128x1_S512x1_1_0_0_1_n_n.lhsBatch by decide), dif_pos (show (0 : Fin S512x128.rank) ∈ dot_S512x128_S128x1_S512x1_1_0_0_1_n_n.lhsNonContracting by decide)]
      rfl)
    (fun j q => dot_S512x128_S128x1_S512x1_1_0_0_1_n_n.lhsIdx_val_of_single rfl j q)
    (fun j q => dot_S512x128_S128x1_S512x1_1_0_0_1_n_n.rhsIdx_val_of_single rfl j q)
    (fun j q => by
      unfold DotDims.rhsIdx
      rw [dif_neg (show ¬(1 : Fin S128x1.rank) ∈ dot_S512x128_S128x1_S512x1_1_0_0_1_n_n.rhsBatch by decide), dif_pos (show (1 : Fin S128x1.rank) ∈ dot_S512x128_S128x1_S512x1_1_0_0_1_n_n.rhsNonContracting by decide)]
      rfl)
    p c

/-- A row of `b` entries, cast to `[1, b]` and broadcast over `a` rows, reads its entry `c` in every row. -/
theorem biasRow {a b : ℕ} {α : Type} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The input layer's body is the dense layer of its blocks. -/
theorem pay0 (x0 : Vec Ideal S5000x128 .f32) (W : Vec Ideal S128x128 .f32) (b a : Vec Ideal S128 .f32) :
    k0_pay1 (F := Ideal) x0 W b a = Net.lin x0 W b a := by
  funext j
  obtain ⟨p, q, rfl⟩ : ∃ (p : Fin 5000) (q : Fin 128), j = ix2 p q := ⟨j 0, j 1, eq_ix2 j⟩
  show _ = Net.prelu ((∑ t : Fin 128, x0 (ix2 p t) * W (ix2 t q)) + b (ix1 q)) (a (ix1 q))
  unfold k0_pay1
  simp only [select_apply, cmpf_apply, mulf_apply, addf_apply, broadcast_apply]
  rw [mm_5000_128_128, biasRow, biasRow]
  rfl

/-- The first graph layer's body is the graph layer of its blocks. -/
theorem pay1 (g : Vec Ideal S5000x128 .f32) (Wl : Vec Ideal S128x128 .f32) (h : Vec Ideal S5000x128 .f32)
    (Wr : Vec Ideal S128x128 .f32) (bl a : Vec Ideal S128 .f32) :
    k1_pay1 (F := Ideal) g Wl h Wr bl a = Net.sage g h Wl bl Wr a := by
  funext j
  obtain ⟨p, q, rfl⟩ : ∃ (p : Fin 5000) (q : Fin 128), j = ix2 p q := ⟨j 0, j 1, eq_ix2 j⟩
  show _ = Net.prelu (((∑ t : Fin 128, g (ix2 p t) * Wl (ix2 t q)) + bl (ix1 q)) + ∑ t : Fin 128, h (ix2 p t) * Wr (ix2 t q))
    (a (ix1 q))
  unfold k1_pay1
  simp only [select_apply, cmpf_apply, mulf_apply, addf_apply, broadcast_apply, shapeCast_self]
  rw [mm_5000_128_128, mm_5000_128_128, biasRow, biasRow]
  rfl

/-- The second graph layer's body: the graph layer of its blocks, then the product with the 128-row column. -/
theorem pay2 (g : Vec Ideal S5000x128 .f32) (Wl : Vec Ideal S128x128 .f32) (h : Vec Ideal S5000x128 .f32)
    (Wr : Vec Ideal S128x128 .f32) (bl a : Vec Ideal S128 .f32) (wt : Vec Ideal S128x1 .f32) :
    k2_pay1 (F := Ideal) g Wl h Wr bl a wt = Net.dot (Net.sage g h Wl bl Wr a) wt := by
  funext j
  obtain ⟨p, q, rfl⟩ : ∃ (p : Fin 5000) (q : Fin 1), j = ix2 p q := ⟨j 0, j 1, eq_ix2 j⟩
  show _ = ∑ t : Fin 128, Net.sage g h Wl bl Wr a (ix2 p t) * wt (ix2 t q)
  unfold k2_pay1
  rw [mm_5000_128_1]
  refine Finset.sum_congr rfl fun t _ => ?_
  rw [← pay1, shapeCast_self wt]
  rfl

/-- The fingerprint layer before its rounding, on the whole `[512, 2048]` array. -/
def preact512 (fp : Vec Ideal S512x2048 .f32) (Wfp : Vec Ideal S2048x128 .f32) (b : Vec Ideal S128 .f32) : FVec Ideal S512x128 .f32 :=
  addf (matmul dot_S512x2048_S2048x128_S512x128_1_0_0_1_n_n none (truncf .bf16 fp bitsLt_bf16_f32) (truncf .bf16 Wfp bitsLt_bf16_f32)
      (constant S512x128 .f32 0x00000000#32))
    (broadcastTo S512x128 (shapeCast S1x128 b shapeCasts_S128_S1x128) broadcasts_S1x128_S512x128)

/-- The fingerprint layer is the dense layer of its arrays. -/
theorem dense512 (fp : Vec Ideal S512x2048 .f32) (Wfp : Vec Ideal S2048x128 .f32) (b a : Vec Ideal S128 .f32) :
    select (cmpf .ogt (preact512 fp Wfp b) (broadcast S512x128 (Scalar.ofBits .f32 0x00000000#32))) (preact512 fp Wfp b)
      (mulf (broadcastTo S512x128 (shapeCast S1x128 a shapeCasts_S128_S1x128) broadcasts_S1x128_S512x128) (preact512 fp Wfp b))
      = Net.lin fp Wfp b a := by
  funext j
  obtain ⟨p, q, rfl⟩ : ∃ (p : Fin 512) (q : Fin 128), j = ix2 p q := ⟨j 0, j 1, eq_ix2 j⟩
  show _ = Net.prelu ((∑ t : Fin 2048, fp (ix2 p t) * Wfp (ix2 t q)) + b (ix1 q)) (a (ix1 q))
  unfold preact512
  simp only [select_apply, cmpf_apply, mulf_apply, addf_apply, broadcast_apply]
  rw [mm_512_2048_128, biasRow, biasRow]
  rfl

/-- The head's body: the fingerprint layer's product with the 128-row column, plus the pooled column, plus the bias. -/
theorem pay3 (fp : Vec Ideal S512x2048 .f32) (Wfp : Vec Ideal S2048x128 .f32) (bfp afp : Vec Ideal S128 .f32)
    (wb : Vec Ideal S128x1 .f32) (pooled : Vec Ideal S512x1 .f32) (bpost : Vec Ideal S1 .f32) :
    k3_pay1 (F := Ideal) fp Wfp bfp afp wb pooled bpost
      = fun i => (Net.dot (Net.lin fp Wfp bfp afp) wb i + pooled i) + bpost (ix1 (0 : Fin 1)) := by
  funext j
  obtain ⟨p, q, rfl⟩ : ∃ (p : Fin 512) (q : Fin 1), j = ix2 p q := ⟨j 0, j 1, eq_ix2 j⟩
  show _ = ((∑ t : Fin 128, Net.lin fp Wfp bfp afp (ix2 p t) * wb (ix2 t q)) + pooled (ix2 p q)) + bpost (ix1 (0 : Fin 1))
  unfold k3_pay1
  simp only [addf_apply]
  rw [mm_512_128_1, biasRow, shapeCast_self pooled, shapeCast_self wb, ← dense512]
  have hq : q = 0 := Subsingleton.elim _ _
  subst hq
  rfl

end Cert.KernelIdeal.Body

end
-- ==== Proof.NetRows.lean ====
/-
  Row locality of the layers: entry `(p, q)` of a matrix product depends on the left matrix only through its row
  `p`. So a layer computed on a block of rows agrees, entry by entry, with the layer computed on the whole matrix at
  the entry the block's row sits at.
-/
import proofs.«151545_j56994216017995_2_alg».proof.Proof.Net

noncomputable section

open scoped BigOperators

namespace Cert.Net

open Idealize.ShloMosaic Idealize.ShloMosaic.ValueIdx

/-- Two matrices that agree on one row give the same product entry on that row. -/
theorem dot_rows {n n' k c : ℕ} (x : Mat n k) (X : Mat n' k) (W : Mat k c)
    (y : (⟨2, ![n, c]⟩ : Shape).Idx) (i : (⟨2, ![n', c]⟩ : Shape).Idx) (h1 : (y 1).val = (i 1).val)
    (hx : ∀ t : Fin k, x (ix2 (y 0) t) = X (ix2 (i 0) t)) : dot x W y = dot X W i := by
  unfold dot
  refine Finset.sum_congr rfl fun t _ => ?_
  rw [hx t, show (y 1 : Fin c) = i 1 from Fin.ext h1]

/-- The dense layer on a block of rows is the dense layer on the whole matrix, at the row's place. -/
theorem lin_rows {n n' k c : ℕ} (x : Mat n k) (X : Mat n' k) (W : Mat k c) (b a : Vc c)
    (y : (⟨2, ![n, c]⟩ : Shape).Idx) (i : (⟨2, ![n', c]⟩ : Shape).Idx) (h1 : (y 1).val = (i 1).val)
    (hx : ∀ t : Fin k, x (ix2 (y 0) t) = X (ix2 (i 0) t)) : lin x W b a y = lin X W b a i := by
  unfold lin
  rw [dot_rows x X W y i h1 hx, show (y 1 : Fin c) = i 1 from Fin.ext h1]

/-- The graph layer on a block of rows is the graph layer on the whole matrices, at the row's place. -/
theorem sage_rows {n n' c : ℕ} (g h : Mat n c) (G H : Mat n' c) (Wl : Mat c c) (bl : Vc c) (Wr : Mat c c) (a : Vc c)
    (y : (⟨2, ![n, c]⟩ : Shape).Idx) (i : (⟨2, ![n', c]⟩ : Shape).Idx) (h1 : (y 1).val = (i 1).val)
    (hg : ∀ t : Fin c, g (ix2 (y 0) t) = G (ix2 (i 0) t)) (hh : ∀ t : Fin c, h (ix2 (y 0) t) = H (ix2 (i 0) t)) :
    sage g h Wl bl Wr a y = sage G H Wl bl Wr a i := by
  unfold sage
  rw [dot_rows g G Wl y i h1 hg, dot_rows h H Wr y i h1 hh, show (y 1 : Fin c) = i 1 from Fin.ext h1]

end Cert.Net

end
-- ==== Proof.Blocks0.lean ====
/-
  The input layer's region, block by block. The grid has twenty points; point `t` reads rows `5000 t … 5000 t + 4999`
  of the node matrix and the whole of the weight matrix, the bias row and the slope row, and writes the same rows of
  both outputs. Because an entry of the dense layer depends on the node matrix only through its own row, what point
  `t` writes back is block `t` of the dense layer of the WHOLE arrays; the twenty blocks tile the outputs, so after the
  region both output arrays hold that dense layer (the second one in a narrower format, which on the extended reals is
  the same array).
-/
import proofs.«151545_j56994216017995_2_alg».proof.Proof.Gen.KernelIdeal.Frame
import proofs.«151545_j56994216017995_2_alg».proof.Proof.KPay
import proofs.«151545_j56994216017995_2_alg».proof.Proof.NetRows
import Idealize.ShloMosaic.Lib.Pipeline.Value

noncomputable section

set_option maxRecDepth 16384

namespace Cert.KernelIdeal.Blocks0

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the row blocks move with the point, everything else stays at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The weight matrix's block is the whole matrix. -/
theorem blk_W (c : Dev nD) (t : Fin cfg0.N) : iblk0 V c 1 t = V c main_arg4 := by
  obtain ⟨-, -, e2, e3, -⟩ := idx_facts t
  funext z
  show V c main_arg4 (((cfg0.win 1).blk t).view.emb z) = V c main_arg4 z
  refine congrArg _ (funext fun a => Fin.ext ?_)
  match a with
  | ⟨0, _⟩ => show win0_1.index t (0 : Fin 2) * 128 + 1 * (z 0).val = (z 0).val; omega
  | ⟨1, _⟩ => show win0_1.index t (1 : Fin 2) * 128 + 1 * (z 1).val = (z 1).val; omega

/-- The bias row's block is the whole row. -/
theorem blk_b (c : Dev nD) (t : Fin cfg0.N) : iblk0 V c 2 t = V c main_arg5 := by
  obtain ⟨-, -, -, -, e4, -⟩ := idx_facts t
  funext z
  show V c main_arg5 (((cfg0.win 2).blk t).view.emb z) = V c main_arg5 z
  refine congrArg _ (funext fun a => Fin.ext ?_)
  match a with
  | ⟨0, _⟩ => show win0_2.index t (0 : Fin 1) * 128 + 1 * (z 0).val = (z 0).val; omega

/-- The slope row's block is the whole row. -/
theorem blk_a (c : Dev nD) (t : Fin cfg0.N) : iblk0 V c 3 t = V c main_arg6 := by
  obtain ⟨-, -, -, -, -, e5, -⟩ := idx_facts t
  funext z
  show V c main_arg6 (((cfg0.win 3).blk t).view.emb z) = V c main_arg6 z
  refine congrArg _ (funext fun a => Fin.ext ?_)
  match a with
  | ⟨0, _⟩ => show win0_3.index t (0 : Fin 1) * 128 + 1 * (z 0).val = (z 0).val; omega

/-- The dense layer of the whole arrays the region finds. -/
abbrev G (c : Dev nD) : Net.Mat 100000 128 := Net.lin (V c main_arg0) (V c main_arg4) (V c main_arg5) (V c main_arg6)

/-- The dense layer of point `t`'s blocks, entry `y`, is the dense layer of the whole arrays at the entry's place. -/
theorem body_at (c : Dev nD) (t : Fin cfg0.N) (y : S5000x128.Idx) (i : S100000x128.Idx)
    (h0 : (i 0).val = t.val * 5000 + (y 0).val) (h1 : (i 1).val = (y 1).val) :
    Net.lin (iblk0 V c 0 t) (iblk0 V c 1 t) (iblk0 V c 2 t) (iblk0 V c 3 t) y = G V c i := by
  obtain ⟨e0, e1, -⟩ := idx_facts t
  rw [blk_W V c t, blk_b V c t, blk_a V c t]
  refine Net.lin_rows _ _ _ _ _ y i h1.symm fun k => ?_
  show V c main_arg0 (((cfg0.win 0).blk t).view.emb (ix2 (y 0) k)) = V c main_arg0 (ix2 (i 0) k)
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 128 + 1 * k.val = k.val; omega

/-- What point `t` writes back to the first output is block `t` of the dense layer. -/
theorem flushed4 (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4]
  unfold out0_4
  rw [View.canon_unit_zero hz2]
  simp only [View.ld_unit_zero (S := S5000x128) hz2, View.ld_unit_zero (S := S128x128) hz2, View.ld_unit_zero (S := S128) hz1]
  rw [Body.pay0]
  obtain ⟨-, -, -, -, -, -, e6, e7, -⟩ := idx_facts t
  refine funext fun (y : S5000x128.Idx) => ?_
  refine body_at V c t y _ ?_ ?_
  · show win0_4.index t (0 : Fin 2) * 5000 + 1 * (y 0).val = _; omega
  · show win0_4.index t (1 : Fin 2) * 128 + 1 * (y 1).val = _; omega

/-- The narrower-format copy of the body's value is the same array of extended reals. -/
theorem pay0' (x0 : Vec Ideal S5000x128 .f32) (W : Vec Ideal S128x128 .f32) (b a : Vec Ideal S128 .f32) :
    k0_pay2 (F := Ideal) x0 W b a = Net.lin x0 W b a := (Body.pay0 x0 W b a)

/-- What point `t` writes back to the second output is block `t` of the dense layer too. -/
theorem flushed5 (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  rw [pay0']
  obtain ⟨-, -, -, -, -, -, -, -, e8, e9⟩ := idx_facts t
  refine funext fun (y : S5000x128.Idx) => ?_
  refine body_at V c t y _ ?_ ?_
  · show win0_5.index t (0 : Fin 2) * 5000 + 1 * (y 0).val = _; omega
  · show win0_5.index t (1 : Fin 2) * 128 + 1 * (y 1).val = _; omega

/-- An entry is in point `t`'s block of the first output iff each coordinate is in the block's range. -/
theorem mem_blk4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v4_0).slice (win0_4.rect t)).set ↔ _
  rw [View.set_slice_whole, Rect.mem_set_unit]
  exact Iff.rfl

theorem mem_blk5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v4_1).slice (win0_5.rect t)).set ↔ _
  rw [View.set_slice_whole, Rect.mem_set_unit]
  exact Iff.rfl

/-- The point whose block holds row `r`: `r / 5000`. -/
def pointOf (i : S100000x128.Idx) : Fin cfg0.N :=
  ⟨(i 0).val / 5000, by have h : (i 0).val < 100000 := (i 0).isLt; have hN : grid0.N = 20 := N_0; show _ < grid0.N; omega⟩

/-- The twenty blocks cover the first output. -/
theorem cover4 (i : S100000x128.Idx) : ∃ t : Fin cfg0.N, (cfg0.win 4).flush t = true ∧ i ∈ ((cfg0.win 4).blk t).view.set := by
  have hi1 : (i 1).val < 128 := (i 1).isLt
  obtain ⟨-, -, -, -, -, -, e6, e7, -⟩ := idx_facts (pointOf i)
  have ht : (pointOf i).val = (i 0).val / 5000 := rfl
  refine ⟨pointOf i, flush0_4 _, ?_⟩
  rw [mem_blk4]
  intro a
  match a with
  | ⟨0, _⟩ => show win0_4.index (pointOf i) (0 : Fin 2) * 5000 ≤ (i 0).val ∧ (i 0).val < win0_4.index (pointOf i) (0 : Fin 2) * 5000 + 5000; omega
  | ⟨1, _⟩ => show win0_4.index (pointOf i) (1 : Fin 2) * 128 ≤ (i 1).val ∧ (i 1).val < win0_4.index (pointOf i) (1 : Fin 2) * 128 + 128; omega

/-- The twenty blocks cover the second output. -/
theorem cover5 (i : S100000x128.Idx) : ∃ t : Fin cfg0.N, (cfg0.win 5).flush t = true ∧ i ∈ ((cfg0.win 5).blk t).view.set := by
  have hi1 : (i 1).val < 128 := (i 1).isLt
  obtain ⟨-, -, -, -, -, -, -, -, e8, e9⟩ := idx_facts (pointOf i)
  have ht : (pointOf i).val = (i 0).val / 5000 := rfl
  refine ⟨pointOf i, flush0_5 _, ?_⟩
  rw [mem_blk5]
  intro a
  match a with
  | ⟨0, _⟩ => show win0_5.index (pointOf i) (0 : Fin 2) * 5000 ≤ (i 0).val ∧ (i 0).val < win0_5.index (pointOf i) (0 : Fin 2) * 5000 + 5000; omega
  | ⟨1, _⟩ => show win0_5.index (pointOf i) (1 : Fin 2) * 128 ≤ (i 1).val ∧ (i 1).val < win0_5.index (pointOf i) (1 : Fin 2) * 128 + 128; omega

/-- After the region the first output holds the dense layer of the arrays the region found. -/
theorem arr4 (c : Dev nD) : (dat0 V c).arrAt 4 cfg0.N = G V c :=
  (dat0 V c).arrAt_eq_of_cover 4 (G V c) (fun t _ => flushed4 V c t) cover4

/-- And so does the second. -/
theorem arr5 (c : Dev nD) : (dat0 V c).arrAt 5 cfg0.N = G V c :=
  (dat0 V c).arrAt_eq_of_cover 5 (G V c) (fun t _ => flushed5 V c t) cover5

end Cert.KernelIdeal.Blocks0

end
-- ==== Proof.Blocks1.lean ====
/-
  The first graph layer's region, block by block. Point `t` of the twenty reads rows `5000 t … 5000 t + 4999` of the
  aggregated matrix and of the node matrix, and the whole of the two weight matrices, the bias row and the slope row;
  it writes the same rows of both outputs. An entry of the graph layer depends on the two row matrices only through
  its own row, so what point `t` writes back is block `t` of the graph layer of the WHOLE arrays, and the twenty
  blocks tile the outputs.
-/
import proofs.«151545_j56994216017995_2_alg».proof.Proof.Gen.KernelIdeal.Frame
import proofs.«151545_j56994216017995_2_alg».proof.Proof.KPay
import proofs.«151545_j56994216017995_2_alg».proof.Proof.NetRows
import Idealize.ShloMosaic.Lib.Pipeline.Value

noncomputable section

set_option maxRecDepth 16384

namespace Cert.KernelIdeal.Blocks1

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the row blocks move with the point, everything else stays at block zero. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- The left weight matrix's block is the whole matrix. -/
theorem blk_Wl (c : Dev nD) (t : Fin cfg1.N) : iblk1 V c 2 t = V c main_arg7 := by
  have e := idx_facts t
  funext z
  show V c main_arg7 (((cfg1.win 2).blk t).view.emb z) = V c main_arg7 z
  refine congrArg _ (funext fun a => Fin.ext ?_)
  match a with
  | ⟨0, _⟩ => show win1_2.index t (0 : Fin 2) * 128 + 1 * (z 0).val = (z 0).val; omega
  | ⟨1, _⟩ => show win1_2.index t (1 : Fin 2) * 128 + 1 * (z 1).val = (z 1).val; omega

/-- The bias row's block is the whole row. -/
theorem blk_bl (c : Dev nD) (t : Fin cfg1.N) : iblk1 V c 3 t = V c main_arg8 := by
  have e := idx_facts t
  funext z
  show V c main_arg8 (((cfg1.win 3).blk t).view.emb z) = V c main_arg8 z
  refine congrArg _ (funext fun a => Fin.ext ?_)
  match a with
  | ⟨0, _⟩ => show win1_3.index t (0 : Fin 1) * 128 + 1 * (z 0).val = (z 0).val; omega

/-- The right weight matrix's block is the whole matrix. -/
theorem blk_Wr (c : Dev nD) (t : Fin cfg1.N) : iblk1 V c 4 t = V c main_arg9 := by
  have e := idx_facts t
  funext z
  show V c main_arg9 (((cfg1.win 4).blk t).view.emb z) = V c main_arg9 z
  refine congrArg _ (funext fun a => Fin.ext ?_)
  match a with
  | ⟨0, _⟩ => show win1_4.index t (0 : Fin 2) * 128 + 1 * (z 0).val = (z 0).val; omega
  | ⟨1, _⟩ => show win1_4.index t (1 : Fin 2) * 128 + 1 * (z 1).val = (z 1).val; omega

/-- The slope row's block is the whole row. -/
theorem blk_a (c : Dev nD) (t : Fin cfg1.N) : iblk1 V c 5 t = V c main_arg10 := by
  have e := idx_facts t
  funext z
  show V c main_arg10 (((cfg1.win 5).blk t).view.emb z) = V c main_arg10 z
  refine congrArg _ (funext fun a => Fin.ext ?_)
  match a with
  | ⟨0, _⟩ => show win1_5.index t (0 : Fin 1) * 128 + 1 * (z 0).val = (z 0).val; omega

/-- The graph layer of the whole arrays the region finds. -/
abbrev G (c : Dev nD) : Net.Mat 100000 128 :=
  Net.sage (V c main_v15) (V c main_v4_0) (V c main_arg7) (V c main_arg8) (V c main_arg9) (V c main_arg10)

/-- The graph layer of point `t`'s blocks, entry `y`, is the graph layer of the whole arrays at the entry's place. -/
theorem body_at (c : Dev nD) (t : Fin cfg1.N) (y : S5000x128.Idx) (i : S100000x128.Idx)
    (h0 : (i 0).val = t.val * 5000 + (y 0).val) (h1 : (i 1).val = (y 1).val) :
    Net.sage (iblk1 V c 0 t) (iblk1 V c 1 t) (iblk1 V c 2 t) (iblk1 V c 3 t) (iblk1 V c 4 t) (iblk1 V c 5 t) y = G V c i := by
  have e := idx_facts t
  rw [blk_Wl V c t, blk_bl V c t, blk_Wr V c t, blk_a V c t]
  refine Net.sage_rows _ _ _ _ _ _ _ _ y i h1.symm (fun k => ?_) (fun k => ?_)
  · show V c main_v15 (((cfg1.win 0).blk t).view.emb (ix2 (y 0) k)) = V c main_v15 (ix2 (i 0) k)
    refine congrArg _ (funext fun a => Fin.ext ?_)
    match a with
    | ⟨0, _⟩ => show win1_0.index t (0 : Fin 2) * 5000 + 1 * (y 0).val = (i 0).val; omega
    | ⟨1, _⟩ => show win1_0.index t (1 : Fin 2) * 128 + 1 * k.val = k.val; omega
  · show V c main_v4_0 (((cfg1.win 1).blk t).view.emb (ix2 (y 0) k)) = V c main_v4_0 (ix2 (i 0) k)
    refine congrArg _ (funext fun a => Fin.ext ?_)
    match a with
    | ⟨0, _⟩ => show win1_1.index t (0 : Fin 2) * 5000 + 1 * (y 0).val = (i 0).val; omega
    | ⟨1, _⟩ => show win1_1.index t (1 : Fin 2) * 128 + 1 * k.val = k.val; omega

/-- The narrower-format copy of the body's value is the same array of extended reals. -/
theorem pay1' (g : Vec Ideal S5000x128 .f32) (Wl : Vec Ideal S128x128 .f32) (h : Vec Ideal S5000x128 .f32)
    (Wr : Vec Ideal S128x128 .f32) (bl a : Vec Ideal S128 .f32) :
    k1_pay2 (F := Ideal) g Wl h Wr bl a = Net.sage g h Wl bl Wr a := (Body.pay1 g Wl h Wr bl a)

/-- What point `t` writes back to the first output is block `t` of the graph layer. -/
theorem flushed6 (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S128x128) hz2, View.ld_unit_zero (S := S128) hz1]
  rw [Body.pay1]
  have e := idx_facts t
  refine funext fun (y : S5000x128.Idx) => ?_
  refine body_at V c t y _ ?_ ?_
  · show win1_6.index t (0 : Fin 2) * 5000 + 1 * (y 0).val = _; omega
  · show win1_6.index t (1 : Fin 2) * 128 + 1 * (y 1).val = _; omega

/-- What point `t` writes back to the second output is block `t` of the graph layer too. -/
theorem flushed7 (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz2]
  simp only [View.ld_unit_zero (S := S5000x128) hz2, View.ld_unit_zero (S := S128x128) hz2, View.ld_unit_zero (S := S128) hz1]
  rw [pay1']
  have e := idx_facts t
  refine funext fun (y : S5000x128.Idx) => ?_
  refine body_at V c t y _ ?_ ?_
  · show win1_7.index t (0 : Fin 2) * 5000 + 1 * (y 0).val = _; omega
  · show win1_7.index t (1 : Fin 2) * 128 + 1 * (y 1).val = _; omega

theorem mem_blk6 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v16_0).slice (win1_6.rect t)).set ↔ _
  rw [View.set_slice_whole, Rect.mem_set_unit]
  exact Iff.rfl

theorem mem_blk7 (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v16_1).slice (win1_7.rect t)).set ↔ _
  rw [View.set_slice_whole, Rect.mem_set_unit]
  exact Iff.rfl

/-- The point whose block holds row `r`: `r / 5000`. -/
def pointOf (i : S100000x128.Idx) : Fin cfg1.N :=
  ⟨(i 0).val / 5000, by have h : (i 0).val < 100000 := (i 0).isLt; have hN : grid1.N = 20 := N_1; show _ < grid1.N; omega⟩

/-- The twenty blocks cover the first output. -/
theorem cover6 (i : S100000x128.Idx) : ∃ t : Fin cfg1.N, (cfg1.win 6).flush t = true ∧ i ∈ ((cfg1.win 6).blk t).view.set := by
  have hi1 : (i 1).val < 128 := (i 1).isLt
  have e := idx_facts (pointOf i)
  have ht : (pointOf i).val = (i 0).val / 5000 := rfl
  refine ⟨pointOf i, flush1_6 _, ?_⟩
  rw [mem_blk6]
  intro a
  match a with
  | ⟨0, _⟩ => show win1_6.index (pointOf i) (0 : Fin 2) * 5000 ≤ (i 0).val ∧ (i 0).val < win1_6.index (pointOf i) (0 : Fin 2) * 5000 + 5000; omega
  | ⟨1, _⟩ => show win1_6.index (pointOf i) (1 : Fin 2) * 128 ≤ (i 1).val ∧ (i 1).val < win1_6.index (pointOf i) (1 : Fin 2) * 128 + 128; omega

/-- The twenty blocks cover the second output. -/
theorem cover7 (i : S100000x128.Idx) : ∃ t : Fin cfg1.N, (cfg1.win 7).flush t = true ∧ i ∈ ((cfg1.win 7).blk t).view.set := by
  have hi1 : (i 1).val < 128 := (i 1).isLt
  have e := idx_facts (pointOf i)
  have ht : (pointOf i).val = (i 0).val / 5000 := rfl
  refine ⟨pointOf i, flush1_7 _, ?_⟩
  rw [mem_blk7]
  intro a
  match a with
  | ⟨0, _⟩ => show win1_7.index (pointOf i) (0 : Fin 2) * 5000 ≤ (i 0).val ∧ (i 0).val < win1_7.index (pointOf i) (0 : Fin 2) * 5000 + 5000; omega
  | ⟨1, _⟩ => show win1_7.index (pointOf i) (1 : Fin 2) * 128 ≤ (i 1).val ∧ (i 1).val < win1_7.index (pointOf i) (1 : Fin 2) * 128 + 128; omega

/-- After the region the first output holds the graph layer of the arrays the region found. -/
theorem arr6 (c : Dev nD) : (dat1 V c).arrAt 6 cfg1.N = G V c :=
  (dat1 V c).arrAt_eq_of_cover 6 (G V c) (fun t _ => flushed6 V c t) cover6

/-- And so does the second. -/
theorem arr7 (c : Dev nD) : (dat1 V c).arrAt 7 cfg1.N = G V c :=
  (dat1 V c).arrAt_eq_of_cover 7 (G V c) (fun t _ => flushed7 V c t) cover7

end Cert.KernelIdeal.Blocks1

end
-- ==== Proof.Blocks2.lean ====
/-
  The second graph layer's region, block by block. Point `t` of the twenty reads rows `5000 t … 5000 t + 4999` of the
  aggregated matrix and of the node matrix, the whole of the two weight matrices, of the bias and slope rows and of the
  128-row column, and writes rows `5000 t …` of the one-column output: the graph layer's rows times the column. Entry
  `(r, 0)` depends on the two row matrices only through row `r`, so what point `t` writes back is block `t` of that
  product for the WHOLE arrays, and the twenty blocks tile the output.
-/
import proofs.«151545_j56994216017995_2_alg».proof.Proof.Gen.KernelIdeal.Frame
import proofs.«151545_j56994216017995_2_alg».proof.Proof.KPay
import proofs.«151545_j56994216017995_2_alg».proof.Proof.NetRows
import Idealize.ShloMosaic.Lib.Pipeline.Value

noncomputable section

set_option maxRecDepth 16384

namespace Cert.KernelIdeal.Blocks2

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the row blocks move with the point, everything else stays at block zero. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The left weight matrix's block is the whole matrix. -/
theorem blk_Wl (c : Dev nD) (t : Fin cfg2.N) : iblk2 V c 2 t = V c main_arg11 := by
  have e := idx_facts t
  funext z
  show V c main_arg11 (((cfg2.win 2).blk t).view.emb z) = V c main_arg11 z
  refine congrArg _ (funext fun a => Fin.ext ?_)
  match a with
  | ⟨0, _⟩ => show win2_2.index t (0 : Fin 2) * 128 + 1 * (z 0).val = (z 0).val; omega
  | ⟨1, _⟩ => show win2_2.index t (1 : Fin 2) * 128 + 1 * (z 1).val = (z 1).val; omega

/-- The bias row's block is the whole row. -/
theorem blk_bl (c : Dev nD) (t : Fin cfg2.N) : iblk2 V c 3 t = V c main_arg12 := by
  have e := idx_facts t
  funext z
  show V c main_arg12 (((cfg2.win 3).blk t).view.emb z) = V c main_arg12 z
  refine congrArg _ (funext fun a => Fin.ext ?_)
  match a with
  | ⟨0, _⟩ => show win2_3.index t (0 : Fin 1) * 128 + 1 * (z 0).val = (z 0).val; omega

/-- The right weight matrix's block is the whole matrix. -/
theorem blk_Wr (c : Dev nD) (t : Fin cfg2.N) : iblk2 V c 4 t = V c main_arg13 := by
  have e := idx_facts t
  funext z
  show V c main_arg13 (((cfg2.win 4).blk t).view.emb z) = V c main_arg13 z
  refine congrArg _ (funext fun a => Fin.ext ?_)
  match a with
  | ⟨0, _⟩ => show win2_4.index t (0 : Fin 2) * 128 + 1 * (z 0).val = (z 0).val; omega
  | ⟨1, _⟩ => show win2_4.index t (1 : Fin 2) * 128 + 1 * (z 1).val = (z 1).val; omega

/-- The slope row's block is the whole row. -/
theorem blk_a (c : Dev nD) (t : Fin cfg2.N) : iblk2 V c 5 t = V c main_arg14 := by
  have e := idx_facts t
  funext z
  show V c main_arg14 (((cfg2.win 5).blk t).view.emb z) = V c main_arg14 z
  refine congrArg _ (funext fun a => Fin.ext ?_)
  match a with
  | ⟨0, _⟩ => show win2_5.index t (0 : Fin 1) * 128 + 1 * (z 0).val = (z 0).val; omega

/-- The column's block is the whole column. -/
theorem blk_wt (c : Dev nD) (t : Fin cfg2.N) : iblk2 V c 6 t = V c main_v28 := by
  have e := idx_facts t
  funext z
  show V c main_v28 (((cfg2.win 6).blk t).view.emb z) = V c main_v28 z
  refine congrArg _ (funext fun a => Fin.ext ?_)
  match a with
  | ⟨0, _⟩ => show win2_6.index t (0 : Fin 2) * 128 + 1 * (z 0).val = (z 0).val; omega
  | ⟨1, _⟩ => show win2_6.index t (1 : Fin 2) * 1 + 1 * (z 1).val = (z 1).val; omega

/-- The graph layer of the whole arrays the region finds, times the column. -/
abbrev G (c : Dev nD) : Net.Mat 100000 1 :=
  Net.dot (Net.sage (V c main_v27) (V c main_v16_0) (V c main_arg11) (V c main_arg12) (V c main_arg13) (V c main_arg14)) (V c main_v28)

/-- The product computed from point `t`'s blocks, entry `y`, is the product of the whole arrays at the entry's place. -/
theorem body_at (c : Dev nD) (t : Fin cfg2.N) (y : S5000x1.Idx) (i : S100000x1.Idx)
    (h0 : (i 0).val = t.val * 5000 + (y 0).val) (h1 : (i 1).val = (y 1).val) :
    Net.dot (Net.sage (iblk2 V c 0 t) (iblk2 V c 1 t) (iblk2 V c 2 t) (iblk2 V c 3 t) (iblk2 V c 4 t) (iblk2 V c 5 t)) (iblk2 V c 6 t) y
      = G V c i := by
  have e := idx_facts t
  rw [blk_Wl V c t, blk_bl V c t, blk_Wr V c t, blk_a V c t, blk_wt V c t]
  refine Net.dot_rows _ _ _ y i h1.symm fun k => ?_
  refine Net.sage_rows _ _ _ _ _ _ _ _ (ix2 (y 0) k) (ix2 (i 0) k) rfl (fun k' => ?_) (fun k' => ?_)
  · show V c main_v27 (((cfg2.win 0).blk t).view.emb (ix2 (y 0) k')) = V c main_v27 (ix2 (i 0) k')
    refine congrArg _ (funext fun a => Fin.ext ?_)
    match a with
    | ⟨0, _⟩ => show win2_0.index t (0 : Fin 2) * 5000 + 1 * (y 0).val = (i 0).val; omega
    | ⟨1, _⟩ => show win2_0.index t (1 : Fin 2) * 128 + 1 * k'.val = k'.val; omega
  · show V c main_v16_0 (((cfg2.win 1).blk t).view.emb (ix2 (y 0) k')) = V c main_v16_0 (ix2 (i 0) k')
    refine congrArg _ (funext fun a => Fin.ext ?_)
    match a with
    | ⟨0, _⟩ => show win2_1.index t (0 : Fin 2) * 5000 + 1 * (y 0).val = (i 0).val; omega
    | ⟨1, _⟩ => show win2_1.index t (1 : Fin 2) * 128 + 1 * k'.val = k'.val; omega

/-- What point `t` writes back is block `t` of the product. -/
theorem flushed7 (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz2]
  simp only [View.ld_unit_zero (S := S5000x128) hz2, View.ld_unit_zero (S := S128x128) hz2, View.ld_unit_zero (S := S128) hz1,
    View.ld_unit_zero (S := S128x1) hz2]
  rw [Body.pay2]
  have e := idx_facts t
  refine funext fun (y : S5000x1.Idx) => ?_
  refine body_at V c t y _ ?_ ?_
  · show win2_7.index t (0 : Fin 2) * 5000 + 1 * (y 0).val = _; omega
  · show win2_7.index t (1 : Fin 2) * 1 + 1 * (y 1).val = _; omega

theorem mem_blk7 (t : Fin cfg2.N) (i : S100000x1.Idx) :
    i ∈ ((cfg2.win 7).blk t).view.set ↔ ∀ a : Fin 2, win2_7.index t a * S5000x1.size a ≤ (i a).val ∧ (i a).val < win2_7.index t a * S5000x1.size a + S5000x1.size a := by
  show i ∈ ((View.whole main_v30).slice (win2_7.rect t)).set ↔ _
  rw [View.set_slice_whole, Rect.mem_set_unit]
  exact Iff.rfl

/-- The point whose block holds row `r`: `r / 5000`. -/
def pointOf (i : S100000x1.Idx) : Fin cfg2.N :=
  ⟨(i 0).val / 5000, by have h : (i 0).val < 100000 := (i 0).isLt; have hN : grid2.N = 20 := N_2; show _ < grid2.N; omega⟩

/-- The twenty blocks cover the output. -/
theorem cover7 (i : S100000x1.Idx) : ∃ t : Fin cfg2.N, (cfg2.win 7).flush t = true ∧ i ∈ ((cfg2.win 7).blk t).view.set := by
  have hi1 : (i 1).val < 1 := (i 1).isLt
  have e := idx_facts (pointOf i)
  have ht : (pointOf i).val = (i 0).val / 5000 := rfl
  refine ⟨pointOf i, flush2_7 _, ?_⟩
  rw [mem_blk7]
  intro a
  match a with
  | ⟨0, _⟩ => show win2_7.index (pointOf i) (0 : Fin 2) * 5000 ≤ (i 0).val ∧ (i 0).val < win2_7.index (pointOf i) (0 : Fin 2) * 5000 + 5000; omega
  | ⟨1, _⟩ => show win2_7.index (pointOf i) (1 : Fin 2) * 1 ≤ (i 1).val ∧ (i 1).val < win2_7.index (pointOf i) (1 : Fin 2) * 1 + 1; omega

/-- After the region the output holds the product for the arrays the region found. -/
theorem arr7 (c : Dev nD) : (dat2 V c).arrAt 7 cfg2.N = G V c :=
  (dat2 V c).arrAt_eq_of_cover 7 (G V c) (fun t _ => flushed7 V c t) cover7

end Cert.KernelIdeal.Blocks2

end
-- ==== Proof.Blocks3.lean ====
/-
  The head's region. Its grid is one point, and every window's block is its whole array: the fingerprint matrix and
  its weights, the pooled column, the last 128 rows of the projection column, and the bias. The body's value is the
  fingerprint layer's product with the 128-row column, plus the pooled column, plus the bias; the one block is the whole
  output.
-/
import proofs.«151545_j56994216017995_2_alg».proof.Proof.Gen.KernelIdeal.Frame
import proofs.«151545_j56994216017995_2_alg».proof.Proof.KPay
import proofs.«151545_j56994216017995_2_alg».proof.Proof.NetRows
import Idealize.ShloMosaic.Lib.Pipeline.Value

noncomputable section

set_option maxRecDepth 16384

namespace Cert.KernelIdeal.Blocks3

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps at the grid's one point: every block index is zero. -/
theorem idx_facts : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 1) = 0 ∧ win3_3.index t (0 : Fin 1) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 1) = 0
    ∧ win3_7.index t (0 : Fin 2) = 0 ∧ win3_7.index t (1 : Fin 2) = 0 :=
  (by decide +kernel : ∀ t : Fin grid3.N, _)

/-- The fingerprint matrix's block is the whole matrix. -/
theorem blk_fp (c : Dev nD) (t : Fin cfg3.N) : iblk3 V c 0 t = V c main_arg1 := by
  have e := idx_facts t
  funext z
  show V c main_arg1 (((cfg3.win 0).blk t).view.emb z) = V c main_arg1 z
  refine congrArg _ (funext fun a => Fin.ext ?_)
  match a with
  | ⟨0, _⟩ => show win3_0.index t (0 : Fin 2) * 512 + 1 * (z 0).val = (z 0).val; omega
  | ⟨1, _⟩ => show win3_0.index t (1 : Fin 2) * 2048 + 1 * (z 1).val = (z 1).val; omega

/-- The weight matrix's block is the whole matrix. -/
theorem blk_Wfp (c : Dev nD) (t : Fin cfg3.N) : iblk3 V c 1 t = V c main_arg15 := by
  have e := idx_facts t
  funext z
  show V c main_arg15 (((cfg3.win 1).blk t).view.emb z) = V c main_arg15 z
  refine congrArg _ (funext fun a => Fin.ext ?_)
  match a with
  | ⟨0, _⟩ => show win3_1.index t (0 : Fin 2) * 2048 + 1 * (z 0).val = (z 0).val; omega
  | ⟨1, _⟩ => show win3_1.index t (1 : Fin 2) * 128 + 1 * (z 1).val = (z 1).val; omega

/-- The bias row's block is the whole row. -/
theorem blk_bfp (c : Dev nD) (t : Fin cfg3.N) : iblk3 V c 2 t = V c main_arg16 := by
  have e := idx_facts t
  funext z
  show V c main_arg16 (((cfg3.win 2).blk t).view.emb z) = V c main_arg16 z
  refine congrArg _ (funext fun a => Fin.ext ?_)
  match a with
  | ⟨0, _⟩ => show win3_2.index t (0 : Fin 1) * 128 + 1 * (z 0).val = (z 0).val; omega

/-- The slope row's block is the whole row. -/
theorem blk_afp (c : Dev nD) (t : Fin cfg3.N) : iblk3 V c 3 t = V c main_arg17 := by
  have e := idx_facts t
  funext z
  show V c main_arg17 (((cfg3.win 3).blk t).view.emb z) = V c main_arg17 z
  refine congrArg _ (funext fun a => Fin.ext ?_)
  match a with
  | ⟨0, _⟩ => show win3_3.index t (0 : Fin 1) * 128 + 1 * (z 0).val = (z 0).val; omega

/-- The pooled column's block is the whole column. -/
theorem blk_pool (c : Dev nD) (t : Fin cfg3.N) : iblk3 V c 4 t = V c main_v42 := by
  have e := idx_facts t
  funext z
  show V c main_v42 (((cfg3.win 4).blk t).view.emb z) = V c main_v42 z
  refine congrArg _ (funext fun a => Fin.ext ?_)
  match a with
  | ⟨0, _⟩ => show win3_4.index t (0 : Fin 2) * 512 + 1 * (z 0).val = (z 0).val; omega
  | ⟨1, _⟩ => show win3_4.index t (1 : Fin 2) * 1 + 1 * (z 1).val = (z 1).val; omega

/-- The projection column's block is the whole column. -/
theorem blk_wb (c : Dev nD) (t : Fin cfg3.N) : iblk3 V c 5 t = V c main_v29 := by
  have e := idx_facts t
  funext z
  show V c main_v29 (((cfg3.win 5).blk t).view.emb z) = V c main_v29 z
  refine congrArg _ (funext fun a => Fin.ext ?_)
  match a with
  | ⟨0, _⟩ => show win3_5.index t (0 : Fin 2) * 128 + 1 * (z 0).val = (z 0).val; omega
  | ⟨1, _⟩ => show win3_5.index t (1 : Fin 2) * 1 + 1 * (z 1).val = (z 1).val; omega

/-- The bias's block is the whole one-entry array. -/
theorem blk_bpost (c : Dev nD) (t : Fin cfg3.N) : iblk3 V c 6 t = V c main_arg19 := by
  have e := idx_facts t
  funext z
  show V c main_arg19 (((cfg3.win 6).blk t).view.emb z) = V c main_arg19 z
  refine congrArg _ (funext fun a => Fin.ext ?_)
  match a with
  | ⟨0, _⟩ => show win3_6.index t (0 : Fin 1) * 1 + 1 * (z 0).val = (z 0).val; omega

/-- The head's value for the whole arrays the region finds. -/
abbrev G (c : Dev nD) : Net.Mat 512 1 := fun i =>
  (Net.dot (Net.lin (V c main_arg1) (V c main_arg15) (V c main_arg16) (V c main_arg17)) (V c main_v29) i + V c main_v42 i)
    + V c main_arg19 (ix1 (0 : Fin 1))

/-- What the one point writes back is the whole of the head's value. -/
theorem flushed7 (c : Dev nD) (t : Fin cfg3.N) :
    (dat3 V c).flushed 7 t = ((cfg3.win 7).blk t).view.read (Elt Ideal) (G V c) := by
  show (cfg3.win 7).cut (grid3.coords t) ((dat3 V c).after 7 t) = _
  rw [after3_7]
  unfold out3_7
  rw [View.canon_unit_zero hz2]
  simp only [View.ld_unit_zero (S := S512x2048) hz2, View.ld_unit_zero (S := S2048x128) hz2, View.ld_unit_zero (S := S128) hz1,
    View.ld_unit_zero (S := S128x1) hz2, View.ld_unit_zero (S := S512x1) hz2, View.ld_unit_zero (S := S1) hz1]
  rw [Body.pay3]
  rw [blk_fp V c t, blk_Wfp V c t, blk_bfp V c t, blk_afp V c t, blk_pool V c t, blk_wb V c t, blk_bpost V c t]
  have e := idx_facts t
  refine funext fun (y : S512x1.Idx) => ?_
  show G V c y = G V c (((cfg3.win 7).blk t).view.emb y)
  refine congrArg _ (funext fun a => Fin.ext ?_)
  match a with
  | ⟨0, _⟩ => show (y 0).val = win3_7.index t (0 : Fin 2) * 512 + 1 * (y 0).val; omega
  | ⟨1, _⟩ => show (y 1).val = win3_7.index t (1 : Fin 2) * 1 + 1 * (y 1).val; omega

theorem mem_blk7 (t : Fin cfg3.N) (i : S512x1.Idx) :
    i ∈ ((cfg3.win 7).blk t).view.set ↔ ∀ a : Fin 2, win3_7.index t a * S512x1.size a ≤ (i a).val ∧ (i a).val < win3_7.index t a * S512x1.size a + S512x1.size a := by
  show i ∈ ((View.whole main_v43).slice (win3_7.rect t)).set ↔ _
  rw [View.set_slice_whole, Rect.mem_set_unit]
  exact Iff.rfl

/-- The one block covers the output. -/
theorem cover7 (i : S512x1.Idx) : ∃ t : Fin cfg3.N, (cfg3.win 7).flush t = true ∧ i ∈ ((cfg3.win 7).blk t).view.set := by
  have hi0 : (i 0).val < 512 := (i 0).isLt
  have hi1 : (i 1).val < 1 := (i 1).isLt
  have e := idx_facts t3_0
  refine ⟨t3_0, flush3_7 _, ?_⟩
  rw [mem_blk7]
  intro a
  match a with
  | ⟨0, _⟩ => show win3_7.index t3_0 (0 : Fin 2) * 512 ≤ (i 0).val ∧ (i 0).val < win3_7.index t3_0 (0 : Fin 2) * 512 + 512; omega
  | ⟨1, _⟩ => show win3_7.index t3_0 (1 : Fin 2) * 1 ≤ (i 1).val ∧ (i 1).val < win3_7.index t3_0 (1 : Fin 2) * 1 + 1; omega

/-- After the region the output holds the head's value for the arrays the region found. -/
theorem arr7 (c : Dev nD) : (dat3 V c).arrAt 7 cfg3.N = G V c :=
  (dat3 V c).arrAt_eq_of_cover 7 (G V c) (fun t _ => flushed7 V c t) cover7

end Cert.KernelIdeal.Blocks3

end
-- ==== Proof.LibScatterAdd.lean ====
/-
  An accumulating scatter read at one element, on the extended reals.

  A `stablehlo.scatter` whose body ADDS, over several scatter indices, is at the ideal instance the exact sum: each
  element of the result is the operand's element plus the sum of the update elements that land on it; an update
  whose landing place is outside the operand contributes nothing. This file reads that sum in coordinates.

  * `resultIdx?_eq_some_iff` (any dimension numbers): an update index lands on the operand index `i` exactly when
    on every operand axis its start plus its window coordinate is `i`'s coordinate.
  * `scatterAdd_vec_apply`: an operand `[N]`, scatter indices `[E, 1]` and updates `[E]` (no window axis, the one
    operand axis inserted and named by the index vector). Element `n` of the result is the operand at `n` plus the sum
    over `e` of the update `e` when the index word `idx[e, 0]`, read signed, is `n`, and of zero otherwise.
  * `scatterAdd_rows_apply`: an operand `[N, C]`, scatter indices `[E, 1]` and updates `[E, C]` (whole rows: the
    updates' second axis is the window, the operand's first axis is inserted and named by the index vector).
    Element `(n, j)` of the result is the operand at `(n, j)` plus the sum over `e` of the update `(e, j)` when the
    index word `idx[e, 0]`, read signed, is `n`, and of zero otherwise. The row an update lands on depends on the
    index words and on nothing else; a negative word or one that is `N` or more equals no `n` and is dropped.
-/
import Idealize.ShloMosaic.Lib.ValueIdx

noncomputable section

open scoped BigOperators

namespace Cert.LibScatterAdd

open Idealize.ShloMosaic Idealize.ShloMosaic.ValueIdx

/-! ## Where an update lands, for any dimension numbers -/

/-- An update index `j` lands on the operand index `i` exactly when on every operand axis the start read off the
    scatter indices plus the window coordinate is `i`'s coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  split
  · next h =>
    constructor
    · intro hf a
      have h2 : (d.start j idx a + d.window j a).toNat = (i a).val :=
        congrArg Fin.val (congrFun (Option.some.inj hf) a)
      have := h a
      omega
    · intro hf
      refine congrArg some (funext fun a => Fin.ext ?_)
      have := hf a
      have := h a
      show (d.start j idx a + d.window j a).toNat = (i a).val
      omega
  · next h =>
    constructor
    · intro hf
      exact absurd hf (by simp)
    · intro hf
      exact absurd (fun a => by have := hf a; have := (i a).isLt; constructor <;> omega) h

/-- An operand axis carries a window coordinate exactly when it is not an inserted one. -/
theorem mem_sKept {s si u : Shape} (d : ScatterDims s si u) (a : Fin s.rank) :
    a ∈ d.sKept ↔ a ∉ d.insertedWindowDims := by
  simp [ScatterDims.sKept, Shape.kept, List.mem_filter, List.mem_finRange]

/-- On an inserted axis the window coordinate is zero. -/
theorem window_eq_zero {s si u : Shape} (d : ScatterDims s si u) (j : u.Idx) (a : Fin s.rank)
    (ha : a ∈ d.insertedWindowDims) : d.window j a = 0 := by
  unfold ScatterDims.window
  rw [dif_neg (fun h => ((mem_sKept d a).mp h) ha)]

/-- On an axis the index vector does not name the start is zero. -/
theorem start_eq_zero {s si u : Shape} (d : ScatterDims s si u) {w : ℕ} (j : u.Idx) (idx : IVec si w)
    (a : Fin s.rank) (ha : a ∉ d.scatterDimsToOperandDims) : d.start j idx a = 0 := by
  unfold ScatterDims.start
  rw [dif_neg ha]

/-! ## Sums over a rank-1 index set -/

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## A vector scattered into a vector -/

/-- The dimension numbers of a scatter of `[E]` updates into an `[N]` operand by an `[E, 1]` column of indices. -/
abbrev vecDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` starts at its own index word, read signed. -/
theorem vecDims_start {N E w : ℕ} (wf : ScatterDims.WF ⟨1, ![N]⟩ ⟨2, ![E, 1]⟩ ⟨1, ![E]⟩ [] [0] [0] 1)
    (idx : IVec ⟨2, ![E, 1]⟩ w) (e : Fin E) :
    (vecDims N E wf).start (ix1 e) idx (0 : Fin 1) = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Update `e` lands on element `n` exactly when its index word, read signed, is `n`. -/
theorem vecDims_lands_iff {N E w : ℕ} (wf : ScatterDims.WF ⟨1, ![N]⟩ ⟨2, ![E, 1]⟩ ⟨1, ![E]⟩ [] [0] [0] 1)
    (idx : IVec ⟨2, ![E, 1]⟩ w) (e : Fin E) (n : Fin N) :
    (vecDims N E wf).resultIdx? (ix1 e) idx = some (ix1 n) ↔ (idx (ix2 e (0 : Fin 1))).toInt = (n.val : ℤ) := by
  rw [resultIdx?_eq_some_iff]
  constructor
  · intro h
    have h0 := h (0 : Fin 1)
    rw [vecDims_start, window_eq_zero _ _ _ (List.mem_singleton.mpr rfl)] at h0
    simpa using h0
  · intro h a
    obtain rfl : a = 0 := Subsingleton.elim _ _
    rw [vecDims_start, window_eq_zero _ _ _ (List.mem_singleton.mpr rfl)]
    show (idx (ix2 e (0 : Fin 1))).toInt + ((0 : ℕ) : ℤ) = (n.val : ℤ)
    simpa using h

/-- THE SCATTER READ AT ELEMENT `n`: the operand's element plus the sum of the updates whose index word is `n`. -/
theorem scatterAdd_vec_apply {N E w : ℕ} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecDims N E wf) x idx upd (ix1 n)
      = x (ix1 n) + ∑ e : Fin E, if (idx (ix2 e (0 : Fin 1))).toInt = (n.val : ℤ) then upd (ix1 e) else 0 := by
  unfold Host.scatterAdd
  rw [Ideal.hostScatterAdd_def]
  unfold Ideal.hostScatterAdd
  rw [Finset.sum_filter, sum_idx1]
  exact congrArg (x (ix1 n) + ·) (Finset.sum_congr rfl fun e _ => if_congr (vecDims_lands_iff wf idx e n) rfl rfl)

/-! ## Rows scattered into a matrix -/

/-- The dimension numbers of a scatter of `[E, C]` row updates into an `[N, C]` operand by an `[E, 1]` column of
    row indices. -/
abbrev rowDims (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update row `e` starts, on the row axis, at its own index word read signed. -/
theorem rowDims_start {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowDims N E C wf).start (ix2 e c) idx (0 : Fin 2) = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e c) ⟨List.idxOf (0 : Fin 2) (rowDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window coordinate of update `(e, c)` is `c`. -/
theorem rowDims_window {N E C : ℕ} (wf : ScatterDims.WF ⟨2, ![N, C]⟩ ⟨2, ![E, 1]⟩ ⟨2, ![E, C]⟩ [1] [0] [0] 1)
    (e : Fin E) (c : Fin C) : (rowDims N E C wf).window (ix2 e c) (1 : Fin 2) = c.val := by
  unfold ScatterDims.window
  rw [dif_pos (show (1 : Fin 2) ∈ (rowDims N E C wf).sKept from
    (mem_sKept _ _).mpr (fun h => absurd (Fin.val_eq_of_eq (List.mem_singleton.mp h)) Nat.one_ne_zero))]
  rfl

/-- Update `(e, c)` lands on element `(n, j)` exactly when its row's index word, read signed, is `n` and `c` is `j`. -/
theorem rowDims_lands_iff {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (j : Fin C) :
    (rowDims N E C wf).resultIdx? (ix2 e c) idx = some (ix2 n j)
      ↔ (idx (ix2 e (0 : Fin 1))).toInt = (n.val : ℤ) ∧ c = j := by
  have h1 : (1 : Fin 2) ∉ (rowDims N E C wf).scatterDimsToOperandDims :=
    fun h => absurd (Fin.val_eq_of_eq (List.mem_singleton.mp h)) Nat.one_ne_zero
  rw [resultIdx?_eq_some_iff]
  constructor
  · intro h
    have h0 := h (0 : Fin 2)
    have h1' := h (1 : Fin 2)
    rw [rowDims_start, window_eq_zero _ _ _ (List.mem_singleton.mpr rfl)] at h0
    rw [start_eq_zero _ _ _ _ h1, rowDims_window] at h1'
    refine ⟨by simpa using h0, Fin.ext ?_⟩
    have h1'' : ((c.val : ℕ) : ℤ) = ((j.val : ℕ) : ℤ) := by simpa using h1'
    exact_mod_cast h1''
  · rintro ⟨h, rfl⟩ a
    match a with
    | ⟨0, _⟩ =>
      show (rowDims N E C wf).start (ix2 e c) idx (0 : Fin 2) + ((rowDims N E C wf).window (ix2 e c) (0 : Fin 2) : ℤ) = (n.val : ℤ)
      rw [rowDims_start, window_eq_zero _ _ _ (List.mem_singleton.mpr rfl)]
      simpa using h
    | ⟨1, _⟩ =>
      show (rowDims N E C wf).start (ix2 e c) idx (1 : Fin 2) + ((rowDims N E C wf).window (ix2 e c) (1 : Fin 2) : ℤ) = (c.val : ℤ)
      rw [start_eq_zero _ _ _ _ h1, rowDims_window]
      simp

/-- THE SCATTER READ AT ELEMENT `(n, j)`: the operand's element plus the sum, over the update rows whose index word
    is `n`, of their entries in column `j`. -/
theorem scatterAdd_rows_apply {N E C w : ℕ} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (j : Fin C) :
    Host.scatterAdd (F := Ideal) (rowDims N E C wf) x idx upd (ix2 n j)
      = x (ix2 n j) + ∑ e : Fin E, if (idx (ix2 e (0 : Fin 1))).toInt = (n.val : ℤ) then upd (ix2 e j) else 0 := by
  unfold Host.scatterAdd
  rw [Ideal.hostScatterAdd_def]
  unfold Ideal.hostScatterAdd
  rw [Finset.sum_filter, sum_idx2]
  refine congrArg (x (ix2 n j) + ·) (Finset.sum_congr rfl fun e _ => ?_)
  rw [Finset.sum_congr rfl fun c _ => if_congr (rowDims_lands_iff wf idx e c n j) rfl rfl]
  by_cases h : (idx (ix2 e (0 : Fin 1))).toInt = (n.val : ℤ)
  · simp only [h, true_and, if_true]
    exact Finset.sum_ite_eq' Finset.univ j (fun c => upd (ix2 e c)) |>.trans (if_pos (Finset.mem_univ j))
  · simp only [h, false_and, if_false]
    exact Finset.sum_const_zero

end Cert.LibScatterAdd

end
-- ==== Proof.Chain.lean ====
/-
  The kernel program's host operations between its four regions, read as functions of the launch contents.

  The program slices the edge array into a source and a target vector, wraps negative source words once, and uses the
  two as columns of row numbers: before each graph layer it gathers the rows of the previous layer's (narrow copy of
  the) output named by the source column and adds them into the rows named by the target column, starting from
  zero — the aggregation `Kagg`.  After the third region it sums that region's one number per node over the nodes of
  each graph (a scatter-add by the graph column `Kbcol`), divides by the graph's size (the same scatter-add of ones, at
  least one) and hands the quotient, as a column, to the last region.  The first and last 128 rows of the projection
  column are two slices.

  A buffer's contents at a boundary are followed back through the boundaries: a stretch of host operations leaves
  every buffer it does not write as it was and gives each written buffer its operation's value of the buffers read;
  a region leaves every buffer that is not one of its arrays as it was, and its output arrays hold what the region
  facts `R0 … R3` say.  Walking from the result buffer back to the launch contents gives the specification `Net.kerOut`.
-/
import proofs.«151545_j56994216017995_2_alg».proof.Proof.Gen.KernelIdeal.Frame
import proofs.«151545_j56994216017995_2_alg».proof.Proof.Net
import proofs.«151545_j56994216017995_2_alg».proof.Proof.LibScatterAdd
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Chain

open Idealize.ShloMosaic Idealize.ShloMosaic.TcCoe Idealize.ShloMosaic.ValueIdx
open Idealize.SL.Sem
open Cert.KernelIdeal.Gen

/-! ## The edge columns, the aggregation, the graph column and the pooled column, in the program's own operations -/

/-- Row 0 of the edge array as a vector: the edges' source words. -/
def srcVec (x2 : IVec S2x1600000 32) : IVec S1600000 32 :=
  shapeCast S1600000 (extractStridedSlice S1x1600000 ![0, 0] x2 slices_S2x1600000_S1x1600000_0_0) shapeCasts_S1x1600000_S1600000

/-- Row 1 of the edge array as a vector: the edges' target words. -/
def dstVec (x2 : IVec S2x1600000 32) : IVec S1600000 32 :=
  shapeCast S1600000 (extractStridedSlice S1x1600000 ![1, 0] x2 slices_S2x1600000_S1x1600000_1_0) shapeCasts_S1x1600000_S1600000

/-- The source column: a negative source word has the number of nodes added once. -/
def srcCol (x2 : IVec S2x1600000 32) : IVec S1600000x1 32 :=
  broadcastInDim S1600000x1 ![0] bcast_S1600000_S1600000x1_0
    (select (cmpi .slt (srcVec x2) (broadcastInDim S1600000 ![] bcast_S_S1600000 (constantI S_ 32 0#32)))
      (addi (srcVec x2) (broadcastInDim S1600000 ![] bcast_S_S1600000 (constantI S_ 32 100000#32))) (srcVec x2))

/-- The target column. -/
def dstCol (x2 : IVec S2x1600000 32) : IVec S1600000x1 32 :=
  broadcastInDim S1600000x1 ![0] bcast_S1600000_S1600000x1_0 (dstVec x2)

/-- The aggregation over the edges: the rows of `h` named by the source column, added into the rows named by the
    target column, from zero. -/
def Kagg (x2 : IVec S2x1600000 32) (h : Net.Mat 100000 128) : Net.Mat 100000 128 :=
  Host.scatterAdd (F := Ideal) (φ := .f32) scatter_S100000x128_S1600000x1_S1600000x128_1_0_0_1
    (broadcastInDim S100000x128 ![] bcast_S_S100000x128 (constant (F := Ideal) S_ .f32 0x00000000#32)) (dstCol x2)
    (extf .f32 (Host.gather gather_S100000x128_S1600000x1_S1600000x128_1_0_n_n_0_1_1128 h (srcCol x2) : FVec Ideal S1600000x128 .bf16)
      bitsLt_bf16_f32)

/-- The graph column: each node's graph word. -/
def Kbcol (x3 : IVec S100000 32) : Net.Col 100000 := broadcastInDim S100000x1 ![0] bcast_S100000_S100000x1_0 x3

/-- The node numbers `o` summed per graph, from zero. -/
def sumsTop (x3 : IVec S100000 32) (o : Net.Mat 100000 1) : FVec Ideal S512 .f32 :=
  Host.scatterAdd (F := Ideal) (φ := .f32) scatter_S512_S100000x1_S100000_n_0_0_1
    (broadcastInDim S512 ![] bcast_S_S512 (constant (F := Ideal) S_ .f32 0x00000000#32)) (Kbcol x3)
    (shapeCast S100000 o shapeCasts_S100000x1_S100000)

/-- The graphs' sizes: a one for every node, summed per graph, from zero. -/
def cnts (x3 : IVec S100000 32) : FVec Ideal S512 .f32 :=
  Host.scatterAdd (F := Ideal) (φ := .f32) scatter_S512_S100000x1_S100000_n_0_0_1
    (broadcastInDim S512 ![] bcast_S_S512 (constant (F := Ideal) S_ .f32 0x00000000#32)) (Kbcol x3)
    (broadcastInDim S100000 ![] bcast_S_S100000 (constant (F := Ideal) S_ .f32 0x3F800000#32))

/-- The pooled column: the per-graph sums divided by the graph's size or by one. -/
def pooledCol (x3 : IVec S100000 32) (o : Net.Mat 100000 1) : Net.Mat 512 1 :=
  broadcastInDim S512x1 ![0] bcast_S512_S512x1_0
    (Host.divf (F := Ideal) (φ := .f32) (sumsTop x3 o)
      (maximumf (F := Ideal) (φ := .f32) (cnts x3)
        (broadcastInDim S512 ![] bcast_S_S512 (constant (F := Ideal) S_ .f32 0x3F800000#32))))

/-! ## The pooled column, the two slices, read at an index -/

/-- A scatter-add of a node vector by the graph column, from zero, at graph `g`: zero plus the entries of the nodes
    whose graph word is `g`. -/
theorem seg_eq (bc : Net.Col 100000) (u : FVec Ideal S100000 .f32) (g : Fin 512) :
    Host.scatterAdd (F := Ideal) (φ := .f32) scatter_S512_S100000x1_S100000_n_0_0_1
        (broadcastInDim S512 ![] bcast_S_S512 (constant (F := Ideal) S_ .f32 0x00000000#32)) bc u (ix1 g)
      = Net.zeroW + ∑ e : Fin 100000, if (bc (ix2 e (0 : Fin 1))).toInt = (g.val : ℤ) then u (ix1 e) else 0 :=
  LibScatterAdd.scatterAdd_vec_apply (N := 512) (E := 100000) scatter_S512_S100000x1_S100000_n_0_0_1_wf _ bc u g

/-- The per-graph sums are the specification's. -/
theorem sumsTop_apply (x3 : IVec S100000 32) (o : Net.Mat 100000 1) (g : Fin 512) :
    sumsTop x3 o (ix1 g) = Net.segCol (Kbcol x3) o (ix1 g) := by
  have hu : ∀ e : Fin 100000, shapeCast S100000 o shapeCasts_S100000x1_S100000 (ix1 e) = o (ix2 e (0 : Fin 1)) := fun e =>
    shapeCast_apply o _ (ix1 e) (ix2 e (0 : Fin 1)) (by
      rw [Shape.rowMajor_val_two, Shape.rowMajor_val_one]
      show e.val * 1 + 0 = e.val
      omega)
  refine (seg_eq (Kbcol x3) (shapeCast S100000 o shapeCasts_S100000x1_S100000) g).trans ?_
  exact congrArg (Net.zeroW + ·) (Finset.sum_congr rfl fun e _ => by rw [hu e])

/-- The graphs' sizes are the specification's. -/
theorem cnts_apply (x3 : IVec S100000 32) (g : Fin 512) : cnts x3 (ix1 g) = Net.cnt (Kbcol x3) (ix1 g) :=
  seg_eq (Kbcol x3) (broadcastInDim S100000 ![] bcast_S_S100000 (constant (F := Ideal) S_ .f32 0x3F800000#32)) g

/-- A quotient of two vectors at an index is the quotient of the entries. -/
theorem hostDivf_at (a b : FVec Ideal S512 .f32) (i : S512.Idx) : Host.divf (F := Ideal) a b i = Ideal.div (a i) (b i) := rfl

/-- The splat of the float one reads the float one everywhere. -/
theorem ones_at (g : Fin 512) :
    broadcastInDim S512 ![] bcast_S_S512 (constant (F := Ideal) S_ .f32 0x3F800000#32) (ix1 g) = Net.oneW := rfl

/-- The pooled column at graph `g` is the per-graph sum over the divisor, as the specification writes them. -/
theorem pooledCol_apply (x3 : IVec S100000 32) (o : Net.Mat 100000 1) (g : Fin 512) :
    pooledCol x3 o (ix2 g (0 : Fin 1)) = Ideal.div (Net.segCol (Kbcol x3) o (ix1 g)) (Net.den (Kbcol x3) (ix1 g)) := by
  unfold pooledCol
  refine (broadcastInDim_apply (s := S512) (t := S512x1) (![0] : Fin 1 → Fin 2) bcast_S512_S512x1_0 _ (ix2 g (0 : Fin 1)) (ix1 g) ?_).trans ?_
  · intro a
    match a with
    | ⟨0, _⟩ => exact (if_neg (show ¬ ((512 : ℕ) = 1) by decide)).symm
  · rw [hostDivf_at, maximumf_apply, ones_at, sumsTop_apply, cnts_apply]
    rfl

/-- The first 128 rows of the projection column. -/
theorem slice_top (W : Net.Mat 256 1) : extractStridedSlice S128x1 ![0, 0] W slices_S256x1_S128x1_0_0 = Net.top W := by
  funext i
  obtain ⟨t, z, rfl⟩ : ∃ (t : Fin 128) (z : Fin 1), i = ix2 t z := ⟨i 0, i 1, eq_ix2 i⟩
  exact extractStridedSlice_apply ![0, 0] W slices_S256x1_S128x1_0_0 (ix2 t z) (ix2 ⟨t.val, by have := t.isLt; omega⟩ z) (fun a => by
    match a with
    | ⟨0, _⟩ => exact (Nat.zero_add _).symm
    | ⟨1, _⟩ => exact (Nat.zero_add _).symm)

/-- The last 128 rows of the projection column. -/
theorem slice_bot (W : Net.Mat 256 1) : extractStridedSlice S128x1 ![128, 0] W slices_S256x1_S128x1_128_0 = Net.bot W := by
  funext i
  obtain ⟨t, z, rfl⟩ : ∃ (t : Fin 128) (z : Fin 1), i = ix2 t z := ⟨i 0, i 1, eq_ix2 i⟩
  exact extractStridedSlice_apply ![128, 0] W slices_S256x1_S128x1_128_0 (ix2 t z) (ix2 ⟨128 + t.val, by have := t.isLt; omega⟩ z) (fun a => by
    match a with
    | ⟨0, _⟩ => rfl
    | ⟨1, _⟩ => exact (Nat.zero_add _).symm)

/-! ## Equal arguments, equal layers -/

theorem lin_congr {n k d : ℕ} {x x' : Net.Mat n k} {W W' : Net.Mat k d} {b b' a a' : Net.Vc d}
    (hx : x = x') (hW : W = W') (hb : b = b') (ha : a = a') : Net.lin x W b a = Net.lin x' W' b' a' := by
  subst hx hW hb ha; rfl

theorem sage_congr {n d : ℕ} {g g' h h' : Net.Mat n d} {Wl Wl' Wr Wr' : Net.Mat d d} {bl bl' a a' : Net.Vc d}
    (hg : g = g') (hh : h = h') (hWl : Wl = Wl') (hbl : bl = bl') (hWr : Wr = Wr') (ha : a = a') :
    Net.sage g h Wl bl Wr a = Net.sage g' h' Wl' bl' Wr' a' := by
  subst hg hh hWl hbl hWr ha; rfl

theorem dot_congr {n k d : ℕ} {x x' : Net.Mat n k} {W W' : Net.Mat k d} (hx : x = x') (hW : W = W') :
    Net.dot x W = Net.dot x' W' := by
  subst hx hW; rfl

/-! ## What the regions leave in their output arrays (proved elsewhere, for any entry contents) -/

/-- Region 0: the input layer, in both output arrays. -/
abbrev R0 : Prop :=
  ∀ (V : (c : Dev nD) → (b : Ref sig .tc) → Buf (Elt Ideal) ((c : Thread nD τ).loc b)) (c : Dev nD),
    (dat0 V c).arrAt 4 cfg0.N = Net.lin (V c main_arg0) (V c main_arg4) (V c main_arg5) (V c main_arg6)
    ∧ (dat0 V c).arrAt 5 cfg0.N = Net.lin (V c main_arg0) (V c main_arg4) (V c main_arg5) (V c main_arg6)

/-- Region 1: the first graph layer, in both output arrays. -/
abbrev R1 : Prop :=
  ∀ (V : (c : Dev nD) → (b : Ref sig .tc) → Buf (Elt Ideal) ((c : Thread nD τ).loc b)) (c : Dev nD),
    (dat1 V c).arrAt 6 cfg1.N
        = Net.sage (V c main_v15) (V c main_v4_0) (V c main_arg7) (V c main_arg8) (V c main_arg9) (V c main_arg10)
    ∧ (dat1 V c).arrAt 7 cfg1.N
        = Net.sage (V c main_v15) (V c main_v4_0) (V c main_arg7) (V c main_arg8) (V c main_arg9) (V c main_arg10)

/-- Region 2: the second graph layer projected by the first 128 rows of the projection column. -/
abbrev R2 : Prop :=
  ∀ (V : (c : Dev nD) → (b : Ref sig .tc) → Buf (Elt Ideal) ((c : Thread nD τ).loc b)) (c : Dev nD),
    (dat2 V c).arrAt 7 cfg2.N
      = Net.dot (Net.sage (V c main_v27) (V c main_v16_0) (V c main_arg11) (V c main_arg12) (V c main_arg13) (V c main_arg14))
          (V c main_v28)

/-- Region 3: the fingerprint layer projected by the last 128 rows, plus the pooled column, plus the bias. -/
abbrev R3 : Prop :=
  ∀ (V : (c : Dev nD) → (b : Ref sig .tc) → Buf (Elt Ideal) ((c : Thread nD τ).loc b)) (c : Dev nD),
    (dat3 V c).arrAt 7 cfg3.N
      = fun i => (Net.dot (Net.lin (V c main_arg1) (V c main_arg15) (V c main_arg16) (V c main_arg17)) (V c main_v29) i
          + V c main_v42 i) + V c main_arg19 (ix1 (0 : Fin 1))

/-! ## What each stretch of host operations writes -/

abbrev wr0 : List (Ref sig .tc) := [main_v0, main_v1, main_v2, main_v3]
abbrev wr1 : List (Ref sig .tc) :=
  [main_c, main_v5, main_v6, main_c_0, main_v7, main_v8, main_v9, main_v10, main_v11, main_v12, main_cst, main_v13, main_v14, main_v15]
abbrev wr2 : List (Ref sig .tc) :=
  [main_c_1, main_v17, main_v18, main_c_2, main_v19, main_v20, main_v21, main_v22, main_v23, main_v24, main_cst_3, main_v25,
    main_v26, main_v27, main_v28, main_v29]
abbrev wr3 : List (Ref sig .tc) :=
  [main_v31, main_cst_4, main_v32, main_v33, main_v34, main_cst_5, main_v35, main_cst_6, main_v36, main_v37, main_v38, main_cst_7,
    main_v39, main_v40, main_v41, main_v42]

theorem wr0_sub : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem wr1_sub : (hostOps1 : List (HloOp τ sig (Elt Ideal))).Forall fun op => op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem wr2_sub : (hostOps2 : List (HloOp τ sig (Elt Ideal))).Forall fun op => op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem wr3_sub : (hostOps3 : List (HloOp τ sig (Elt Ideal))).Forall fun op => op.writes ⊆ (wr3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

variable (m : (ℓ : Loc nD τ sig) → Buf (Elt Ideal) ℓ) (ρ : Dev nD → PrngReg) (c : Dev nD)

/-- The launch contents of a buffer of core `c`. -/
abbrev at0 (b : Ref sig .tc) : Buf (Elt Ideal) ((c : Thread nD τ).loc b) := m ((c : Thread nD τ).loc b)

/-! ## A buffer no stretch writes and no region holds keeps its launch contents, boundary by boundary -/

theorem W1_of (r : Ref sig .tc) (h : r ∉ wr0) : W1 m ρ c (Proc.devRef .tc r) = W0 m ρ c (Proc.devRef .tc r) :=
  StableHlo.after_of_writes_sub hostOps0 _ wr0_sub h
theorem W3_of (r : Ref sig .tc) (h : r ∉ wr1) : W3 m ρ c (Proc.devRef .tc r) = W2 m ρ c (Proc.devRef .tc r) :=
  StableHlo.after_of_writes_sub hostOps1 _ wr1_sub h
theorem W5_of (r : Ref sig .tc) (h : r ∉ wr2) : W5 m ρ c (Proc.devRef .tc r) = W4 m ρ c (Proc.devRef .tc r) :=
  StableHlo.after_of_writes_sub hostOps2 _ wr2_sub h
theorem W7_of (r : Ref sig .tc) (h : r ∉ wr3) : W7 m ρ c (Proc.devRef .tc r) = W6 m ρ c (Proc.devRef .tc r) :=
  StableHlo.after_of_writes_sub hostOps3 _ wr3_sub h

theorem W1_arg (r : Ref sig .tc) (h0 : r ∉ wr0) : W1 m ρ c (Proc.devRef .tc r) = at0 m c r :=
  (W1_of m ρ c r h0).trans rfl
theorem W2_arg (r : Ref sig .tc) (h0 : r ∉ wr0) (r0 : ∀ w, Pipeline.arrRef spec0 w ≠ r) :
    W2 m ρ c (Proc.devRef .tc r) = at0 m c r :=
  (W2_of_ne m ρ c r r0).trans (W1_arg m ρ c r h0)
theorem W3_arg (r : Ref sig .tc) (h0 : r ∉ wr0) (r0 : ∀ w, Pipeline.arrRef spec0 w ≠ r) (h1 : r ∉ wr1) :
    W3 m ρ c (Proc.devRef .tc r) = at0 m c r :=
  (W3_of m ρ c r h1).trans (W2_arg m ρ c r h0 r0)
theorem W4_arg (r : Ref sig .tc) (h0 : r ∉ wr0) (r0 : ∀ w, Pipeline.arrRef spec0 w ≠ r) (h1 : r ∉ wr1)
    (r1 : ∀ w, Pipeline.arrRef spec1 w ≠ r) : W4 m ρ c (Proc.devRef .tc r) = at0 m c r :=
  (W4_of_ne m ρ c r r1).trans (W3_arg m ρ c r h0 r0 h1)
theorem W5_arg (r : Ref sig .tc) (h0 : r ∉ wr0) (r0 : ∀ w, Pipeline.arrRef spec0 w ≠ r) (h1 : r ∉ wr1)
    (r1 : ∀ w, Pipeline.arrRef spec1 w ≠ r) (h2 : r ∉ wr2) : W5 m ρ c (Proc.devRef .tc r) = at0 m c r :=
  (W5_of m ρ c r h2).trans (W4_arg m ρ c r h0 r0 h1 r1)
theorem W6_arg (r : Ref sig .tc) (h0 : r ∉ wr0) (r0 : ∀ w, Pipeline.arrRef spec0 w ≠ r) (h1 : r ∉ wr1)
    (r1 : ∀ w, Pipeline.arrRef spec1 w ≠ r) (h2 : r ∉ wr2) (r2 : ∀ w, Pipeline.arrRef spec2 w ≠ r) :
    W6 m ρ c (Proc.devRef .tc r) = at0 m c r :=
  (W6_of_ne m ρ c r r2).trans (W5_arg m ρ c r h0 r0 h1 r1 h2)
theorem W7_arg (r : Ref sig .tc) (h0 : r ∉ wr0) (r0 : ∀ w, Pipeline.arrRef spec0 w ≠ r) (h1 : r ∉ wr1)
    (r1 : ∀ w, Pipeline.arrRef spec1 w ≠ r) (h2 : r ∉ wr2) (r2 : ∀ w, Pipeline.arrRef spec2 w ≠ r) (h3 : r ∉ wr3) :
    W7 m ρ c (Proc.devRef .tc r) = at0 m c r :=
  (W7_of m ρ c r h3).trans (W6_arg m ρ c r h0 r0 h1 r1 h2 r2)

/-! ## The edge vectors -/

theorem W1_v1 : W1 m ρ c (Proc.devRef .tc main_v1) = srcVec (at0 m c main_arg2) := by
  show StableHlo.after hostOps0 _ (Proc.devRef .tc main_v1) = _
  after_results
  rfl
theorem W1_v3 : W1 m ρ c (Proc.devRef .tc main_v3) = dstVec (at0 m c main_arg2) := by
  show StableHlo.after hostOps0 _ (Proc.devRef .tc main_v3) = _
  after_results
  rfl
theorem W2_v1 : W2 m ρ c (Proc.devRef .tc main_v1) = srcVec (at0 m c main_arg2) :=
  (W2_of_ne m ρ c main_v1 (by decide)).trans (W1_v1 m ρ c)
theorem W2_v3 : W2 m ρ c (Proc.devRef .tc main_v3) = dstVec (at0 m c main_arg2) :=
  (W2_of_ne m ρ c main_v3 (by decide)).trans (W1_v3 m ρ c)
theorem W4_v1 : W4 m ρ c (Proc.devRef .tc main_v1) = srcVec (at0 m c main_arg2) :=
  (W4_of_ne m ρ c main_v1 (by decide)).trans ((W3_of m ρ c main_v1 (by decide)).trans (W2_v1 m ρ c))
theorem W4_v3 : W4 m ρ c (Proc.devRef .tc main_v3) = dstVec (at0 m c main_arg2) :=
  (W4_of_ne m ρ c main_v3 (by decide)).trans ((W3_of m ρ c main_v3 (by decide)).trans (W2_v3 m ρ c))

/-! ## The input layer -/

theorem W2_v4_0 (hR0 : R0) : W2 m ρ c (Proc.devRef .tc main_v4_0) = Net.h0 (at0 m c main_arg0) (at0 m c main_arg4) (at0 m c main_arg5) (at0 m c main_arg6) := by
  refine (W2_arr m ρ c 4).trans ?_
  refine (hR0 (V1 m ρ) c).1.trans ?_
  exact lin_congr (W1_arg m ρ c main_arg0 (by decide)) (W1_arg m ρ c main_arg4 (by decide)) (W1_arg m ρ c main_arg5 (by decide))
    (W1_arg m ρ c main_arg6 (by decide))
theorem W2_v4_1 (hR0 : R0) : W2 m ρ c (Proc.devRef .tc main_v4_1) = Net.h0 (at0 m c main_arg0) (at0 m c main_arg4) (at0 m c main_arg5) (at0 m c main_arg6) := by
  refine (W2_arr m ρ c 5).trans ?_
  refine (hR0 (V1 m ρ) c).2.trans ?_
  exact lin_congr (W1_arg m ρ c main_arg0 (by decide)) (W1_arg m ρ c main_arg4 (by decide)) (W1_arg m ρ c main_arg5 (by decide))
    (W1_arg m ρ c main_arg6 (by decide))
theorem W3_v4_0 (hR0 : R0) : W3 m ρ c (Proc.devRef .tc main_v4_0) = Net.h0 (at0 m c main_arg0) (at0 m c main_arg4) (at0 m c main_arg5) (at0 m c main_arg6) :=
  (W3_of m ρ c main_v4_0 (by decide)).trans (W2_v4_0 m ρ c hR0)

/-- The first aggregation. -/
theorem W3_v15 (hR0 : R0) :
    W3 m ρ c (Proc.devRef .tc main_v15) = Kagg (at0 m c main_arg2) (Net.h0 (at0 m c main_arg0) (at0 m c main_arg4) (at0 m c main_arg5) (at0 m c main_arg6)) := by
  show StableHlo.after hostOps1 _ (Proc.devRef .tc main_v15) = _
  after_results
  rw [W2_v4_1 m ρ c hR0, W2_v1 m ρ c, W2_v3 m ρ c]
  rfl

/-! ## The first graph layer -/

theorem W4_v16_0 (hR0 : R0) (hR1 : R1) : W4 m ρ c (Proc.devRef .tc main_v16_0) = Net.h1 (Kagg (at0 m c main_arg2)) (at0 m c main_arg0) (at0 m c main_arg4) (at0 m c main_arg5) (at0 m c main_arg6) (at0 m c main_arg7) (at0 m c main_arg8) (at0 m c main_arg9) (at0 m c main_arg10) := by
  refine (W4_arr m ρ c 6).trans ?_
  refine (hR1 (V3 m ρ) c).1.trans ?_
  exact sage_congr (W3_v15 m ρ c hR0) (W3_v4_0 m ρ c hR0) (W3_arg m ρ c main_arg7 (by decide) (by decide) (by decide))
    (W3_arg m ρ c main_arg8 (by decide) (by decide) (by decide)) (W3_arg m ρ c main_arg9 (by decide) (by decide) (by decide)) (W3_arg m ρ c main_arg10 (by decide) (by decide) (by decide))
theorem W4_v16_1 (hR0 : R0) (hR1 : R1) : W4 m ρ c (Proc.devRef .tc main_v16_1) = Net.h1 (Kagg (at0 m c main_arg2)) (at0 m c main_arg0) (at0 m c main_arg4) (at0 m c main_arg5) (at0 m c main_arg6) (at0 m c main_arg7) (at0 m c main_arg8) (at0 m c main_arg9) (at0 m c main_arg10) := by
  refine (W4_arr m ρ c 7).trans ?_
  refine (hR1 (V3 m ρ) c).2.trans ?_
  exact sage_congr (W3_v15 m ρ c hR0) (W3_v4_0 m ρ c hR0) (W3_arg m ρ c main_arg7 (by decide) (by decide) (by decide))
    (W3_arg m ρ c main_arg8 (by decide) (by decide) (by decide)) (W3_arg m ρ c main_arg9 (by decide) (by decide) (by decide)) (W3_arg m ρ c main_arg10 (by decide) (by decide) (by decide))
theorem W5_v16_0 (hR0 : R0) (hR1 : R1) : W5 m ρ c (Proc.devRef .tc main_v16_0) = Net.h1 (Kagg (at0 m c main_arg2)) (at0 m c main_arg0) (at0 m c main_arg4) (at0 m c main_arg5) (at0 m c main_arg6) (at0 m c main_arg7) (at0 m c main_arg8) (at0 m c main_arg9) (at0 m c main_arg10) :=
  (W5_of m ρ c main_v16_0 (by decide)).trans (W4_v16_0 m ρ c hR0 hR1)

/-- The second aggregation. -/
theorem W5_v27 (hR0 : R0) (hR1 : R1) : W5 m ρ c (Proc.devRef .tc main_v27) = Kagg (at0 m c main_arg2) (Net.h1 (Kagg (at0 m c main_arg2)) (at0 m c main_arg0) (at0 m c main_arg4) (at0 m c main_arg5) (at0 m c main_arg6) (at0 m c main_arg7) (at0 m c main_arg8) (at0 m c main_arg9) (at0 m c main_arg10)) := by
  show StableHlo.after hostOps2 _ (Proc.devRef .tc main_v27) = _
  after_results
  rw [W4_v16_1 m ρ c hR0 hR1, W4_v1 m ρ c, W4_v3 m ρ c]
  rfl

/-! ## The two halves of the projection column -/

theorem W5_v28 : W5 m ρ c (Proc.devRef .tc main_v28) = Net.top (at0 m c main_arg18) := by
  show StableHlo.after hostOps2 _ (Proc.devRef .tc main_v28) = _
  after_results
  rw [W4_arg m ρ c main_arg18 (by decide) (by decide) (by decide) (by decide)]
  exact slice_top _
theorem W5_v29 : W5 m ρ c (Proc.devRef .tc main_v29) = Net.bot (at0 m c main_arg18) := by
  show StableHlo.after hostOps2 _ (Proc.devRef .tc main_v29) = _
  after_results
  rw [W4_arg m ρ c main_arg18 (by decide) (by decide) (by decide) (by decide)]
  exact slice_bot _
theorem W7_v29 : W7 m ρ c (Proc.devRef .tc main_v29) = Net.bot (at0 m c main_arg18) :=
  (W7_of m ρ c main_v29 (by decide)).trans ((W6_of_ne m ρ c main_v29 (by decide)).trans (W5_v29 m ρ c))

/-! ## The second graph layer, projected -/

theorem W6_v30 (hR0 : R0) (hR1 : R1) (hR2 : R2) : W6 m ρ c (Proc.devRef .tc main_v30) = Net.dot (Net.h2 (Kagg (at0 m c main_arg2)) (at0 m c main_arg0) (at0 m c main_arg4) (at0 m c main_arg5) (at0 m c main_arg6) (at0 m c main_arg7) (at0 m c main_arg8) (at0 m c main_arg9) (at0 m c main_arg10) (at0 m c main_arg11) (at0 m c main_arg12) (at0 m c main_arg13) (at0 m c main_arg14)) (Net.top (at0 m c main_arg18)) := by
  refine (W6_arr m ρ c 7).trans ?_
  refine (hR2 (V5 m ρ) c).trans ?_
  exact dot_congr (sage_congr (W5_v27 m ρ c hR0 hR1) (W5_v16_0 m ρ c hR0 hR1) (W5_arg m ρ c main_arg11 (by decide) (by decide) (by decide) (by decide) (by decide))
    (W5_arg m ρ c main_arg12 (by decide) (by decide) (by decide) (by decide) (by decide)) (W5_arg m ρ c main_arg13 (by decide) (by decide) (by decide) (by decide) (by decide)) (W5_arg m ρ c main_arg14 (by decide) (by decide) (by decide) (by decide) (by decide))) (W5_v28 m ρ c)

/-- The pooled column handed to the last region. -/
theorem W7_v42 (hR0 : R0) (hR1 : R1) (hR2 : R2) :
    W7 m ρ c (Proc.devRef .tc main_v42) = pooledCol (at0 m c main_arg3) (Net.dot (Net.h2 (Kagg (at0 m c main_arg2)) (at0 m c main_arg0) (at0 m c main_arg4) (at0 m c main_arg5) (at0 m c main_arg6) (at0 m c main_arg7) (at0 m c main_arg8) (at0 m c main_arg9) (at0 m c main_arg10) (at0 m c main_arg11) (at0 m c main_arg12) (at0 m c main_arg13) (at0 m c main_arg14)) (Net.top (at0 m c main_arg18))) := by
  show StableHlo.after hostOps3 _ (Proc.devRef .tc main_v42) = _
  after_results_simp
  rw [W6_v30 m ρ c hR0 hR1 hR2, W6_arg m ρ c main_arg3 (by decide) (by decide) (by decide) (by decide) (by decide) (by decide)]
  rfl

/-! ## The result -/

/-- The program's result buffer holds the specification's output for the kernel's arrangement. -/
theorem result_eq (hR0 : R0) (hR1 : R1) (hR2 : R2) (hR3 : R3) :
    W8 m ρ c (Proc.devRef .tc main_v43)
      = Net.kerOut (Kagg (at0 m c main_arg2)) (at0 m c main_arg0) (at0 m c main_arg1) (Kbcol (at0 m c main_arg3)) (at0 m c main_arg4) (at0 m c main_arg5) (at0 m c main_arg6) (at0 m c main_arg7) (at0 m c main_arg8) (at0 m c main_arg9) (at0 m c main_arg10)
          (at0 m c main_arg11) (at0 m c main_arg12) (at0 m c main_arg13) (at0 m c main_arg14) (at0 m c main_arg15) (at0 m c main_arg16) (at0 m c main_arg17) (at0 m c main_arg18) (at0 m c main_arg19) := by
  refine (W8_arr m ρ c 7).trans ?_
  refine (hR3 (V7 m ρ) c).trans ?_
  funext i
  obtain ⟨g, z, rfl⟩ : ∃ (g : Fin 512) (z : Fin 1), i = ix2 g z := ⟨i 0, i 1, eq_ix2 i⟩
  obtain rfl : z = 0 := Subsingleton.elim _ _
  show (Net.dot (Net.lin (W7 m ρ c (Proc.devRef .tc main_arg1)) (W7 m ρ c (Proc.devRef .tc main_arg15))
            (W7 m ρ c (Proc.devRef .tc main_arg16)) (W7 m ρ c (Proc.devRef .tc main_arg17)))
          (W7 m ρ c (Proc.devRef .tc main_v29)) (ix2 g (0 : Fin 1))
        + W7 m ρ c (Proc.devRef .tc main_v42) (ix2 g (0 : Fin 1)))
        + W7 m ρ c (Proc.devRef .tc main_arg19) (ix1 (0 : Fin 1))
      = (Net.dot (Net.fpEmb (at0 m c main_arg1) (at0 m c main_arg15) (at0 m c main_arg16) (at0 m c main_arg17)) (Net.bot (at0 m c main_arg18)) (ix2 g (0 : Fin 1))
        + Ideal.div (Net.segCol (Kbcol (at0 m c main_arg3)) (Net.dot (Net.h2 (Kagg (at0 m c main_arg2)) (at0 m c main_arg0) (at0 m c main_arg4) (at0 m c main_arg5) (at0 m c main_arg6) (at0 m c main_arg7) (at0 m c main_arg8) (at0 m c main_arg9) (at0 m c main_arg10) (at0 m c main_arg11) (at0 m c main_arg12) (at0 m c main_arg13) (at0 m c main_arg14)) (Net.top (at0 m c main_arg18))) (ix1 g)) (Net.den (Kbcol (at0 m c main_arg3)) (ix1 g)))
        + (at0 m c main_arg19) (ix1 (0 : Fin 1))
  refine congrArg₂ (· + ·) (congrArg₂ (· + ·) ?_ ?_) ?_
  · exact congrFun (dot_congr (lin_congr (W7_arg m ρ c main_arg1 (by decide) (by decide) (by decide) (by decide) (by decide) (by decide) (by decide)) (W7_arg m ρ c main_arg15 (by decide) (by decide) (by decide) (by decide) (by decide) (by decide) (by decide))
      (W7_arg m ρ c main_arg16 (by decide) (by decide) (by decide) (by decide) (by decide) (by decide) (by decide)) (W7_arg m ρ c main_arg17 (by decide) (by decide) (by decide) (by decide) (by decide) (by decide) (by decide))) (W7_v29 m ρ c)) _
  · exact (congrFun (W7_v42 m ρ c hR0 hR1 hR2) _).trans (pooledCol_apply _ _ g)
  · exact congrFun (W7_arg m ρ c main_arg19 (by decide) (by decide) (by decide) (by decide) (by decide) (by decide) (by decide)) _

end Cert.KernelIdeal.Chain

end
-- ==== Proof.LibConcat2.lean ====
/-
  A concatenation of TWO arrays along the last axis, read at an index: a column below the first piece's width
  comes from the first piece at that column, a column at or above it from the second piece at the column less that
  width. Stated at rank 3 (pieces `[n0, n1, m1]` and `[n0, n1, m2]`) and at rank 2 (pieces `[n0, m1]` and
  `[n0, m2]`), with every index written by its coordinates.
-/
import Idealize.ShloMosaic.Lib.Pipeline.Value
import Idealize.ShloMosaic.Lib.ValueIdx

namespace Cert.LibConcat2

open Idealize.ShloMosaic Idealize.ShloMosaic.ValueIdx

variable {α : Type}

/-- Rank 3, a column of the first piece. -/
theorem last3_left {n0 n1 m1 m2 m : ℕ} (x : (⟨3, ![n0, n1, m1]⟩ : Shape).Idx → α) (y : (⟨3, ![n0, n1, m2]⟩ : Shape).Idx → α)
    (h : Shape.Concatenates [(⟨3, ![n0, n1, m1]⟩ : Shape), ⟨3, ![n0, n1, m2]⟩] ⟨3, ![n0, n1, m]⟩ 2)
    (b : Fin n0) (i : Fin n1) (e : Fin m) (he : e.val < m1) :
    concatenate ⟨3, ![n0, n1, m]⟩ 2 [⟨⟨3, ![n0, n1, m1]⟩, x⟩, ⟨⟨3, ![n0, n1, m2]⟩, y⟩] h (ix3 b i e)
      = x (ix3 b i ⟨e.val, he⟩) :=
  concatenate_apply_piece (t := ⟨3, ![n0, n1, m]⟩) (2 : Fin 3) [⟨⟨3, ![n0, n1, m1]⟩, x⟩, ⟨⟨3, ![n0, n1, m2]⟩, y⟩] h (ix3 b i e) 0 Nat.zero_lt_two _ x rfl rfl 0 rfl (ix3 b i ⟨e.val, he⟩)
    (fun c hc => by
      match c with
      | ⟨0, _⟩ => rfl
      | ⟨1, _⟩ => rfl
      | ⟨2, _⟩ => exact absurd rfl hc)
    (Nat.zero_add _)

/-- Rank 3, a column of the second piece. -/
theorem last3_right {n0 n1 m1 m2 m : ℕ} (x : (⟨3, ![n0, n1, m1]⟩ : Shape).Idx → α) (y : (⟨3, ![n0, n1, m2]⟩ : Shape).Idx → α)
    (h : Shape.Concatenates [(⟨3, ![n0, n1, m1]⟩ : Shape), ⟨3, ![n0, n1, m2]⟩] ⟨3, ![n0, n1, m]⟩ 2)
    (b : Fin n0) (i : Fin n1) (e : Fin m) (he : m1 ≤ e.val) (he' : e.val - m1 < m2) :
    concatenate ⟨3, ![n0, n1, m]⟩ 2 [⟨⟨3, ![n0, n1, m1]⟩, x⟩, ⟨⟨3, ![n0, n1, m2]⟩, y⟩] h (ix3 b i e)
      = y (ix3 b i ⟨e.val - m1, he'⟩) :=
  concatenate_apply_piece (t := ⟨3, ![n0, n1, m]⟩) (2 : Fin 3) [⟨⟨3, ![n0, n1, m1]⟩, x⟩, ⟨⟨3, ![n0, n1, m2]⟩, y⟩] h (ix3 b i e) 1 Nat.one_lt_two _ y rfl rfl m1 (by simp) (ix3 b i ⟨e.val - m1, he'⟩)
    (fun c hc => by
      match c with
      | ⟨0, _⟩ => rfl
      | ⟨1, _⟩ => rfl
      | ⟨2, _⟩ => exact absurd rfl hc)
    (by show m1 + (e.val - m1) = e.val; omega)

/-- Rank 2, a column of the first piece. -/
theorem last2_left {n0 m1 m2 m : ℕ} (x : (⟨2, ![n0, m1]⟩ : Shape).Idx → α) (y : (⟨2, ![n0, m2]⟩ : Shape).Idx → α)
    (h : Shape.Concatenates [(⟨2, ![n0, m1]⟩ : Shape), ⟨2, ![n0, m2]⟩] ⟨2, ![n0, m]⟩ 1)
    (i : Fin n0) (e : Fin m) (he : e.val < m1) :
    concatenate ⟨2, ![n0, m]⟩ 1 [⟨⟨2, ![n0, m1]⟩, x⟩, ⟨⟨2, ![n0, m2]⟩, y⟩] h (ix2 i e)
      = x (ix2 i ⟨e.val, he⟩) :=
  concatenate_apply_piece (t := ⟨2, ![n0, m]⟩) (1 : Fin 2) [⟨⟨2, ![n0, m1]⟩, x⟩, ⟨⟨2, ![n0, m2]⟩, y⟩] h (ix2 i e) 0 Nat.zero_lt_two _ x rfl rfl 0 rfl (ix2 i ⟨e.val, he⟩)
    (fun c hc => by
      match c with
      | ⟨0, _⟩ => rfl
      | ⟨1, _⟩ => exact absurd rfl hc)
    (Nat.zero_add _)

/-- Rank 2, a column of the second piece. -/
theorem last2_right {n0 m1 m2 m : ℕ} (x : (⟨2, ![n0, m1]⟩ : Shape).Idx → α) (y : (⟨2, ![n0, m2]⟩ : Shape).Idx → α)
    (h : Shape.Concatenates [(⟨2, ![n0, m1]⟩ : Shape), ⟨2, ![n0, m2]⟩] ⟨2, ![n0, m]⟩ 1)
    (i : Fin n0) (e : Fin m) (he : m1 ≤ e.val) (he' : e.val - m1 < m2) :
    concatenate ⟨2, ![n0, m]⟩ 1 [⟨⟨2, ![n0, m1]⟩, x⟩, ⟨⟨2, ![n0, m2]⟩, y⟩] h (ix2 i e)
      = y (ix2 i ⟨e.val - m1, he'⟩) :=
  concatenate_apply_piece (t := ⟨2, ![n0, m]⟩) (1 : Fin 2) [⟨⟨2, ![n0, m1]⟩, x⟩, ⟨⟨2, ![n0, m2]⟩, y⟩] h (ix2 i e) 1 Nat.one_lt_two _ y rfl rfl m1 (by simp) (ix2 i ⟨e.val - m1, he'⟩)
    (fun c hc => by
      match c with
      | ⟨0, _⟩ => rfl
      | ⟨1, _⟩ => exact absurd rfl hc)
    (by show m1 + (e.val - m1) = e.val; omega)

end Cert.LibConcat2
-- ==== Proof.RefSide.lean ====
/-
  The reference program's result is the network of `Net.lean`, entry by entry.

  The reference is a chain of whole-array stages. Read at an index, each stage is one of a few shapes:

  * a matrix product `X W`: entry `(p, q)` is the sum over `k` of `X (p, k) * W (k, q)`;
  * a row `b` laid under every node row: entry `(p, q)` is `b q`; the zero matrix: every entry is the zero word;
  * the leaky rectifier: compare an entry with zero, keep it when it is greater, else multiply it by the slope row's
    entry. Together with the product and the bias row this is `Net.lin` (a dense layer); with two products, one of
    the aggregated rows and one of the nodes' own rows, it is `Net.sage` (a graph layer);
  * the aggregation over edges (gather the source rows, add them into the target rows) is carried as ONE operator
    `agg x2` on node matrices and never opened: both graph layers apply the same operator, the second to the first's
    output;
  * the pooling: the rows of each graph are added up (an accumulating scatter by the batch column, read at `(g, q)` as
    the zero word plus the sum of the rows whose batch word is `g`), the graph's size is the same sum of ones, and the
    quotient by `max size 1` is `Net.pooled`;
  * two 128-column pieces side by side: a column below 128 is the first piece's, a column from 128 on is the second
    piece's column less 128 (`Net.cat`);
  * the last product with the 256-row column plus the one-entry bias: `Net.refOutOf`.

  The three node layers share their shapes, so the product, the bias row, the zero matrix and the rectifier are
  read once, for any operand, and instantiated three times. No law of arithmetic is used here: every step is an
  index identity or the unfolding of a definition, so nothing needs the entries to be finite.
-/
import proofs.«151545_j56994216017995_2_alg».proof.Proof.RefRead
import proofs.«151545_j56994216017995_2_alg».proof.Proof.Net
import proofs.«151545_j56994216017995_2_alg».proof.Proof.LibConcat2
import proofs.«151545_j56994216017995_2_alg».proof.Proof.LibScatterAdd

noncomputable section

open scoped BigOperators

namespace Cert.RefSide

open Cert.ReferenceIdeal Cert.ReferenceIdeal.Read Idealize.ShloMosaic Idealize.ShloMosaic.ValueIdx

/-- Node matrices, weight matrices and rows, typed as the program types its buffers. -/
abbrev NodeMat : Type := FVec Ideal S100000x128 .f32
abbrev SqMat : Type := FVec Ideal S128x128 .f32
abbrev Row : Type := FVec Ideal S128 .f32

/-- The product of a node matrix with a square weight matrix, entry by entry. -/
theorem dotNode (X : NodeMat) (W : SqMat) : val_main_v4 (F := Ideal) X W = Net.dot X W := by
  funext i
  obtain ⟨p, q, rfl⟩ : ∃ (p : Fin 100000) (q : Fin 128), i = ix2 p q := ⟨i 0, i 1, eq_ix2 i⟩
  rw [val_main_v4_apply]
  refine Finset.sum_congr rfl fun k _ => ?_
  have el : lidx_main_v4 (ix2 p q) k = ix2 p k := funext fun a => Fin.ext (by
    match a with
    | ⟨0, _⟩ => rfl
    | ⟨1, _⟩ => rfl)
  have er : ridx_main_v4 (ix2 p q) k = ix2 k q := funext fun a => Fin.ext (by
    match a with
    | ⟨0, _⟩ => rfl
    | ⟨1, _⟩ => rfl)
  rw [el, er]

/-- A row broadcast down the node matrix: entry `(p, q)` is the row's entry `q`. -/
theorem rowNode (b : Row) (p : Fin 100000) (q : Fin 128) : val_main_v6 (F := Ideal) b (ix2 p q) = b (ix1 q) := by
  rw [val_main_v6_apply, val_main_v5_apply]
  exact congrArg b (funext fun a => Fin.ext (by
    match a with
    | ⟨0, _⟩ => rfl))

/-- The zero matrix: every entry is the zero word. -/
theorem zeroNode (p : Fin 100000) (q : Fin 128) : val_main_v8 (F := Ideal) (ix2 p q) = Net.zeroW := by
  rw [val_main_v8_apply, val_main_cst_apply]
  rfl

/-- The leaky rectifier stage: compare with the zero matrix, keep the entry or scale it by the slope row. -/
theorem preluNode (S : NodeMat) (a : Row) (p : Fin 100000) (q : Fin 128) :
    (select (s := S100000x128) (α := Ideal .f32) (cmpf (F := Ideal) (s := S100000x128) (φ := .f32) .ogt S (val_main_v8 (F := Ideal))) S (mulf (F := Ideal) (s := S100000x128) (φ := .f32) (val_main_v6 (F := Ideal) a) S)) (ix2 p q)
      = Net.prelu (S (ix2 p q)) (a (ix1 q)) := by
  show Scalar.select (Ideal.cmp .ogt (S (ix2 p q)) (val_main_v8 (F := Ideal) (ix2 p q))) (S (ix2 p q))
      (val_main_v6 (F := Ideal) a (ix2 p q) * S (ix2 p q)) = _
  rw [zeroNode, rowNode]
  rfl

/-- A dense layer over node rows is `Net.lin`. -/
theorem linNode (X : NodeMat) (W : SqMat) (b a : Row) :
    (select (s := S100000x128) (α := Ideal .f32) (cmpf (F := Ideal) (s := S100000x128) (φ := .f32) .ogt (addf (F := Ideal) (s := S100000x128) (φ := .f32) (val_main_v4 (F := Ideal) X W) (val_main_v6 (F := Ideal) b)) (val_main_v8 (F := Ideal))) (addf (F := Ideal) (s := S100000x128) (φ := .f32) (val_main_v4 (F := Ideal) X W) (val_main_v6 (F := Ideal) b)) (mulf (F := Ideal) (s := S100000x128) (φ := .f32) (val_main_v6 (F := Ideal) a) (addf (F := Ideal) (s := S100000x128) (φ := .f32) (val_main_v4 (F := Ideal) X W) (val_main_v6 (F := Ideal) b))))
      = Net.lin X W b a := by
  funext i
  obtain ⟨p, q, rfl⟩ : ∃ (p : Fin 100000) (q : Fin 128), i = ix2 p q := ⟨i 0, i 1, eq_ix2 i⟩
  refine (preluNode _ a p q).trans ?_
  show Net.prelu (val_main_v4 (F := Ideal) X W (ix2 p q) + val_main_v6 (F := Ideal) b (ix2 p q)) (a (ix1 q)) = _
  rw [dotNode, rowNode]
  rfl

/-- A graph layer over node rows is `Net.sage`: `G` the aggregated rows, `H` the nodes' own rows. -/
theorem sageNode (G H : NodeMat) (Wl : SqMat) (bl : Row) (Wr : SqMat) (a : Row) :
    (select (s := S100000x128) (α := Ideal .f32) (cmpf (F := Ideal) (s := S100000x128) (φ := .f32) .ogt (addf (F := Ideal) (s := S100000x128) (φ := .f32) (addf (F := Ideal) (s := S100000x128) (φ := .f32) (val_main_v4 (F := Ideal) G Wl) (val_main_v6 (F := Ideal) bl)) (val_main_v4 (F := Ideal) H Wr)) (val_main_v8 (F := Ideal))) (addf (F := Ideal) (s := S100000x128) (φ := .f32) (addf (F := Ideal) (s := S100000x128) (φ := .f32) (val_main_v4 (F := Ideal) G Wl) (val_main_v6 (F := Ideal) bl)) (val_main_v4 (F := Ideal) H Wr)) (mulf (F := Ideal) (s := S100000x128) (φ := .f32) (val_main_v6 (F := Ideal) a) (addf (F := Ideal) (s := S100000x128) (φ := .f32) (addf (F := Ideal) (s := S100000x128) (φ := .f32) (val_main_v4 (F := Ideal) G Wl) (val_main_v6 (F := Ideal) bl)) (val_main_v4 (F := Ideal) H Wr))))
      = Net.sage G H Wl bl Wr a := by
  funext i
  obtain ⟨p, q, rfl⟩ : ∃ (p : Fin 100000) (q : Fin 128), i = ix2 p q := ⟨i 0, i 1, eq_ix2 i⟩
  refine (preluNode _ a p q).trans ?_
  show Net.prelu ((val_main_v4 (F := Ideal) G Wl (ix2 p q) + val_main_v6 (F := Ideal) bl (ix2 p q))
      + val_main_v4 (F := Ideal) H Wr (ix2 p q)) (a (ix1 q)) = _
  rw [dotNode, dotNode, rowNode]
  rfl

/-- The aggregation over edges, as the reference applies it: gather the source rows, add them into the target rows.
    Nothing below looks inside it. -/
def agg (x2 : (⟨S2x1600000, .i32⟩ : BufTy).Contents (Elt Ideal)) (h : Net.Mat 100000 128) : Net.Mat 100000 128 :=
  Host.scatterAdd (F := Ideal) (φ := .f32) Cert.ReferenceIdeal.scatter_S100000x128_S1600000x1_S1600000x128_1_0_0_1
    (val_main_v21 (F := Ideal)) (val_main_v22 (F := Ideal) x2)
    (Host.gather (α := Ideal .f32) Cert.ReferenceIdeal.gather_S100000x128_S1600000x1_S1600000x128_1_0_n_n_0_1_1128 h (val_main_v19 (F := Ideal) x2))

/-- The node rows after the input layer. -/
theorem h0_eq (x0 : (⟨S100000x128, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) :
    val_main_v13 (F := Ideal) x0 x4 x5 x6 = Net.h0 x0 x4 x5 x6 :=
  linNode x0 x4 x5 x6

/-- The node rows after the first graph layer. -/
theorem h1_eq (x0 : (⟨S100000x128, .f32⟩ : BufTy).Contents (Elt Ideal)) (x2 : (⟨S2x1600000, .i32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v35 (F := Ideal) x0 x2 x4 x5 x6 x7 x8 x9 x10 = Net.h1 (agg x2) x0 x4 x5 x6 x7 x8 x9 x10 := by
  have e : val_main_v35 (F := Ideal) x0 x2 x4 x5 x6 x7 x8 x9 x10
      = Net.sage (agg x2 (val_main_v13 (F := Ideal) x0 x4 x5 x6)) (val_main_v13 (F := Ideal) x0 x4 x5 x6) x7 x8 x9 x10 :=
    sageNode (val_main_v23 (F := Ideal) x0 x2 x4 x5 x6) (val_main_v13 (F := Ideal) x0 x4 x5 x6) x7 x8 x9 x10
  rw [e, h0_eq]
  rfl

/-- The node rows after the second graph layer: the same aggregation again. -/
theorem h2_eq (x0 : (⟨S100000x128, .f32⟩ : BufTy).Contents (Elt Ideal)) (x2 : (⟨S2x1600000, .i32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) :
    val_main_v57 (F := Ideal) x0 x2 x4 x5 x6 x7 x8 x9 x10 x11 x12 x13 x14 = Net.h2 (agg x2) x0 x4 x5 x6 x7 x8 x9 x10 x11 x12 x13 x14 := by
  have e : val_main_v57 (F := Ideal) x0 x2 x4 x5 x6 x7 x8 x9 x10 x11 x12 x13 x14
      = Net.sage (agg x2 (val_main_v35 (F := Ideal) x0 x2 x4 x5 x6 x7 x8 x9 x10)) (val_main_v35 (F := Ideal) x0 x2 x4 x5 x6 x7 x8 x9 x10) x11 x12 x13 x14 :=
    sageNode (val_main_v45 (F := Ideal) x0 x2 x4 x5 x6 x7 x8 x9 x10) (val_main_v35 (F := Ideal) x0 x2 x4 x5 x6 x7 x8 x9 x10) x11 x12 x13 x14
  rw [e, h1_eq]
  rfl

/-- The fingerprint rows: a dense layer at `[512, 2048] x [2048, 128]`. -/
theorem fp_eq (x1 : (⟨S512x2048, .f32⟩ : BufTy).Contents (Elt Ideal)) (x15 : (⟨S2048x128, .f32⟩ : BufTy).Contents (Elt Ideal)) (x16 : (⟨S128, .f32⟩ : BufTy).Contents (Elt Ideal)) (x17 : (⟨S128, .f32⟩ : BufTy).Contents (Elt Ideal)) :
    val_main_v79 (F := Ideal) x1 x15 x16 x17 = Net.fpEmb x1 x15 x16 x17 := by
  funext i
  obtain ⟨p, q, rfl⟩ : ∃ (p : Fin 512) (q : Fin 128), i = ix2 p q := ⟨i 0, i 1, eq_ix2 i⟩
  have el : ∀ k : Fin 2048, lidx_main_v70 (ix2 p q) k = ix2 p k := fun k => funext fun a => Fin.ext (by
    match a with
    | ⟨0, _⟩ => rfl
    | ⟨1, _⟩ => rfl)
  have er : ∀ k : Fin 2048, ridx_main_v70 (ix2 p q) k = ix2 k q := fun k => funext fun a => Fin.ext (by
    match a with
    | ⟨0, _⟩ => rfl
    | ⟨1, _⟩ => rfl)
  have e71 : idx_main_v71 (idx_main_v72 (ix2 p q)) = ix1 q := funext fun a => Fin.ext (by
    match a with
    | ⟨0, _⟩ => rfl)
  have e76 : idx_main_v76 (idx_main_v77 (ix2 p q)) = ix1 q := funext fun a => Fin.ext (by
    match a with
    | ⟨0, _⟩ => rfl)
  rw [val_main_v79_apply, val_main_v75_apply, val_main_v78_apply, val_main_v73_apply, val_main_v74_apply,
    val_main_cst_11_apply, val_main_v77_apply, val_main_v76_apply, val_main_v72_apply, val_main_v71_apply,
    val_main_v70_apply, e71, e76]
  simp only [el, er]
  rfl

/-- The size of every graph. -/
theorem cnt_eq (x3 : (⟨S100000, .i32⟩ : BufTy).Contents (Elt Ideal)) :
    val_main_v64 (F := Ideal) x3 = Net.cnt (val_main_v59 (F := Ideal) x3) := by
  funext i
  obtain ⟨g, rfl⟩ : ∃ g : Fin 512, i = ix1 g := ⟨i 0, eq_ix1 i⟩
  refine (LibScatterAdd.scatterAdd_vec_apply (N := 512) (E := 100000)
    Cert.ReferenceIdeal.Gen.scatter_S512_S100000x1_S100000_n_0_0_1_wf
    (val_main_v62 (F := Ideal)) (val_main_v63 (F := Ideal) x3) (val_main_v61 (F := Ideal)) g).trans ?_
  rw [val_main_v62_apply, val_main_cst_9_apply]
  simp only [val_main_v61_apply, val_main_cst_8_apply]
  rfl

/-- The divisor, broadcast along the rows. -/
theorem den_eq (x3 : (⟨S100000, .i32⟩ : BufTy).Contents (Elt Ideal)) (g : Fin 512) (q : Fin 128) :
    val_main_v68 (F := Ideal) x3 (ix2 g q) = Net.den (val_main_v59 (F := Ideal) x3) (ix1 g) := by
  have e : idx_main_v67 (idx_main_v68 (ix2 g q)) = ix1 g := funext fun a => Fin.ext (by
    match a with
    | ⟨0, _⟩ => rfl)
  rw [val_main_v68_apply, val_main_v67_apply, e, val_main_v66_apply, cnt_eq, val_main_v65_apply, val_main_cst_10_apply]
  rfl

/-- The host's division, entry by entry. -/
theorem hostDivf_apply {s : Shape} (A B : FVec Ideal s .f32) (i : s.Idx) :
    Host.divf (F := Ideal) A B i = Ideal.div (A i) (B i) := rfl

/-- The rows of `H` summed per graph and divided by the graph's size. -/
theorem pooledOf (x3 : (⟨S100000, .i32⟩ : BufTy).Contents (Elt Ideal)) (H : NodeMat) :
    Host.divf (F := Ideal) (s := S512x128) (φ := .f32)
        (Host.scatterAdd (F := Ideal) (φ := .f32) Cert.ReferenceIdeal.scatter_S512x128_S100000x1_S100000x128_1_0_0_1
          (val_main_v58 (F := Ideal)) (val_main_v59 (F := Ideal) x3) H)
        (val_main_v68 (F := Ideal) x3)
      = Net.pooled (val_main_v59 (F := Ideal) x3) H := by
  funext i
  obtain ⟨g, q, rfl⟩ : ∃ (g : Fin 512) (q : Fin 128), i = ix2 g q := ⟨i 0, i 1, eq_ix2 i⟩
  rw [hostDivf_apply, den_eq]
  refine (congrArg (fun t => Ideal.div t (Net.den (val_main_v59 (F := Ideal) x3) (ix1 g))) (?_ : _ = Net.segRows (val_main_v59 (F := Ideal) x3) H (ix2 g q))).trans rfl
  refine (LibScatterAdd.scatterAdd_rows_apply (N := 512) (E := 100000) (C := 128)
    Cert.ReferenceIdeal.Gen.scatter_S512x128_S100000x1_S100000x128_1_0_0_1_wf
    (val_main_v58 (F := Ideal)) (val_main_v59 (F := Ideal) x3) H g q).trans ?_
  rw [val_main_v58_apply, val_main_cst_7_apply]
  rfl

/-- The pooled rows of the reference. -/
theorem pooled_eq (x0 : (⟨S100000x128, .f32⟩ : BufTy).Contents (Elt Ideal)) (x2 : (⟨S2x1600000, .i32⟩ : BufTy).Contents (Elt Ideal)) (x3 : (⟨S100000, .i32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) :
    val_main_v69 (F := Ideal) x0 x2 x3 x4 x5 x6 x7 x8 x9 x10 x11 x12 x13 x14 = Net.pooled (val_main_v59 (F := Ideal) x3) (Net.h2 (agg x2) x0 x4 x5 x6 x7 x8 x9 x10 x11 x12 x13 x14) := by
  have e : val_main_v69 (F := Ideal) x0 x2 x3 x4 x5 x6 x7 x8 x9 x10 x11 x12 x13 x14 = Net.pooled (val_main_v59 (F := Ideal) x3) (val_main_v57 (F := Ideal) x0 x2 x4 x5 x6 x7 x8 x9 x10 x11 x12 x13 x14) :=
    pooledOf x3 (val_main_v57 (F := Ideal) x0 x2 x4 x5 x6 x7 x8 x9 x10 x11 x12 x13 x14)
  rw [e, h2_eq]

/-- Two 128-column pieces side by side, read at a column. -/
theorem catOf (P Q : FVec Ideal S512x128 .f32) (g : Fin 512) (e : Fin 256) :
    concatenate S512x256 1 [⟨S512x128, P⟩, ⟨S512x128, Q⟩] Cert.ReferenceIdeal.Gen.concatenates_S512x128_S512x128_S512x256_d1 (ix2 g e)
      = if hlt : e.val < 128 then P (ix2 g ⟨e.val, hlt⟩)
        else Q (ix2 g ⟨e.val - 128, by have : e.val < 256 := e.isLt; omega⟩) := by
  by_cases hlt : e.val < 128
  · rw [dif_pos hlt]
    exact LibConcat2.last2_left (n0 := 512) (m1 := 128) (m2 := 128) (m := 256) P Q _ g e hlt
  · rw [dif_neg hlt]
    exact LibConcat2.last2_right (n0 := 512) (m1 := 128) (m2 := 128) (m := 256) P Q _ g e (by omega)
      (by have : e.val < 256 := e.isLt; omega)

/-- The pooled row beside the fingerprint row. -/
theorem cat_eq (x0 : (⟨S100000x128, .f32⟩ : BufTy).Contents (Elt Ideal)) (x1 : (⟨S512x2048, .f32⟩ : BufTy).Contents (Elt Ideal)) (x2 : (⟨S2x1600000, .i32⟩ : BufTy).Contents (Elt Ideal)) (x3 : (⟨S100000, .i32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S2048x128, .f32⟩ : BufTy).Contents (Elt Ideal)) (x16 : (⟨S128, .f32⟩ : BufTy).Contents (Elt Ideal)) (x17 : (⟨S128, .f32⟩ : BufTy).Contents (Elt Ideal)) :
    val_main_v80 (F := Ideal) x0 x1 x2 x3 x4 x5 x6 x7 x8 x9 x10 x11 x12 x13 x14 x15 x16 x17 = Net.cat (val_main_v59 (F := Ideal) x3) (Net.h2 (agg x2) x0 x4 x5 x6 x7 x8 x9 x10 x11 x12 x13 x14) (Net.fpEmb x1 x15 x16 x17) := by
  funext i
  obtain ⟨g, e, rfl⟩ : ∃ (g : Fin 512) (e : Fin 256), i = ix2 g e := ⟨i 0, i 1, eq_ix2 i⟩
  refine (catOf (val_main_v69 (F := Ideal) x0 x2 x3 x4 x5 x6 x7 x8 x9 x10 x11 x12 x13 x14) (val_main_v79 (F := Ideal) x1 x15 x16 x17) g e).trans ?_
  rw [pooled_eq, fp_eq]
  rfl

/-- THE REFERENCE'S RESULT is `Net.refOut`, with the aggregation `agg x2` and the batch column `val_main_v59 x3`. -/
theorem ref_eq (x0 : (⟨S100000x128, .f32⟩ : BufTy).Contents (Elt Ideal)) (x1 : (⟨S512x2048, .f32⟩ : BufTy).Contents (Elt Ideal)) (x2 : (⟨S2x1600000, .i32⟩ : BufTy).Contents (Elt Ideal)) (x3 : (⟨S100000, .i32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S2048x128, .f32⟩ : BufTy).Contents (Elt Ideal)) (x16 : (⟨S128, .f32⟩ : BufTy).Contents (Elt Ideal)) (x17 : (⟨S128, .f32⟩ : BufTy).Contents (Elt Ideal)) (x18 : (⟨S256x1, .f32⟩ : BufTy).Contents (Elt Ideal)) (x19 : (⟨S1, .f32⟩ : BufTy).Contents (Elt Ideal)) :
    val_main_v84 (F := Ideal) x0 x1 x2 x3 x4 x5 x6 x7 x8 x9 x10 x11 x12 x13 x14 x15 x16 x17 x18 x19
      = Net.refOut (agg x2) x0 x1 (val_main_v59 (F := Ideal) x3) x4 x5 x6 x7 x8 x9 x10 x11 x12 x13 x14 x15 x16 x17 x18 x19 := by
  funext i
  obtain ⟨g, z, rfl⟩ : ∃ (g : Fin 512) (z : Fin 1), i = ix2 g z := ⟨i 0, i 1, eq_ix2 i⟩
  have el : ∀ k : Fin 256, lidx_main_v81 (ix2 g z) k = ix2 g k := fun k => funext fun a => Fin.ext (by
    match a with
    | ⟨0, _⟩ => rfl
    | ⟨1, _⟩ => rfl)
  have er : ∀ k : Fin 256, ridx_main_v81 (ix2 g z) k = ix2 k z := fun k => funext fun a => Fin.ext (by
    match a with
    | ⟨0, _⟩ => rfl
    | ⟨1, _⟩ => rfl)
  have eb : idx_main_v82 (idx_main_v83 (ix2 g z)) = ix1 (0 : Fin 1) := funext fun a => Fin.ext (by
    match a with
    | ⟨0, _⟩ => rfl)
  rw [val_main_v84_apply, val_main_v81_apply, val_main_v83_apply, val_main_v82_apply, eb, cat_eq]
  simp only [el, er]
  rfl

end Cert.RefSide

end
-- ==== Proof.AggEq.lean ====
/-
  The two programs aggregate over the edges, and read the graph column, in the same way.

  Each program slices the edge array into its source and target rows, adds the number of nodes once to a negative
  source word, gathers the node rows named by the source column and adds them into the rows named by the target column,
  starting from the zero matrix; and each lays the graph words out as a column.  The kernel's program gathers from a
  narrower copy of the node matrix and widens the gathered rows, which changes nothing on the extended reals.  The two
  spellings differ only in which program's shape names and side conditions they cite, so the equalities hold by
  unfolding the definitions: no entry is ever computed.
-/
import proofs.«151545_j56994216017995_2_alg».proof.Proof.Chain
import proofs.«151545_j56994216017995_2_alg».proof.Proof.RefSide

set_option maxRecDepth 16384

noncomputable section

namespace Cert.AggEq

open Idealize.ShloMosaic Idealize.ShloMosaic.ValueIdx

/-- The source column is the same in both programs. -/
theorem srcCol_eq (x2 : IVec Cert.KernelIdeal.S2x1600000 32) :
    Cert.KernelIdeal.Chain.srcCol x2 = Cert.ReferenceIdeal.Read.val_main_v19 (F := Ideal) x2 := rfl

/-- The target column is the same in both programs. -/
theorem dstCol_eq (x2 : IVec Cert.KernelIdeal.S2x1600000 32) :
    Cert.KernelIdeal.Chain.dstCol x2 = Cert.ReferenceIdeal.Read.val_main_v22 (F := Ideal) x2 := rfl

/-- The aggregation over the edges is the same operator in both programs. -/
theorem kagg_eq (x2 : IVec Cert.KernelIdeal.S2x1600000 32) : Cert.KernelIdeal.Chain.Kagg x2 = Cert.RefSide.agg x2 := by
  funext h
  unfold Cert.KernelIdeal.Chain.Kagg Cert.RefSide.agg
  rw [srcCol_eq, dstCol_eq]
  rfl

/-- The graph column is the same in both programs. -/
theorem kbcol_eq (x3 : IVec Cert.KernelIdeal.S100000 32) :
    Cert.KernelIdeal.Chain.Kbcol x3 = Cert.ReferenceIdeal.Read.val_main_v59 (F := Ideal) x3 := rfl

end Cert.AggEq

end
-- ==== Proof.RefRunSeg.lean ====
/-
  The reference program's run, read back stage by stage.

  @main of the reference is a straight line of 99 host operations. Each writes one buffer of its own and reads
  arguments or buffers written earlier; no buffer is written twice and no argument is written at all. After the
  line every buffer holds the fold of the operations' results over the launch contents.

  The result buffer's fold is never written out as one term. The node rows of a layer are read three times by the
  layer's own rectifier (the comparison, the kept branch, the scaled branch) and twice by the next layer (once
  through the aggregation, once directly), so the term spelt out in full multiplies by six at every layer. It is
  read instead over the program's named stages:

  * the line is cut into eight consecutive stretches: the input layer; the first aggregation; the first graph
    layer; the second aggregation; the second graph layer; the pooling; the fingerprint layer; the concatenation
    with the last product;
  * for each stretch, from ANY contents `V`: the one buffer (for the first stretch, the three buffers) that later
    stretches read holds a named stage of `V` at the buffers the stretch reads, and a buffer the stretch does not
    write holds what `V` held;
  * the fold through stretches in a row is the fold of the folds, so the result buffer after the whole line is the
    last stage of the pooled rows and the fingerprint rows, which are stages of the second layer's rows, and so on
    down to the arguments; and each named stage of the program is, by its definition, that same stage of the
    earlier named stages.

  The arguments are unchanged because no stretch writes them.
-/
import proofs.«151545_j56994216017995_2_alg».proof.Proof.Gen.ReferenceIdeal
import Idealize.ShloMosaic.Lib.StableHlo.Run
import Idealize.ShloMosaic.Lib.Pipeline.Frame
import proofs.«151545_j56994216017995_2_alg».proof.Proof.RefRead

noncomputable section

namespace Cert.RefSeg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- @main's 99 operations, in order (a called function's operations stand in its call's place, spelt `TRef.…`). -/
abbrev ops : List (HloOp τ sig (Elt F)) :=
  [ unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg2 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg4 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v5 (broadcastInDim S1x128 ![1] bcast_S128_S1x128_1 : (⟨S128, .f32⟩ : BufTy).Contents (Elt F) → (⟨S1x128, .f32⟩ : BufTy).Contents (Elt F)),
    unary main_v5 main_v6 (broadcastInDim S100000x128 ![0, 1] bcast_S1x128_S100000x128_0_1 : (⟨S1x128, .f32⟩ : BufTy).Contents (Elt F) → (⟨S100000x128, .f32⟩ : BufTy).Contents (Elt F)),
    binary main_v4 main_v6 main_v7 (addf : (⟨S100000x128, .f32⟩ : BufTy).Contents (Elt F) → (⟨S100000x128, .f32⟩ : BufTy).Contents (Elt F) → (⟨S100000x128, .f32⟩ : BufTy).Contents (Elt F)),
    nullary main_cst (constant S_ .f32 0x00000000#32),
    unary main_cst main_v8 (broadcastInDim S100000x128 ![] bcast_S_S100000x128 : (⟨S_, .f32⟩ : BufTy).Contents (Elt F) → (⟨S100000x128, .f32⟩ : BufTy).Contents (Elt F)),
    binary main_v7 main_v8 main_v9 (cmpf .ogt : (⟨S100000x128, .f32⟩ : BufTy).Contents (Elt F) → (⟨S100000x128, .f32⟩ : BufTy).Contents (Elt F) → (⟨S100000x128, .i1⟩ : BufTy).Contents (Elt F)),
    unary main_arg6 main_v10 (broadcastInDim S1x128 ![1] bcast_S128_S1x128_1 : (⟨S128, .f32⟩ : BufTy).Contents (Elt F) → (⟨S1x128, .f32⟩ : BufTy).Contents (Elt F)),
    unary main_v10 main_v11 (broadcastInDim S100000x128 ![0, 1] bcast_S1x128_S100000x128_0_1 : (⟨S1x128, .f32⟩ : BufTy).Contents (Elt F) → (⟨S100000x128, .f32⟩ : BufTy).Contents (Elt F)),
    binary main_v11 main_v7 main_v12 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v9) (TRef.of (T := ⟨S100000x128, .f32⟩) main_v7) (TRef.of (T := ⟨S100000x128, .f32⟩) main_v12) (TRef.of (T := ⟨S100000x128, .f32⟩) main_v13) select,
    nullary main_c (constantI S_ 32 0#32),
    unary main_c main_v14 (broadcastInDim S1600000 ![] bcast_S_S1600000 : (⟨S_, .i32⟩ : BufTy).Contents (Elt F) → (⟨S1600000, .i32⟩ : BufTy).Contents (Elt F)),
    binary main_v1 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v16 (broadcastInDim S1600000 ![] bcast_S_S1600000 : (⟨S_, .i32⟩ : BufTy).Contents (Elt F) → (⟨S1600000, .i32⟩ : BufTy).Contents (Elt F)),
    binary main_v1 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_v1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_v13 main_v19 main_v20 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_1 (constant S_ .f32 0x00000000#32),
    unary main_cst_1 main_v21 (broadcastInDim S100000x128 ![] bcast_S_S100000x128 : (⟨S_, .f32⟩ : BufTy).Contents (Elt F) → (⟨S100000x128, .f32⟩ : BufTy).Contents (Elt F)),
    unary main_v3 main_v22 (broadcastInDim S1600000x1 ![0] bcast_S1600000_S1600000x1_0 : (⟨S1600000, .i32⟩ : BufTy).Contents (Elt F) → (⟨S1600000x1, .i32⟩ : BufTy).Contents (Elt F)),
    ternary main_v21 main_v22 main_v20 main_v23 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v23 main_arg7 main_v24 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v25 (broadcastInDim S1x128 ![1] bcast_S128_S1x128_1 : (⟨S128, .f32⟩ : BufTy).Contents (Elt F) → (⟨S1x128, .f32⟩ : BufTy).Contents (Elt F)),
    unary main_v25 main_v26 (broadcastInDim S100000x128 ![0, 1] bcast_S1x128_S100000x128_0_1 : (⟨S1x128, .f32⟩ : BufTy).Contents (Elt F) → (⟨S100000x128, .f32⟩ : BufTy).Contents (Elt F)),
    binary main_v24 main_v26 main_v27 (addf : (⟨S100000x128, .f32⟩ : BufTy).Contents (Elt F) → (⟨S100000x128, .f32⟩ : BufTy).Contents (Elt F) → (⟨S100000x128, .f32⟩ : BufTy).Contents (Elt F)),
    binary main_v13 main_arg9 main_v28 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v27 main_v28 main_v29 (addf : (⟨S100000x128, .f32⟩ : BufTy).Contents (Elt F) → (⟨S100000x128, .f32⟩ : BufTy).Contents (Elt F) → (⟨S100000x128, .f32⟩ : BufTy).Contents (Elt F)),
    nullary main_cst_2 (constant S_ .f32 0x00000000#32),
    unary main_cst_2 main_v30 (broadcastInDim S100000x128 ![] bcast_S_S100000x128 : (⟨S_, .f32⟩ : BufTy).Contents (Elt F) → (⟨S100000x128, .f32⟩ : BufTy).Contents (Elt F)),
    binary main_v29 main_v30 main_v31 (cmpf .ogt : (⟨S100000x128, .f32⟩ : BufTy).Contents (Elt F) → (⟨S100000x128, .f32⟩ : BufTy).Contents (Elt F) → (⟨S100000x128, .i1⟩ : BufTy).Contents (Elt F)),
    unary main_arg10 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v33 main_v29 main_v34 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v31) (TRef.of (T := ⟨S100000x128, .f32⟩) main_v29) (TRef.of (T := ⟨S100000x128, .f32⟩) main_v34) (TRef.of (T := ⟨S100000x128, .f32⟩) main_v35) select,
    nullary main_c_3 (constantI S_ 32 0#32),
    unary main_c_3 main_v36 (broadcastInDim S1600000 ![] bcast_S_S1600000 : (⟨S_, .i32⟩ : BufTy).Contents (Elt F) → (⟨S1600000, .i32⟩ : BufTy).Contents (Elt F)),
    binary main_v1 main_v36 main_v37 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v38 (broadcastInDim S1600000 ![] bcast_S_S1600000 : (⟨S_, .i32⟩ : BufTy).Contents (Elt F) → (⟨S1600000, .i32⟩ : BufTy).Contents (Elt F)),
    binary main_v1 main_v38 main_v39 (addi : (⟨S1600000, .i32⟩ : BufTy).Contents (Elt F) → (⟨S1600000, .i32⟩ : BufTy).Contents (Elt F) → (⟨S1600000, .i32⟩ : BufTy).Contents (Elt F)),
    ternary main_v37 main_v39 main_v1 main_v40 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v40 main_v41 (broadcastInDim S1600000x1 ![0] bcast_S1600000_S1600000x1_0 : (⟨S1600000, .i32⟩ : BufTy).Contents (Elt F) → (⟨S1600000x1, .i32⟩ : BufTy).Contents (Elt F)),
    binary main_v35 main_v41 main_v42 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_5 (constant S_ .f32 0x00000000#32),
    unary main_cst_5 main_v43 (broadcastInDim S100000x128 ![] bcast_S_S100000x128 : (⟨S_, .f32⟩ : BufTy).Contents (Elt F) → (⟨S100000x128, .f32⟩ : BufTy).Contents (Elt F)),
    unary main_v3 main_v44 (broadcastInDim S1600000x1 ![0] bcast_S1600000_S1600000x1_0 : (⟨S1600000, .i32⟩ : BufTy).Contents (Elt F) → (⟨S1600000x1, .i32⟩ : BufTy).Contents (Elt F)),
    ternary main_v43 main_v44 main_v42 main_v45 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v45 main_arg11 main_v46 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg12 main_v47 (broadcastInDim S1x128 ![1] bcast_S128_S1x128_1 : (⟨S128, .f32⟩ : BufTy).Contents (Elt F) → (⟨S1x128, .f32⟩ : BufTy).Contents (Elt F)),
    unary main_v47 main_v48 (broadcastInDim S100000x128 ![0, 1] bcast_S1x128_S100000x128_0_1 : (⟨S1x128, .f32⟩ : BufTy).Contents (Elt F) → (⟨S100000x128, .f32⟩ : BufTy).Contents (Elt F)),
    binary main_v46 main_v48 main_v49 (addf : (⟨S100000x128, .f32⟩ : BufTy).Contents (Elt F) → (⟨S100000x128, .f32⟩ : BufTy).Contents (Elt F) → (⟨S100000x128, .f32⟩ : BufTy).Contents (Elt F)),
    binary main_v35 main_arg13 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v49 main_v50 main_v51 (addf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x00000000#32),
    unary main_cst_6 main_v52 (broadcastInDim S100000x128 ![] bcast_S_S100000x128 : (⟨S_, .f32⟩ : BufTy).Contents (Elt F) → (⟨S100000x128, .f32⟩ : BufTy).Contents (Elt F)),
    binary main_v51 main_v52 main_v53 (cmpf .ogt : (⟨S100000x128, .f32⟩ : BufTy).Contents (Elt F) → (⟨S100000x128, .f32⟩ : BufTy).Contents (Elt F) → (⟨S100000x128, .i1⟩ : BufTy).Contents (Elt F)),
    unary main_arg14 main_v54 (broadcastInDim S1x128 ![1] bcast_S128_S1x128_1 : (⟨S128, .f32⟩ : BufTy).Contents (Elt F) → (⟨S1x128, .f32⟩ : BufTy).Contents (Elt F)),
    unary main_v54 main_v55 (broadcastInDim S100000x128 ![0, 1] bcast_S1x128_S100000x128_0_1 : (⟨S1x128, .f32⟩ : BufTy).Contents (Elt F) → (⟨S100000x128, .f32⟩ : BufTy).Contents (Elt F)),
    binary main_v55 main_v51 main_v56 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v53) (TRef.of (T := ⟨S100000x128, .f32⟩) main_v51) (TRef.of (T := ⟨S100000x128, .f32⟩) main_v56) (TRef.of (T := ⟨S100000x128, .f32⟩) main_v57) select,
    nullary main_cst_7 (constant S_ .f32 0x00000000#32),
    unary main_cst_7 main_v58 (broadcastInDim S512x128 ![] bcast_S_S512x128 : (⟨S_, .f32⟩ : BufTy).Contents (Elt F) → (⟨S512x128, .f32⟩ : BufTy).Contents (Elt F)),
    unary main_arg3 main_v59 (broadcastInDim S100000x1 ![0] bcast_S100000_S100000x1_0 : (⟨S100000, .i32⟩ : BufTy).Contents (Elt F) → (⟨S100000x1, .i32⟩ : BufTy).Contents (Elt F)),
    ternary main_v58 main_v59 main_v57 main_v60 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    nullary main_cst_8 (constant S_ .f32 0x3F800000#32),
    unary main_cst_8 main_v61 (broadcastInDim S100000 ![] bcast_S_S100000 : (⟨S_, .f32⟩ : BufTy).Contents (Elt F) → (⟨S100000, .f32⟩ : BufTy).Contents (Elt F)),
    nullary main_cst_9 (constant S_ .f32 0x00000000#32),
    unary main_cst_9 main_v62 (broadcastInDim S512 ![] bcast_S_S512 : (⟨S_, .f32⟩ : BufTy).Contents (Elt F) → (⟨S512, .f32⟩ : BufTy).Contents (Elt F)),
    unary main_arg3 main_v63 (broadcastInDim S100000x1 ![0] bcast_S100000_S100000x1_0 : (⟨S100000, .i32⟩ : BufTy).Contents (Elt F) → (⟨S100000x1, .i32⟩ : BufTy).Contents (Elt F)),
    ternary main_v62 main_v63 main_v61 main_v64 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_10 (constant S_ .f32 0x3F800000#32),
    unary main_cst_10 main_v65 (broadcastInDim S512 ![] bcast_S_S512 : (⟨S_, .f32⟩ : BufTy).Contents (Elt F) → (⟨S512, .f32⟩ : BufTy).Contents (Elt F)),
    binary main_v64 main_v65 main_v66 (maximumf : (⟨S512, .f32⟩ : BufTy).Contents (Elt F) → (⟨S512, .f32⟩ : BufTy).Contents (Elt F) → (⟨S512, .f32⟩ : BufTy).Contents (Elt F)),
    unary main_v66 main_v67 (broadcastInDim S512x1 ![0] bcast_S512_S512x1_0 : (⟨S512, .f32⟩ : BufTy).Contents (Elt F) → (⟨S512x1, .f32⟩ : BufTy).Contents (Elt F)),
    unary main_v67 main_v68 (broadcastInDim S512x128 ![0, 1] bcast_S512x1_S512x128_0_1 : (⟨S512x1, .f32⟩ : BufTy).Contents (Elt F) → (⟨S512x128, .f32⟩ : BufTy).Contents (Elt F)),
    binary main_v60 main_v68 main_v69 (Host.divf : (⟨S512x128, .f32⟩ : BufTy).Contents (Elt F) → (⟨S512x128, .f32⟩ : BufTy).Contents (Elt F) → (⟨S512x128, .f32⟩ : BufTy).Contents (Elt F)),
    binary main_arg1 main_arg15 main_v70 ((fun l r => Host.dotGeneral dot_S512x2048_S2048x128_S512x128_1_0_0_1_n_n none l r) : (⟨S512x2048, .f32⟩ : BufTy).Contents (Elt F) → (⟨S2048x128, .f32⟩ : BufTy).Contents (Elt F) → (⟨S512x128, .f32⟩ : BufTy).Contents (Elt F)),
    unary main_arg16 main_v71 (broadcastInDim S1x128 ![1] bcast_S128_S1x128_1 : (⟨S128, .f32⟩ : BufTy).Contents (Elt F) → (⟨S1x128, .f32⟩ : BufTy).Contents (Elt F)),
    unary main_v71 main_v72 (broadcastInDim S512x128 ![0, 1] bcast_S1x128_S512x128_0_1 : (⟨S1x128, .f32⟩ : BufTy).Contents (Elt F) → (⟨S512x128, .f32⟩ : BufTy).Contents (Elt F)),
    binary main_v70 main_v72 main_v73 (addf : (⟨S512x128, .f32⟩ : BufTy).Contents (Elt F) → (⟨S512x128, .f32⟩ : BufTy).Contents (Elt F) → (⟨S512x128, .f32⟩ : BufTy).Contents (Elt F)),
    nullary main_cst_11 (constant S_ .f32 0x00000000#32),
    unary main_cst_11 main_v74 (broadcastInDim S512x128 ![] bcast_S_S512x128 : (⟨S_, .f32⟩ : BufTy).Contents (Elt F) → (⟨S512x128, .f32⟩ : BufTy).Contents (Elt F)),
    binary main_v73 main_v74 main_v75 (cmpf .ogt : (⟨S512x128, .f32⟩ : BufTy).Contents (Elt F) → (⟨S512x128, .f32⟩ : BufTy).Contents (Elt F) → (⟨S512x128, .i1⟩ : BufTy).Contents (Elt F)),
    unary main_arg17 main_v76 (broadcastInDim S1x128 ![1] bcast_S128_S1x128_1 : (⟨S128, .f32⟩ : BufTy).Contents (Elt F) → (⟨S1x128, .f32⟩ : BufTy).Contents (Elt F)),
    unary main_v76 main_v77 (broadcastInDim S512x128 ![0, 1] bcast_S1x128_S512x128_0_1 : (⟨S1x128, .f32⟩ : BufTy).Contents (Elt F) → (⟨S512x128, .f32⟩ : BufTy).Contents (Elt F)),
    binary main_v77 main_v73 main_v78 (mulf : (⟨S512x128, .f32⟩ : BufTy).Contents (Elt F) → (⟨S512x128, .f32⟩ : BufTy).Contents (Elt F) → (⟨S512x128, .f32⟩ : BufTy).Contents (Elt F)),
    TRef.ternary (TRef.of (T := ⟨S512x128, .i1⟩) main_v75) (TRef.of (T := ⟨S512x128, .f32⟩) main_v73) (TRef.of (T := ⟨S512x128, .f32⟩) main_v78) (TRef.of (T := ⟨S512x128, .f32⟩) main_v79) select,
    binary main_v69 main_v79 main_v80 ((fun a b => concatenate S512x256 1 [⟨S512x128, a⟩, ⟨S512x128, b⟩] concatenates_S512x128_S512x128_S512x256_d1) : (⟨S512x128, .f32⟩ : BufTy).Contents (Elt F) → (⟨S512x128, .f32⟩ : BufTy).Contents (Elt F) → (⟨S512x256, .f32⟩ : BufTy).Contents (Elt F)),
    binary main_v80 main_arg18 main_v81 ((fun l r => Host.dotGeneral dot_S512x256_S256x1_S512x1_1_0_0_1_n_n none l r) : (⟨S512x256, .f32⟩ : BufTy).Contents (Elt F) → (⟨S256x1, .f32⟩ : BufTy).Contents (Elt F) → (⟨S512x1, .f32⟩ : BufTy).Contents (Elt F)),
    unary main_arg19 main_v82 (broadcastInDim S1x1 ![1] bcast_S1_S1x1_1 : (⟨S1, .f32⟩ : BufTy).Contents (Elt F) → (⟨S1x1, .f32⟩ : BufTy).Contents (Elt F)),
    unary main_v82 main_v83 (broadcastInDim S512x1 ![0, 1] bcast_S1x1_S512x1_0_1 : (⟨S1x1, .f32⟩ : BufTy).Contents (Elt F) → (⟨S512x1, .f32⟩ : BufTy).Contents (Elt F)),
    binary main_v81 main_v83 main_v84 (addf : (⟨S512x1, .f32⟩ : BufTy).Contents (Elt F) → (⟨S512x1, .f32⟩ : BufTy).Contents (Elt F) → (⟨S512x1, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., binary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., binary_bufs_sub .., nullary_bufs_sub .., unary_bufs_sub .., binary_bufs_sub .., unary_bufs_sub .., unary_bufs_sub .., binary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., ternary_bufs_sub .., binary_bufs_sub .., binary_bufs_sub .., unary_bufs_sub .., unary_bufs_sub .., binary_bufs_sub ..⟩

/-- An operation that writes one buffer of a list writes inside the list. -/
theorem sub_of_mem {op : HloOp τ sig (Elt F)} {y : Ref sig .tc} {L : List (Ref sig .tc)}
    (hw : op.writes = {Proc.devRef .tc y}) (hy : y ∈ L) :
    op.writes ⊆ (L.map (Proc.devRef (τ := τ) .tc)).toFinset := by
  rw [hw, Finset.singleton_subset_iff, List.mem_toFinset]
  exact List.mem_map.mpr ⟨y, hy, rfl⟩

/-! ## The stages that are applied to intermediate results

The program applies the same few stages to values it computed earlier. Each is named here as a function of those
values, so that a stage's result is stated over its operands and never over the operands' own terms. -/

/-- The aggregation over edges, from the source column `e1`, the target column `e3` and the node rows `h`. -/
def aggStage (e1 e3 : (⟨S1600000, .i32⟩ : BufTy).Contents (Elt F)) (h : (⟨S100000x128, .f32⟩ : BufTy).Contents (Elt F)) : (⟨S100000x128, .f32⟩ : BufTy).Contents (Elt F) :=
  Host.scatterAdd scatter_S100000x128_S1600000x1_S1600000x128_1_0_0_1 (val_main_v21 (F := F))
    (broadcastInDim S1600000x1 ![0] bcast_S1600000_S1600000x1_0 e3)
    (Host.gather gather_S100000x128_S1600000x1_S1600000x128_1_0_n_n_0_1_1128 h
      (broadcastInDim S1600000x1 ![0] bcast_S1600000_S1600000x1_0
        (select (cmpi .slt e1 (val_main_v14 (F := F))) (addi e1 (val_main_v16 (F := F))) e1)))

/-- A graph layer, from the aggregated rows `G` and the nodes' own rows `H`. -/
def sageStage (G H : (⟨S100000x128, .f32⟩ : BufTy).Contents (Elt F)) (Wl : (⟨S128x128, .f32⟩ : BufTy).Contents (Elt F)) (bl : (⟨S128, .f32⟩ : BufTy).Contents (Elt F))
    (Wr : (⟨S128x128, .f32⟩ : BufTy).Contents (Elt F)) (a : (⟨S128, .f32⟩ : BufTy).Contents (Elt F)) : (⟨S100000x128, .f32⟩ : BufTy).Contents (Elt F) :=
  select (cmpf .ogt (addf (addf (val_main_v4 (F := F) G Wl) (val_main_v6 (F := F) bl)) (val_main_v4 (F := F) H Wr)) (val_main_v8 (F := F)))
    (addf (addf (val_main_v4 (F := F) G Wl) (val_main_v6 (F := F) bl)) (val_main_v4 (F := F) H Wr))
    (mulf (val_main_v6 (F := F) a) (addf (addf (val_main_v4 (F := F) G Wl) (val_main_v6 (F := F) bl)) (val_main_v4 (F := F) H Wr)))

/-- The mean of the node rows `H` per graph, from the batch vector `b`. -/
def poolStage (b : (⟨S100000, .i32⟩ : BufTy).Contents (Elt F)) (H : (⟨S100000x128, .f32⟩ : BufTy).Contents (Elt F)) : (⟨S512x128, .f32⟩ : BufTy).Contents (Elt F) :=
  Host.divf (Host.scatterAdd scatter_S512x128_S100000x1_S100000x128_1_0_0_1 (val_main_v58 (F := F)) (val_main_v59 (F := F) b) H)
    (val_main_v68 (F := F) b)

/-- The two row blocks side by side, times the last column, plus the last bias. -/
def outStage (P Q : (⟨S512x128, .f32⟩ : BufTy).Contents (Elt F)) (w : (⟨S256x1, .f32⟩ : BufTy).Contents (Elt F)) (b : (⟨S1, .f32⟩ : BufTy).Contents (Elt F)) : (⟨S512x1, .f32⟩ : BufTy).Contents (Elt F) :=
  addf (Host.dotGeneral dot_S512x256_S256x1_S512x1_1_0_0_1_n_n none
      (concatenate S512x256 1 [⟨S512x128, P⟩, ⟨S512x128, Q⟩] concatenates_S512x128_S512x128_S512x256_d1) w)
    (val_main_v83 (F := F) b)

/-- Operations 1 … 15 of @main. -/
def s1 : List (HloOp τ sig (Elt F)) :=
  [ unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg2 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg4 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v5 (broadcastInDim S1x128 ![1] bcast_S128_S1x128_1 : (⟨S128, .f32⟩ : BufTy).Contents (Elt F) → (⟨S1x128, .f32⟩ : BufTy).Contents (Elt F)),
    unary main_v5 main_v6 (broadcastInDim S100000x128 ![0, 1] bcast_S1x128_S100000x128_0_1 : (⟨S1x128, .f32⟩ : BufTy).Contents (Elt F) → (⟨S100000x128, .f32⟩ : BufTy).Contents (Elt F)),
    binary main_v4 main_v6 main_v7 (addf : (⟨S100000x128, .f32⟩ : BufTy).Contents (Elt F) → (⟨S100000x128, .f32⟩ : BufTy).Contents (Elt F) → (⟨S100000x128, .f32⟩ : BufTy).Contents (Elt F)),
    nullary main_cst (constant S_ .f32 0x00000000#32),
    unary main_cst main_v8 (broadcastInDim S100000x128 ![] bcast_S_S100000x128 : (⟨S_, .f32⟩ : BufTy).Contents (Elt F) → (⟨S100000x128, .f32⟩ : BufTy).Contents (Elt F)),
    binary main_v7 main_v8 main_v9 (cmpf .ogt : (⟨S100000x128, .f32⟩ : BufTy).Contents (Elt F) → (⟨S100000x128, .f32⟩ : BufTy).Contents (Elt F) → (⟨S100000x128, .i1⟩ : BufTy).Contents (Elt F)),
    unary main_arg6 main_v10 (broadcastInDim S1x128 ![1] bcast_S128_S1x128_1 : (⟨S128, .f32⟩ : BufTy).Contents (Elt F) → (⟨S1x128, .f32⟩ : BufTy).Contents (Elt F)),
    unary main_v10 main_v11 (broadcastInDim S100000x128 ![0, 1] bcast_S1x128_S100000x128_0_1 : (⟨S1x128, .f32⟩ : BufTy).Contents (Elt F) → (⟨S100000x128, .f32⟩ : BufTy).Contents (Elt F)),
    binary main_v11 main_v7 main_v12 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v9) (TRef.of (T := ⟨S100000x128, .f32⟩) main_v7) (TRef.of (T := ⟨S100000x128, .f32⟩) main_v12) (TRef.of (T := ⟨S100000x128, .f32⟩) main_v13) select ]
/-- The buffers they write. -/
def wr1 : List (Ref sig .tc) := [main_v0, main_v1, main_v2, main_v3, main_v4, main_v5, main_v6, main_v7, main_cst, main_v8, main_v9, main_v10, main_v11, main_v12, main_v13]
theorem hW1 : (s1 (F := F)).Forall fun op => op.writes ⊆ ((wr1).map (Proc.devRef (τ := τ) .tc)).toFinset := by
  unfold s1
  exact ⟨sub_of_mem (y := main_v0) rfl (by decide), sub_of_mem (y := main_v1) rfl (by decide), sub_of_mem (y := main_v2) rfl (by decide), sub_of_mem (y := main_v3) rfl (by decide), sub_of_mem (y := main_v4) rfl (by decide), sub_of_mem (y := main_v5) rfl (by decide), sub_of_mem (y := main_v6) rfl (by decide), sub_of_mem (y := main_v7) rfl (by decide), sub_of_mem (y := main_cst) rfl (by decide), sub_of_mem (y := main_v8) rfl (by decide), sub_of_mem (y := main_v9) rfl (by decide), sub_of_mem (y := main_v10) rfl (by decide), sub_of_mem (y := main_v11) rfl (by decide), sub_of_mem (y := main_v12) rfl (by decide), sub_of_mem (y := main_v13) rfl (by decide)⟩
/-- A buffer they do not write keeps its contents. -/
theorem kept1 (V : Valuation τ sig (Elt F)) {r : Ref sig .tc} (hr : r ∉ wr1) :
    after (s1 (F := F)) V (no_index (Proc.devRef .tc r)) = V (Proc.devRef .tc r) :=
  after_of_writes_sub s1 V hW1 hr

/-- Operations 16 … 28 of @main. -/
def s2 : List (HloOp τ sig (Elt F)) :=
  [ nullary main_c (constantI S_ 32 0#32),
    unary main_c main_v14 (broadcastInDim S1600000 ![] bcast_S_S1600000 : (⟨S_, .i32⟩ : BufTy).Contents (Elt F) → (⟨S1600000, .i32⟩ : BufTy).Contents (Elt F)),
    binary main_v1 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v16 (broadcastInDim S1600000 ![] bcast_S_S1600000 : (⟨S_, .i32⟩ : BufTy).Contents (Elt F) → (⟨S1600000, .i32⟩ : BufTy).Contents (Elt F)),
    binary main_v1 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_v1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_v13 main_v19 main_v20 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_1 (constant S_ .f32 0x00000000#32),
    unary main_cst_1 main_v21 (broadcastInDim S100000x128 ![] bcast_S_S100000x128 : (⟨S_, .f32⟩ : BufTy).Contents (Elt F) → (⟨S100000x128, .f32⟩ : BufTy).Contents (Elt F)),
    unary main_v3 main_v22 (broadcastInDim S1600000x1 ![0] bcast_S1600000_S1600000x1_0 : (⟨S1600000, .i32⟩ : BufTy).Contents (Elt F) → (⟨S1600000x1, .i32⟩ : BufTy).Contents (Elt F)),
    ternary main_v21 main_v22 main_v20 main_v23 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]
/-- The buffers they write. -/
def wr2 : List (Ref sig .tc) := [main_c, main_v14, main_v15, main_c_0, main_v16, main_v17, main_v18, main_v19, main_v20, main_cst_1, main_v21, main_v22, main_v23]
theorem hW2 : (s2 (F := F)).Forall fun op => op.writes ⊆ ((wr2).map (Proc.devRef (τ := τ) .tc)).toFinset := by
  unfold s2
  exact ⟨sub_of_mem (y := main_c) rfl (by decide), sub_of_mem (y := main_v14) rfl (by decide), sub_of_mem (y := main_v15) rfl (by decide), sub_of_mem (y := main_c_0) rfl (by decide), sub_of_mem (y := main_v16) rfl (by decide), sub_of_mem (y := main_v17) rfl (by decide), sub_of_mem (y := main_v18) rfl (by decide), sub_of_mem (y := main_v19) rfl (by decide), sub_of_mem (y := main_v20) rfl (by decide), sub_of_mem (y := main_cst_1) rfl (by decide), sub_of_mem (y := main_v21) rfl (by decide), sub_of_mem (y := main_v22) rfl (by decide), sub_of_mem (y := main_v23) rfl (by decide)⟩
/-- A buffer they do not write keeps its contents. -/
theorem kept2 (V : Valuation τ sig (Elt F)) {r : Ref sig .tc} (hr : r ∉ wr2) :
    after (s2 (F := F)) V (no_index (Proc.devRef .tc r)) = V (Proc.devRef .tc r) :=
  after_of_writes_sub s2 V hW2 hr

/-- Operations 29 … 41 of @main. -/
def s3 : List (HloOp τ sig (Elt F)) :=
  [ binary main_v23 main_arg7 main_v24 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v25 (broadcastInDim S1x128 ![1] bcast_S128_S1x128_1 : (⟨S128, .f32⟩ : BufTy).Contents (Elt F) → (⟨S1x128, .f32⟩ : BufTy).Contents (Elt F)),
    unary main_v25 main_v26 (broadcastInDim S100000x128 ![0, 1] bcast_S1x128_S100000x128_0_1 : (⟨S1x128, .f32⟩ : BufTy).Contents (Elt F) → (⟨S100000x128, .f32⟩ : BufTy).Contents (Elt F)),
    binary main_v24 main_v26 main_v27 (addf : (⟨S100000x128, .f32⟩ : BufTy).Contents (Elt F) → (⟨S100000x128, .f32⟩ : BufTy).Contents (Elt F) → (⟨S100000x128, .f32⟩ : BufTy).Contents (Elt F)),
    binary main_v13 main_arg9 main_v28 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v27 main_v28 main_v29 (addf : (⟨S100000x128, .f32⟩ : BufTy).Contents (Elt F) → (⟨S100000x128, .f32⟩ : BufTy).Contents (Elt F) → (⟨S100000x128, .f32⟩ : BufTy).Contents (Elt F)),
    nullary main_cst_2 (constant S_ .f32 0x00000000#32),
    unary main_cst_2 main_v30 (broadcastInDim S100000x128 ![] bcast_S_S100000x128 : (⟨S_, .f32⟩ : BufTy).Contents (Elt F) → (⟨S100000x128, .f32⟩ : BufTy).Contents (Elt F)),
    binary main_v29 main_v30 main_v31 (cmpf .ogt : (⟨S100000x128, .f32⟩ : BufTy).Contents (Elt F) → (⟨S100000x128, .f32⟩ : BufTy).Contents (Elt F) → (⟨S100000x128, .i1⟩ : BufTy).Contents (Elt F)),
    unary main_arg10 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v33 main_v29 main_v34 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v31) (TRef.of (T := ⟨S100000x128, .f32⟩) main_v29) (TRef.of (T := ⟨S100000x128, .f32⟩) main_v34) (TRef.of (T := ⟨S100000x128, .f32⟩) main_v35) select ]
/-- The buffers they write. -/
def wr3 : List (Ref sig .tc) := [main_v24, main_v25, main_v26, main_v27, main_v28, main_v29, main_cst_2, main_v30, main_v31, main_v32, main_v33, main_v34, main_v35]
theorem hW3 : (s3 (F := F)).Forall fun op => op.writes ⊆ ((wr3).map (Proc.devRef (τ := τ) .tc)).toFinset := by
  unfold s3
  exact ⟨sub_of_mem (y := main_v24) rfl (by decide), sub_of_mem (y := main_v25) rfl (by decide), sub_of_mem (y := main_v26) rfl (by decide), sub_of_mem (y := main_v27) rfl (by decide), sub_of_mem (y := main_v28) rfl (by decide), sub_of_mem (y := main_v29) rfl (by decide), sub_of_mem (y := main_cst_2) rfl (by decide), sub_of_mem (y := main_v30) rfl (by decide), sub_of_mem (y := main_v31) rfl (by decide), sub_of_mem (y := main_v32) rfl (by decide), sub_of_mem (y := main_v33) rfl (by decide), sub_of_mem (y := main_v34) rfl (by decide), sub_of_mem (y := main_v35) rfl (by decide)⟩
/-- A buffer they do not write keeps its contents. -/
theorem kept3 (V : Valuation τ sig (Elt F)) {r : Ref sig .tc} (hr : r ∉ wr3) :
    after (s3 (F := F)) V (no_index (Proc.devRef .tc r)) = V (Proc.devRef .tc r) :=
  after_of_writes_sub s3 V hW3 hr

/-- Operations 42 … 54 of @main. -/
def s4 : List (HloOp τ sig (Elt F)) :=
  [ nullary main_c_3 (constantI S_ 32 0#32),
    unary main_c_3 main_v36 (broadcastInDim S1600000 ![] bcast_S_S1600000 : (⟨S_, .i32⟩ : BufTy).Contents (Elt F) → (⟨S1600000, .i32⟩ : BufTy).Contents (Elt F)),
    binary main_v1 main_v36 main_v37 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v38 (broadcastInDim S1600000 ![] bcast_S_S1600000 : (⟨S_, .i32⟩ : BufTy).Contents (Elt F) → (⟨S1600000, .i32⟩ : BufTy).Contents (Elt F)),
    binary main_v1 main_v38 main_v39 (addi : (⟨S1600000, .i32⟩ : BufTy).Contents (Elt F) → (⟨S1600000, .i32⟩ : BufTy).Contents (Elt F) → (⟨S1600000, .i32⟩ : BufTy).Contents (Elt F)),
    ternary main_v37 main_v39 main_v1 main_v40 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v40 main_v41 (broadcastInDim S1600000x1 ![0] bcast_S1600000_S1600000x1_0 : (⟨S1600000, .i32⟩ : BufTy).Contents (Elt F) → (⟨S1600000x1, .i32⟩ : BufTy).Contents (Elt F)),
    binary main_v35 main_v41 main_v42 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_5 (constant S_ .f32 0x00000000#32),
    unary main_cst_5 main_v43 (broadcastInDim S100000x128 ![] bcast_S_S100000x128 : (⟨S_, .f32⟩ : BufTy).Contents (Elt F) → (⟨S100000x128, .f32⟩ : BufTy).Contents (Elt F)),
    unary main_v3 main_v44 (broadcastInDim S1600000x1 ![0] bcast_S1600000_S1600000x1_0 : (⟨S1600000, .i32⟩ : BufTy).Contents (Elt F) → (⟨S1600000x1, .i32⟩ : BufTy).Contents (Elt F)),
    ternary main_v43 main_v44 main_v42 main_v45 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]
/-- The buffers they write. -/
def wr4 : List (Ref sig .tc) := [main_c_3, main_v36, main_v37, main_c_4, main_v38, main_v39, main_v40, main_v41, main_v42, main_cst_5, main_v43, main_v44, main_v45]
theorem hW4 : (s4 (F := F)).Forall fun op => op.writes ⊆ ((wr4).map (Proc.devRef (τ := τ) .tc)).toFinset := by
  unfold s4
  exact ⟨sub_of_mem (y := main_c_3) rfl (by decide), sub_of_mem (y := main_v36) rfl (by decide), sub_of_mem (y := main_v37) rfl (by decide), sub_of_mem (y := main_c_4) rfl (by decide), sub_of_mem (y := main_v38) rfl (by decide), sub_of_mem (y := main_v39) rfl (by decide), sub_of_mem (y := main_v40) rfl (by decide), sub_of_mem (y := main_v41) rfl (by decide), sub_of_mem (y := main_v42) rfl (by decide), sub_of_mem (y := main_cst_5) rfl (by decide), sub_of_mem (y := main_v43) rfl (by decide), sub_of_mem (y := main_v44) rfl (by decide), sub_of_mem (y := main_v45) rfl (by decide)⟩
/-- A buffer they do not write keeps its contents. -/
theorem kept4 (V : Valuation τ sig (Elt F)) {r : Ref sig .tc} (hr : r ∉ wr4) :
    after (s4 (F := F)) V (no_index (Proc.devRef .tc r)) = V (Proc.devRef .tc r) :=
  after_of_writes_sub s4 V hW4 hr

/-- Operations 55 … 67 of @main. -/
def s5 : List (HloOp τ sig (Elt F)) :=
  [ binary main_v45 main_arg11 main_v46 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg12 main_v47 (broadcastInDim S1x128 ![1] bcast_S128_S1x128_1 : (⟨S128, .f32⟩ : BufTy).Contents (Elt F) → (⟨S1x128, .f32⟩ : BufTy).Contents (Elt F)),
    unary main_v47 main_v48 (broadcastInDim S100000x128 ![0, 1] bcast_S1x128_S100000x128_0_1 : (⟨S1x128, .f32⟩ : BufTy).Contents (Elt F) → (⟨S100000x128, .f32⟩ : BufTy).Contents (Elt F)),
    binary main_v46 main_v48 main_v49 (addf : (⟨S100000x128, .f32⟩ : BufTy).Contents (Elt F) → (⟨S100000x128, .f32⟩ : BufTy).Contents (Elt F) → (⟨S100000x128, .f32⟩ : BufTy).Contents (Elt F)),
    binary main_v35 main_arg13 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v49 main_v50 main_v51 (addf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x00000000#32),
    unary main_cst_6 main_v52 (broadcastInDim S100000x128 ![] bcast_S_S100000x128 : (⟨S_, .f32⟩ : BufTy).Contents (Elt F) → (⟨S100000x128, .f32⟩ : BufTy).Contents (Elt F)),
    binary main_v51 main_v52 main_v53 (cmpf .ogt : (⟨S100000x128, .f32⟩ : BufTy).Contents (Elt F) → (⟨S100000x128, .f32⟩ : BufTy).Contents (Elt F) → (⟨S100000x128, .i1⟩ : BufTy).Contents (Elt F)),
    unary main_arg14 main_v54 (broadcastInDim S1x128 ![1] bcast_S128_S1x128_1 : (⟨S128, .f32⟩ : BufTy).Contents (Elt F) → (⟨S1x128, .f32⟩ : BufTy).Contents (Elt F)),
    unary main_v54 main_v55 (broadcastInDim S100000x128 ![0, 1] bcast_S1x128_S100000x128_0_1 : (⟨S1x128, .f32⟩ : BufTy).Contents (Elt F) → (⟨S100000x128, .f32⟩ : BufTy).Contents (Elt F)),
    binary main_v55 main_v51 main_v56 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v53) (TRef.of (T := ⟨S100000x128, .f32⟩) main_v51) (TRef.of (T := ⟨S100000x128, .f32⟩) main_v56) (TRef.of (T := ⟨S100000x128, .f32⟩) main_v57) select ]
/-- The buffers they write. -/
def wr5 : List (Ref sig .tc) := [main_v46, main_v47, main_v48, main_v49, main_v50, main_v51, main_cst_6, main_v52, main_v53, main_v54, main_v55, main_v56, main_v57]
theorem hW5 : (s5 (F := F)).Forall fun op => op.writes ⊆ ((wr5).map (Proc.devRef (τ := τ) .tc)).toFinset := by
  unfold s5
  exact ⟨sub_of_mem (y := main_v46) rfl (by decide), sub_of_mem (y := main_v47) rfl (by decide), sub_of_mem (y := main_v48) rfl (by decide), sub_of_mem (y := main_v49) rfl (by decide), sub_of_mem (y := main_v50) rfl (by decide), sub_of_mem (y := main_v51) rfl (by decide), sub_of_mem (y := main_cst_6) rfl (by decide), sub_of_mem (y := main_v52) rfl (by decide), sub_of_mem (y := main_v53) rfl (by decide), sub_of_mem (y := main_v54) rfl (by decide), sub_of_mem (y := main_v55) rfl (by decide), sub_of_mem (y := main_v56) rfl (by decide), sub_of_mem (y := main_v57) rfl (by decide)⟩
/-- A buffer they do not write keeps its contents. -/
theorem kept5 (V : Valuation τ sig (Elt F)) {r : Ref sig .tc} (hr : r ∉ wr5) :
    after (s5 (F := F)) V (no_index (Proc.devRef .tc r)) = V (Proc.devRef .tc r) :=
  after_of_writes_sub s5 V hW5 hr

/-- Operations 68 … 83 of @main. -/
def s6 : List (HloOp τ sig (Elt F)) :=
  [ nullary main_cst_7 (constant S_ .f32 0x00000000#32),
    unary main_cst_7 main_v58 (broadcastInDim S512x128 ![] bcast_S_S512x128 : (⟨S_, .f32⟩ : BufTy).Contents (Elt F) → (⟨S512x128, .f32⟩ : BufTy).Contents (Elt F)),
    unary main_arg3 main_v59 (broadcastInDim S100000x1 ![0] bcast_S100000_S100000x1_0 : (⟨S100000, .i32⟩ : BufTy).Contents (Elt F) → (⟨S100000x1, .i32⟩ : BufTy).Contents (Elt F)),
    ternary main_v58 main_v59 main_v57 main_v60 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    nullary main_cst_8 (constant S_ .f32 0x3F800000#32),
    unary main_cst_8 main_v61 (broadcastInDim S100000 ![] bcast_S_S100000 : (⟨S_, .f32⟩ : BufTy).Contents (Elt F) → (⟨S100000, .f32⟩ : BufTy).Contents (Elt F)),
    nullary main_cst_9 (constant S_ .f32 0x00000000#32),
    unary main_cst_9 main_v62 (broadcastInDim S512 ![] bcast_S_S512 : (⟨S_, .f32⟩ : BufTy).Contents (Elt F) → (⟨S512, .f32⟩ : BufTy).Contents (Elt F)),
    unary main_arg3 main_v63 (broadcastInDim S100000x1 ![0] bcast_S100000_S100000x1_0 : (⟨S100000, .i32⟩ : BufTy).Contents (Elt F) → (⟨S100000x1, .i32⟩ : BufTy).Contents (Elt F)),
    ternary main_v62 main_v63 main_v61 main_v64 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_10 (constant S_ .f32 0x3F800000#32),
    unary main_cst_10 main_v65 (broadcastInDim S512 ![] bcast_S_S512 : (⟨S_, .f32⟩ : BufTy).Contents (Elt F) → (⟨S512, .f32⟩ : BufTy).Contents (Elt F)),
    binary main_v64 main_v65 main_v66 (maximumf : (⟨S512, .f32⟩ : BufTy).Contents (Elt F) → (⟨S512, .f32⟩ : BufTy).Contents (Elt F) → (⟨S512, .f32⟩ : BufTy).Contents (Elt F)),
    unary main_v66 main_v67 (broadcastInDim S512x1 ![0] bcast_S512_S512x1_0 : (⟨S512, .f32⟩ : BufTy).Contents (Elt F) → (⟨S512x1, .f32⟩ : BufTy).Contents (Elt F)),
    unary main_v67 main_v68 (broadcastInDim S512x128 ![0, 1] bcast_S512x1_S512x128_0_1 : (⟨S512x1, .f32⟩ : BufTy).Contents (Elt F) → (⟨S512x128, .f32⟩ : BufTy).Contents (Elt F)),
    binary main_v60 main_v68 main_v69 (Host.divf : (⟨S512x128, .f32⟩ : BufTy).Contents (Elt F) → (⟨S512x128, .f32⟩ : BufTy).Contents (Elt F) → (⟨S512x128, .f32⟩ : BufTy).Contents (Elt F)) ]
/-- The buffers they write. -/
def wr6 : List (Ref sig .tc) := [main_cst_7, main_v58, main_v59, main_v60, main_cst_8, main_v61, main_cst_9, main_v62, main_v63, main_v64, main_cst_10, main_v65, main_v66, main_v67, main_v68, main_v69]
theorem hW6 : (s6 (F := F)).Forall fun op => op.writes ⊆ ((wr6).map (Proc.devRef (τ := τ) .tc)).toFinset := by
  unfold s6
  exact ⟨sub_of_mem (y := main_cst_7) rfl (by decide), sub_of_mem (y := main_v58) rfl (by decide), sub_of_mem (y := main_v59) rfl (by decide), sub_of_mem (y := main_v60) rfl (by decide), sub_of_mem (y := main_cst_8) rfl (by decide), sub_of_mem (y := main_v61) rfl (by decide), sub_of_mem (y := main_cst_9) rfl (by decide), sub_of_mem (y := main_v62) rfl (by decide), sub_of_mem (y := main_v63) rfl (by decide), sub_of_mem (y := main_v64) rfl (by decide), sub_of_mem (y := main_cst_10) rfl (by decide), sub_of_mem (y := main_v65) rfl (by decide), sub_of_mem (y := main_v66) rfl (by decide), sub_of_mem (y := main_v67) rfl (by decide), sub_of_mem (y := main_v68) rfl (by decide), sub_of_mem (y := main_v69) rfl (by decide)⟩
/-- A buffer they do not write keeps its contents. -/
theorem kept6 (V : Valuation τ sig (Elt F)) {r : Ref sig .tc} (hr : r ∉ wr6) :
    after (s6 (F := F)) V (no_index (Proc.devRef .tc r)) = V (Proc.devRef .tc r) :=
  after_of_writes_sub s6 V hW6 hr

/-- Operations 84 … 94 of @main. -/
def s7 : List (HloOp τ sig (Elt F)) :=
  [ binary main_arg1 main_arg15 main_v70 ((fun l r => Host.dotGeneral dot_S512x2048_S2048x128_S512x128_1_0_0_1_n_n none l r) : (⟨S512x2048, .f32⟩ : BufTy).Contents (Elt F) → (⟨S2048x128, .f32⟩ : BufTy).Contents (Elt F) → (⟨S512x128, .f32⟩ : BufTy).Contents (Elt F)),
    unary main_arg16 main_v71 (broadcastInDim S1x128 ![1] bcast_S128_S1x128_1 : (⟨S128, .f32⟩ : BufTy).Contents (Elt F) → (⟨S1x128, .f32⟩ : BufTy).Contents (Elt F)),
    unary main_v71 main_v72 (broadcastInDim S512x128 ![0, 1] bcast_S1x128_S512x128_0_1 : (⟨S1x128, .f32⟩ : BufTy).Contents (Elt F) → (⟨S512x128, .f32⟩ : BufTy).Contents (Elt F)),
    binary main_v70 main_v72 main_v73 (addf : (⟨S512x128, .f32⟩ : BufTy).Contents (Elt F) → (⟨S512x128, .f32⟩ : BufTy).Contents (Elt F) → (⟨S512x128, .f32⟩ : BufTy).Contents (Elt F)),
    nullary main_cst_11 (constant S_ .f32 0x00000000#32),
    unary main_cst_11 main_v74 (broadcastInDim S512x128 ![] bcast_S_S512x128 : (⟨S_, .f32⟩ : BufTy).Contents (Elt F) → (⟨S512x128, .f32⟩ : BufTy).Contents (Elt F)),
    binary main_v73 main_v74 main_v75 (cmpf .ogt : (⟨S512x128, .f32⟩ : BufTy).Contents (Elt F) → (⟨S512x128, .f32⟩ : BufTy).Contents (Elt F) → (⟨S512x128, .i1⟩ : BufTy).Contents (Elt F)),
    unary main_arg17 main_v76 (broadcastInDim S1x128 ![1] bcast_S128_S1x128_1 : (⟨S128, .f32⟩ : BufTy).Contents (Elt F) → (⟨S1x128, .f32⟩ : BufTy).Contents (Elt F)),
    unary main_v76 main_v77 (broadcastInDim S512x128 ![0, 1] bcast_S1x128_S512x128_0_1 : (⟨S1x128, .f32⟩ : BufTy).Contents (Elt F) → (⟨S512x128, .f32⟩ : BufTy).Contents (Elt F)),
    binary main_v77 main_v73 main_v78 (mulf : (⟨S512x128, .f32⟩ : BufTy).Contents (Elt F) → (⟨S512x128, .f32⟩ : BufTy).Contents (Elt F) → (⟨S512x128, .f32⟩ : BufTy).Contents (Elt F)),
    TRef.ternary (TRef.of (T := ⟨S512x128, .i1⟩) main_v75) (TRef.of (T := ⟨S512x128, .f32⟩) main_v73) (TRef.of (T := ⟨S512x128, .f32⟩) main_v78) (TRef.of (T := ⟨S512x128, .f32⟩) main_v79) select ]
/-- The buffers they write. -/
def wr7 : List (Ref sig .tc) := [main_v70, main_v71, main_v72, main_v73, main_cst_11, main_v74, main_v75, main_v76, main_v77, main_v78, main_v79]
theorem hW7 : (s7 (F := F)).Forall fun op => op.writes ⊆ ((wr7).map (Proc.devRef (τ := τ) .tc)).toFinset := by
  unfold s7
  exact ⟨sub_of_mem (y := main_v70) rfl (by decide), sub_of_mem (y := main_v71) rfl (by decide), sub_of_mem (y := main_v72) rfl (by decide), sub_of_mem (y := main_v73) rfl (by decide), sub_of_mem (y := main_cst_11) rfl (by decide), sub_of_mem (y := main_v74) rfl (by decide), sub_of_mem (y := main_v75) rfl (by decide), sub_of_mem (y := main_v76) rfl (by decide), sub_of_mem (y := main_v77) rfl (by decide), sub_of_mem (y := main_v78) rfl (by decide), sub_of_mem (y := main_v79) rfl (by decide)⟩
/-- A buffer they do not write keeps its contents. -/
theorem kept7 (V : Valuation τ sig (Elt F)) {r : Ref sig .tc} (hr : r ∉ wr7) :
    after (s7 (F := F)) V (no_index (Proc.devRef .tc r)) = V (Proc.devRef .tc r) :=
  after_of_writes_sub s7 V hW7 hr

/-- Operations 95 … 99 of @main. -/
def s8 : List (HloOp τ sig (Elt F)) :=
  [ binary main_v69 main_v79 main_v80 ((fun a b => concatenate S512x256 1 [⟨S512x128, a⟩, ⟨S512x128, b⟩] concatenates_S512x128_S512x128_S512x256_d1) : (⟨S512x128, .f32⟩ : BufTy).Contents (Elt F) → (⟨S512x128, .f32⟩ : BufTy).Contents (Elt F) → (⟨S512x256, .f32⟩ : BufTy).Contents (Elt F)),
    binary main_v80 main_arg18 main_v81 ((fun l r => Host.dotGeneral dot_S512x256_S256x1_S512x1_1_0_0_1_n_n none l r) : (⟨S512x256, .f32⟩ : BufTy).Contents (Elt F) → (⟨S256x1, .f32⟩ : BufTy).Contents (Elt F) → (⟨S512x1, .f32⟩ : BufTy).Contents (Elt F)),
    unary main_arg19 main_v82 (broadcastInDim S1x1 ![1] bcast_S1_S1x1_1 : (⟨S1, .f32⟩ : BufTy).Contents (Elt F) → (⟨S1x1, .f32⟩ : BufTy).Contents (Elt F)),
    unary main_v82 main_v83 (broadcastInDim S512x1 ![0, 1] bcast_S1x1_S512x1_0_1 : (⟨S1x1, .f32⟩ : BufTy).Contents (Elt F) → (⟨S512x1, .f32⟩ : BufTy).Contents (Elt F)),
    binary main_v81 main_v83 main_v84 (addf : (⟨S512x1, .f32⟩ : BufTy).Contents (Elt F) → (⟨S512x1, .f32⟩ : BufTy).Contents (Elt F) → (⟨S512x1, .f32⟩ : BufTy).Contents (Elt F)) ]
/-- The buffers they write. -/
def wr8 : List (Ref sig .tc) := [main_v80, main_v81, main_v82, main_v83, main_v84]
theorem hW8 : (s8 (F := F)).Forall fun op => op.writes ⊆ ((wr8).map (Proc.devRef (τ := τ) .tc)).toFinset := by
  unfold s8
  exact ⟨sub_of_mem (y := main_v80) rfl (by decide), sub_of_mem (y := main_v81) rfl (by decide), sub_of_mem (y := main_v82) rfl (by decide), sub_of_mem (y := main_v83) rfl (by decide), sub_of_mem (y := main_v84) rfl (by decide)⟩
/-- A buffer they do not write keeps its contents. -/
theorem kept8 (V : Valuation τ sig (Elt F)) {r : Ref sig .tc} (hr : r ∉ wr8) :
    after (s8 (F := F)) V (no_index (Proc.devRef .tc r)) = V (Proc.devRef .tc r) :=
  after_of_writes_sub s8 V hW8 hr

/-! ## The program's named stages are these stages of its earlier named stages -/

theorem E23 (x0 : (⟨S100000x128, .f32⟩ : BufTy).Contents (Elt F)) (x2 : (⟨S2x1600000, .i32⟩ : BufTy).Contents (Elt F)) (x4 : (⟨S128x128, .f32⟩ : BufTy).Contents (Elt F)) (x5 : (⟨S128, .f32⟩ : BufTy).Contents (Elt F)) (x6 : (⟨S128, .f32⟩ : BufTy).Contents (Elt F)) :
    val_main_v23 (F := F) x0 x2 x4 x5 x6 = aggStage (val_main_v1 (F := F) x2) (val_main_v3 (F := F) x2) (val_main_v13 (F := F) x0 x4 x5 x6) := rfl
theorem E35 (x0 : (⟨S100000x128, .f32⟩ : BufTy).Contents (Elt F)) (x2 : (⟨S2x1600000, .i32⟩ : BufTy).Contents (Elt F)) (x4 : (⟨S128x128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) :
    val_main_v35 (F := F) x0 x2 x4 x5 x6 x7 x8 x9 x10 = sageStage (val_main_v23 (F := F) x0 x2 x4 x5 x6) (val_main_v13 (F := F) x0 x4 x5 x6) x7 x8 x9 x10 := rfl
theorem E45 (x0 : (⟨S100000x128, .f32⟩ : BufTy).Contents (Elt F)) (x2 : (⟨S2x1600000, .i32⟩ : BufTy).Contents (Elt F)) (x4 : (⟨S128x128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) :
    val_main_v45 (F := F) x0 x2 x4 x5 x6 x7 x8 x9 x10 = aggStage (val_main_v1 (F := F) x2) (val_main_v3 (F := F) x2) (val_main_v35 (F := F) x0 x2 x4 x5 x6 x7 x8 x9 x10) := rfl
theorem E57 (x0 : (⟨S100000x128, .f32⟩ : BufTy).Contents (Elt F)) (x2 : (⟨S2x1600000, .i32⟩ : BufTy).Contents (Elt F)) (x4 : (⟨S128x128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F)) (x13 : (⟨S128x128, .f32⟩ : BufTy).Contents (Elt F)) (x14 : (⟨S128, .f32⟩ : BufTy).Contents (Elt F)) :
    val_main_v57 (F := F) x0 x2 x4 x5 x6 x7 x8 x9 x10 x11 x12 x13 x14 = sageStage (val_main_v45 (F := F) x0 x2 x4 x5 x6 x7 x8 x9 x10) (val_main_v35 (F := F) x0 x2 x4 x5 x6 x7 x8 x9 x10) x11 x12 x13 x14 := rfl
theorem E69 (x0 : (⟨S100000x128, .f32⟩ : BufTy).Contents (Elt F)) (x2 : (⟨S2x1600000, .i32⟩ : BufTy).Contents (Elt F)) (x3 : (⟨S100000, .i32⟩ : BufTy).Contents (Elt F)) (x4 : (⟨S128x128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F)) (x13 : (⟨S128x128, .f32⟩ : BufTy).Contents (Elt F)) (x14 : (⟨S128, .f32⟩ : BufTy).Contents (Elt F)) :
    val_main_v69 (F := F) x0 x2 x3 x4 x5 x6 x7 x8 x9 x10 x11 x12 x13 x14 = poolStage x3 (val_main_v57 (F := F) x0 x2 x4 x5 x6 x7 x8 x9 x10 x11 x12 x13 x14) := rfl
theorem E84 (x0 : (⟨S100000x128, .f32⟩ : BufTy).Contents (Elt F)) (x1 : (⟨S512x2048, .f32⟩ : BufTy).Contents (Elt F)) (x2 : (⟨S2x1600000, .i32⟩ : BufTy).Contents (Elt F)) (x3 : (⟨S100000, .i32⟩ : BufTy).Contents (Elt F)) (x4 : (⟨S128x128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F)) (x13 : (⟨S128x128, .f32⟩ : BufTy).Contents (Elt F)) (x14 : (⟨S128, .f32⟩ : BufTy).Contents (Elt F)) (x15 : (⟨S2048x128, .f32⟩ : BufTy).Contents (Elt F)) (x16 : (⟨S128, .f32⟩ : BufTy).Contents (Elt F)) (x17 : (⟨S128, .f32⟩ : BufTy).Contents (Elt F)) (x18 : (⟨S256x1, .f32⟩ : BufTy).Contents (Elt F)) (x19 : (⟨S1, .f32⟩ : BufTy).Contents (Elt F)) :
    val_main_v84 (F := F) x0 x1 x2 x3 x4 x5 x6 x7 x8 x9 x10 x11 x12 x13 x14 x15 x16 x17 x18 x19 = outStage (val_main_v69 (F := F) x0 x2 x3 x4 x5 x6 x7 x8 x9 x10 x11 x12 x13 x14) (val_main_v79 (F := F) x1 x15 x16 x17) x18 x19 := rfl

/-! ## What each stretch of operations leaves, from ANY contents `V` -/

theorem L1a (V : Valuation τ sig (Elt F)) : after (s1 (F := F)) V (no_index (Proc.devRef .tc main_v13))
    = val_main_v13 (F := F) (V (Proc.devRef .tc main_arg0)) (V (Proc.devRef .tc main_arg4)) (V (Proc.devRef .tc main_arg5)) (V (Proc.devRef .tc main_arg6)) := by
  unfold s1; after_results_simp <;> rfl
theorem L1b (V : Valuation τ sig (Elt F)) : after (s1 (F := F)) V (no_index (Proc.devRef .tc main_v1))
    = val_main_v1 (F := F) (V (Proc.devRef .tc main_arg2)) := by
  unfold s1; after_results_simp <;> rfl
theorem L1c (V : Valuation τ sig (Elt F)) : after (s1 (F := F)) V (no_index (Proc.devRef .tc main_v3))
    = val_main_v3 (F := F) (V (Proc.devRef .tc main_arg2)) := by
  unfold s1; after_results_simp <;> rfl
theorem L2 (V : Valuation τ sig (Elt F)) : after (s2 (F := F)) V (no_index (Proc.devRef .tc main_v23))
    = aggStage (V (Proc.devRef .tc main_v1)) (V (Proc.devRef .tc main_v3)) (V (Proc.devRef .tc main_v13)) := by
  unfold s2; after_results_simp <;> rfl
theorem L3 (V : Valuation τ sig (Elt F)) : after (s3 (F := F)) V (no_index (Proc.devRef .tc main_v35))
    = sageStage (V (Proc.devRef .tc main_v23)) (V (Proc.devRef .tc main_v13)) (V (Proc.devRef .tc main_arg7)) (V (Proc.devRef .tc main_arg8)) (V (Proc.devRef .tc main_arg9)) (V (Proc.devRef .tc main_arg10)) := by
  unfold s3; after_results_simp <;> rfl
theorem L4 (V : Valuation τ sig (Elt F)) : after (s4 (F := F)) V (no_index (Proc.devRef .tc main_v45))
    = aggStage (V (Proc.devRef .tc main_v1)) (V (Proc.devRef .tc main_v3)) (V (Proc.devRef .tc main_v35)) := by
  unfold s4; after_results_simp <;> rfl
theorem L5 (V : Valuation τ sig (Elt F)) : after (s5 (F := F)) V (no_index (Proc.devRef .tc main_v57))
    = sageStage (V (Proc.devRef .tc main_v45)) (V (Proc.devRef .tc main_v35)) (V (Proc.devRef .tc main_arg11)) (V (Proc.devRef .tc main_arg12)) (V (Proc.devRef .tc main_arg13)) (V (Proc.devRef .tc main_arg14)) := by
  unfold s5; after_results_simp <;> rfl
theorem L6 (V : Valuation τ sig (Elt F)) : after (s6 (F := F)) V (no_index (Proc.devRef .tc main_v69))
    = poolStage (V (Proc.devRef .tc main_arg3)) (V (Proc.devRef .tc main_v57)) := by
  unfold s6; after_results_simp <;> rfl
theorem L7 (V : Valuation τ sig (Elt F)) : after (s7 (F := F)) V (no_index (Proc.devRef .tc main_v79))
    = val_main_v79 (F := F) (V (Proc.devRef .tc main_arg1)) (V (Proc.devRef .tc main_arg15)) (V (Proc.devRef .tc main_arg16)) (V (Proc.devRef .tc main_arg17)) := by
  unfold s7; after_results_simp <;> rfl
theorem L8 (V : Valuation τ sig (Elt F)) : after (s8 (F := F)) V (no_index (Proc.devRef .tc main_v84))
    = outStage (V (Proc.devRef .tc main_v69)) (V (Proc.devRef .tc main_v79)) (V (Proc.devRef .tc main_arg18)) (V (Proc.devRef .tc main_arg19)) := by
  unfold s8; after_results_simp <;> rfl

/-- The line of operations is its eight stretches in a row. -/
theorem ops_split : (ops : List (HloOp τ sig (Elt F))) = s1 ++ (s2 ++ (s3 ++ (s4 ++ (s5 ++ (s6 ++ (s7 ++ s8)))))) := rfl

/-- THE RESULT BUFFER after the whole line, from any contents `W`: the last stage of `W`'s arguments. -/
theorem res_eq (W : Valuation τ sig (Elt F)) :
    after (ops (F := F)) W (Proc.devRef .tc main_v84)
      = val_main_v84 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) := by
  rw [E84, E69, E57, E45, E35, E23, ops_split]
  simp only [after_append]
  simp (disch := decide) only [L8, L7, L6, L5, L4, L3, L2, L1a, L1b, L1c, kept1, kept2, kept3, kept4, kept5, kept6, kept7, kept8]

/-- Every buffer the line writes. -/
def wrAll : List (Ref sig .tc) := wr1 ++ (wr2 ++ (wr3 ++ (wr4 ++ (wr5 ++ (wr6 ++ (wr7 ++ wr8))))))

/-- A buffer no operation writes (an argument) holds after the line what it held before. -/
theorem arg_kept (W : Valuation τ sig (Elt F)) {r : Ref sig .tc} (hr : r ∉ wrAll) :
    after (ops (F := F)) W (Proc.devRef .tc r) = W (Proc.devRef .tc r) := by
  simp only [wrAll, List.mem_append, not_or] at hr
  obtain ⟨h1, h2, h3, h4, h5, h6, h7, h8⟩ := hr
  rw [ops_split]
  simp only [after_append]
  rw [kept8 _ h8, kept7 _ h7, kept6 _ h6, kept5 _ h5, kept4 _ h4, kept3 _ h3, kept2 _ h2, kept1 _ h1]

/-- On every device, from any memory with zero counters: every weakly fair execution of @main terminates with the
    result buffer at the last stage of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84) = val_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v84).trans (res_eq (launchContents m c)),
      (h c main_arg0).trans (arg_kept (launchContents m c) (by decide)),
      (h c main_arg1).trans (arg_kept (launchContents m c) (by decide)),
      (h c main_arg2).trans (arg_kept (launchContents m c) (by decide)),
      (h c main_arg3).trans (arg_kept (launchContents m c) (by decide)),
      (h c main_arg4).trans (arg_kept (launchContents m c) (by decide)),
      (h c main_arg5).trans (arg_kept (launchContents m c) (by decide)),
      (h c main_arg6).trans (arg_kept (launchContents m c) (by decide)),
      (h c main_arg7).trans (arg_kept (launchContents m c) (by decide)),
      (h c main_arg8).trans (arg_kept (launchContents m c) (by decide)),
      (h c main_arg9).trans (arg_kept (launchContents m c) (by decide)),
      (h c main_arg10).trans (arg_kept (launchContents m c) (by decide)),
      (h c main_arg11).trans (arg_kept (launchContents m c) (by decide)),
      (h c main_arg12).trans (arg_kept (launchContents m c) (by decide)),
      (h c main_arg13).trans (arg_kept (launchContents m c) (by decide)),
      (h c main_arg14).trans (arg_kept (launchContents m c) (by decide)),
      (h c main_arg15).trans (arg_kept (launchContents m c) (by decide)),
      (h c main_arg16).trans (arg_kept (launchContents m c) (by decide)),
      (h c main_arg17).trans (arg_kept (launchContents m c) (by decide)),
      (h c main_arg18).trans (arg_kept (launchContents m c) (by decide)),
      (h c main_arg19).trans (arg_kept (launchContents m c) (by decide))⟩)
    (run_seq scopedRefs_eq scopedSems_eq defs main (fun _ => ops) main_eq (fun _ => ops_sub) m ρ)

end Cert.RefSeg

end
-- ==== Proof.Algebra.lean ====
/-
  Two arrangements of "pool the node rows per graph, then project to one number" agree on real entries.

  Write `P e` for "node `e` belongs to graph `g`" and `c` for the graph's divisor (its size, or one when it is
  empty).  Pooling first gives, for column `t`, the number `(∑ e, [P e] h e t) / c`, and the projection is
  `∑ t, ((∑ e, [P e] h e t) / c) * w t`.  Projecting first gives one number `∑ t, h e t * w t` per node, pooled to
  `(∑ e, [P e] ∑ t, h e t * w t) / c`.  Over the real numbers the two are equal: division by `c ≠ 0` is
  multiplication by `1 / c`, a product distributes over a finite sum, and two finite sums may be exchanged.  On the
  extended reals distributivity fails at the infinities, so the law is proved for arrays all of whose entries are
  real numbers: each entry is replaced by the real it is, the coercion is pushed outwards through products,
  sums and the conditional, and what is left is the identity over the reals.

  The rest of the file says that real entries stay real through the network: sums, products, the maximum and
  the leaky rectifier of reals are reals, hence so are a matrix product, a dense layer and a graph layer.
  The divisor is a real that is at least one, hence not zero.

  Last, the 256-term product with the projection column splits into its first and last 128 terms; the
  first half is the pooled part treated above and the last half is the fingerprint part, the same on both sides.
-/
import proofs.«151545_j56994216017995_2_alg».proof.Proof.Net

noncomputable section

open scoped BigOperators

namespace Cert.Net

open Idealize.ShloMosaic Idealize.ShloMosaic.ValueIdx

/-- Every entry is a real number: neither infinity occurs. -/
def AllReal {ι : Type} (f : ι → EReal) : Prop := ∀ i, ∃ r : ℝ, f i = (r : EReal)

/-! ## Reals are closed under the network's operations -/

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_max {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

/-- A finite sum of reals is a real. -/
theorem real_sum {ι : Type} (s : Finset ι) (f : ι → EReal) (h : ∀ i ∈ s, ∃ r : ℝ, f i = (r : EReal)) :
    ∃ r : ℝ, ∑ i ∈ s, f i = (r : EReal) := by
  classical
  revert h
  refine Finset.induction_on s (fun _ => ⟨0, by rw [Finset.sum_empty]; rfl⟩) ?_
  intro a s ha ih h
  rw [Finset.sum_insert ha]
  exact real_add (h a (Finset.mem_insert_self a s)) (ih fun i hi => h i (Finset.mem_insert_of_mem hi))

/-- The float zero is the real number zero. -/
theorem zeroW_eq : zeroW = ((0 : ℝ) : EReal) := Ideal.ofBits_zero_f32

/-- The float one is the real number one. -/
theorem oneW_eq : oneW = ((1 : ℝ) : EReal) := by
  show Ideal.ofBits .f32 0x3F800000#32 = ((1 : ℝ) : EReal)
  simp [Ideal.ofBits, Ideal.ieee, -EReal.coe_mul]
  norm_num

theorem zeroW_real : ∃ r : ℝ, zeroW = (r : EReal) := ⟨0, zeroW_eq⟩
theorem oneW_real : ∃ r : ℝ, oneW = (r : EReal) := ⟨1, oneW_eq⟩

/-- The leaky rectifier returns `y` or `a * y`: a real either way. -/
theorem real_prelu {y a : EReal} (hy : ∃ r : ℝ, y = (r : EReal)) (ha : ∃ r : ℝ, a = (r : EReal)) :
    ∃ r : ℝ, prelu y a = (r : EReal) := by
  unfold prelu Scalar.select
  split
  · exact hy
  · exact real_mul ha hy

theorem dot_real {n k c : ℕ} (x : Mat n k) (W : Mat k c) (hx : AllReal x) (hW : AllReal W) : AllReal (dot x W) :=
  fun _ => real_sum _ _ fun _ _ => real_mul (hx _) (hW _)

theorem lin_real {n k c : ℕ} (x : Mat n k) (W : Mat k c) (b a : Vc c) (hx : AllReal x) (hW : AllReal W)
    (hb : AllReal b) (ha : AllReal a) : AllReal (lin x W b a) :=
  fun i => real_prelu (real_add (dot_real x W hx hW i) (hb _)) (ha _)

theorem sage_real {n c : ℕ} (g h : Mat n c) (Wl : Mat c c) (bl : Vc c) (Wr : Mat c c) (a : Vc c)
    (hg : AllReal g) (hh : AllReal h) (hWl : AllReal Wl) (hbl : AllReal bl) (hWr : AllReal Wr) (ha : AllReal a) :
    AllReal (sage g h Wl bl Wr a) :=
  fun i => real_prelu (real_add (real_add (dot_real g Wl hg hWl i) (hbl _)) (dot_real h Wr hh hWr i)) (ha _)

section Layers

variable (A : Mat 100000 128 → Mat 100000 128) (hA : ∀ h, AllReal h → AllReal (A h))
  (x : Mat 100000 128) (Wpre : Mat 128 128) (bpre apre : Vc 128)
  (Wl1 : Mat 128 128) (bl1 : Vc 128) (Wr1 : Mat 128 128) (a1 : Vc 128)
  (Wl2 : Mat 128 128) (bl2 : Vc 128) (Wr2 : Mat 128 128) (a2 : Vc 128)

theorem h0_real (hx : AllReal x) (hWpre : AllReal Wpre) (hbpre : AllReal bpre) (hapre : AllReal apre) :
    AllReal (h0 x Wpre bpre apre) :=
  lin_real x Wpre bpre apre hx hWpre hbpre hapre

include hA in
theorem h1_real (hx : AllReal x) (hWpre : AllReal Wpre) (hbpre : AllReal bpre) (hapre : AllReal apre)
    (hWl1 : AllReal Wl1) (hbl1 : AllReal bl1) (hWr1 : AllReal Wr1) (ha1 : AllReal a1) :
    AllReal (h1 A x Wpre bpre apre Wl1 bl1 Wr1 a1) :=
  sage_real _ _ Wl1 bl1 Wr1 a1 (hA _ (h0_real x Wpre bpre apre hx hWpre hbpre hapre))
    (h0_real x Wpre bpre apre hx hWpre hbpre hapre) hWl1 hbl1 hWr1 ha1

include hA in
theorem h2_real (hx : AllReal x) (hWpre : AllReal Wpre) (hbpre : AllReal bpre) (hapre : AllReal apre)
    (hWl1 : AllReal Wl1) (hbl1 : AllReal bl1) (hWr1 : AllReal Wr1) (ha1 : AllReal a1)
    (hWl2 : AllReal Wl2) (hbl2 : AllReal bl2) (hWr2 : AllReal Wr2) (ha2 : AllReal a2) :
    AllReal (h2 A x Wpre bpre apre Wl1 bl1 Wr1 a1 Wl2 bl2 Wr2 a2) :=
  sage_real _ _ Wl2 bl2 Wr2 a2
    (hA _ (h1_real A hA x Wpre bpre apre Wl1 bl1 Wr1 a1 hx hWpre hbpre hapre hWl1 hbl1 hWr1 ha1))
    (h1_real A hA x Wpre bpre apre Wl1 bl1 Wr1 a1 hx hWpre hbpre hapre hWl1 hbl1 hWr1 ha1) hWl2 hbl2 hWr2 ha2

end Layers

theorem fpEmb_real (fp : Mat 512 2048) (Wfp : Mat 2048 128) (bfp afp : Vc 128) (hfp : AllReal fp) (hWfp : AllReal Wfp)
    (hbfp : AllReal bfp) (hafp : AllReal afp) : AllReal (fpEmb fp Wfp bfp afp) :=
  lin_real fp Wfp bfp afp hfp hWfp hbfp hafp

/-- A graph's size is a real. -/
theorem cnt_real (bc : Col 100000) : AllReal (cnt bc) :=
  fun _ => real_add zeroW_real (real_sum _ _ fun _ _ => by
    split
    · exact oneW_real
    · exact ⟨0, rfl⟩)

/-- The divisor is a real, and not zero: it is at least one. -/
theorem den_real (bc : Col 100000) (g : (⟨1, ![512]⟩ : Shape).Idx) : ∃ c : ℝ, den bc g = (c : EReal) ∧ c ≠ 0 := by
  obtain ⟨c, hc⟩ : ∃ c : ℝ, max (cnt bc g) oneW = (c : EReal) := real_max (cnt_real bc g) oneW_real
  refine ⟨c, hc, fun h0 => ?_⟩
  have h1 : oneW ≤ max (cnt bc g) oneW := le_max_right _ _
  rw [hc, h0, oneW_eq] at h1
  exact absurd (EReal.coe_le_coe_iff.1 h1) (by norm_num)

/-! ## The coercion of the reals, pushed through a finite sum and a conditional -/

theorem coe_sum {ι : Type} (s : Finset ι) (f : ι → ℝ) : ∑ i ∈ s, (f i : EReal) = ((∑ i ∈ s, f i : ℝ) : EReal) := by
  classical
  refine Finset.induction_on s (by rw [Finset.sum_empty, Finset.sum_empty]; rfl) ?_
  intro a s ha ih
  rw [Finset.sum_insert ha, Finset.sum_insert ha, ih, EReal.coe_add]

theorem coe_ite (p : Prop) [Decidable p] (a : ℝ) : (if p then (a : EReal) else 0) = ((if p then a else 0 : ℝ) : EReal) := by
  split <;> rfl

/-! ## Pool then project is project then pool, on reals -/

/-- The identity over the reals. -/
theorem pool_project_real {E T : Type} [Fintype E] [Fintype T] (P : E → Prop) [DecidablePred P]
    (H : E → T → ℝ) (W : T → ℝ) (c : ℝ) :
    ∑ t, (∑ e, if P e then H e t else 0) * (1 / c) * W t
      = (∑ e, if P e then ∑ t, H e t * W t else 0) * (1 / c) := by
  have hterm : ∀ e, (if P e then ∑ t, H e t * W t else 0) * (1 / c)
      = ∑ t, (if P e then H e t else 0) * (1 / c) * W t := by
    intro e
    by_cases h : P e
    · simp only [h, if_true]
      rw [Finset.sum_mul]
      exact Finset.sum_congr rfl fun t _ => by ring
    · simp only [h, if_false, zero_mul, Finset.sum_const_zero]
  rw [Finset.sum_mul]
  simp only [hterm]
  rw [Finset.sum_comm]
  refine Finset.sum_congr rfl fun t _ => ?_
  rw [Finset.sum_mul, Finset.sum_mul]

/-- The same identity on the extended reals, for entries that are reals and a divisor that is a real other than zero. -/
theorem pool_project {E T : Type} [Fintype E] [Fintype T] (P : E → Prop) [DecidablePred P]
    (H : E → T → ℝ) (W : T → ℝ) (c : ℝ) (hc : c ≠ 0) :
    ∑ t, Ideal.div (zeroW + ∑ e, if P e then (H e t : EReal) else 0) (c : EReal) * (W t : EReal)
      = Ideal.div (zeroW + ∑ e, if P e then ∑ t, (H e t : EReal) * (W t : EReal) else 0) (c : EReal) := by
  simp only [zeroW_eq, Ideal.div_coe hc, ← EReal.coe_mul, coe_sum, coe_ite, ← EReal.coe_add]
  rw [EReal.coe_eq_coe_iff]
  simp only [zero_add]
  exact pool_project_real P H W c

/-! ## The two outputs -/

/-- A sum of 256 terms is the sum of its first 128 and its last 128. -/
theorem sum_fin_256 {M : Type} [AddCommMonoid M] (F : Fin 256 → M) :
    ∑ t, F t = ∑ t : Fin 128, F ⟨t.val, by have := t.isLt; omega⟩ + ∑ t : Fin 128, F ⟨128 + t.val, by have := t.isLt; omega⟩ :=
  Fin.sum_univ_add (a := 128) (b := 128) F

/-- Left of column 128 the joined row is the pooled row. -/
theorem cat_left (bc : Col 100000) (h : Mat 100000 128) (f : Mat 512 128) (g : Fin 512) (t : Fin 128) :
    cat bc h f (ix2 g (⟨t.val, by have := t.isLt; omega⟩ : Fin 256)) = pooled bc h (ix2 g t) := by
  unfold cat
  rw [dif_pos (show ((ix2 g (⟨t.val, by have := t.isLt; omega⟩ : Fin 256)) 1).val < 128 from t.isLt)]

/-- From column 128 on it is the fingerprint row. -/
theorem cat_right (bc : Col 100000) (h : Mat 100000 128) (f : Mat 512 128) (g : Fin 512) (t : Fin 128) :
    cat bc h f (ix2 g (⟨128 + t.val, by have := t.isLt; omega⟩ : Fin 256)) = f (ix2 g t) := by
  unfold cat
  rw [dif_neg (show ¬ ((ix2 g (⟨128 + t.val, by have := t.isLt; omega⟩ : Fin 256)) 1).val < 128 from by
    show ¬ (128 + t.val < 128); omega)]
  exact congrArg (fun q => f (ix2 g q)) (Fin.ext (by show 128 + t.val - 128 = t.val; omega))

/-- The pooled rows projected by the first 128 rows of the column are the projected nodes pooled. -/
theorem pooled_top (bc : Col 100000) (Wpost : Mat 256 1) (h : Mat 100000 128) (hh : AllReal h) (hW : AllReal Wpost)
    (g : Fin 512) :
    ∑ t : Fin 128, pooled bc h (ix2 g t) * Wpost (ix2 (⟨t.val, by have := t.isLt; omega⟩ : Fin 256) (0 : Fin 1))
      = Ideal.div (segCol bc (dot h (top Wpost)) (ix1 g)) (den bc (ix1 g)) := by
  obtain ⟨c, hc, hc0⟩ := den_real bc (ix1 g)
  show ∑ t : Fin 128, Ideal.div (zeroW + ∑ e : Fin 100000,
        if (bc (ix2 e (0 : Fin 1))).toInt = (g.val : ℤ) then h (ix2 e t) else 0) (den bc (ix1 g))
          * Wpost (ix2 (⟨t.val, by have := t.isLt; omega⟩ : Fin 256) (0 : Fin 1))
      = Ideal.div (zeroW + ∑ e : Fin 100000, if (bc (ix2 e (0 : Fin 1))).toInt = (g.val : ℤ)
          then ∑ t : Fin 128, h (ix2 e t) * Wpost (ix2 (⟨t.val, by have := t.isLt; omega⟩ : Fin 256) (0 : Fin 1)) else 0)
        (den bc (ix1 g))
  rw [hc]
  choose H hH using hh
  choose W hWr using hW
  simp only [hH, hWr]
  exact pool_project (fun e : Fin 100000 => (bc (ix2 e (0 : Fin 1))).toInt = (g.val : ℤ)) (fun e t => H (ix2 e t))
    (fun t : Fin 128 => W (ix2 (⟨t.val, by have := t.isLt; omega⟩ : Fin 256) (0 : Fin 1))) c hc0

/-- THE LAW: projecting every node and then pooling gives what pooling and then projecting gives. -/
theorem out_eq (bc : Col 100000) (Wpost : Mat 256 1) (bpost : Vc 1) (h : Mat 100000 128) (f : Mat 512 128)
    (hh : AllReal h) (hf : AllReal f) (hW : AllReal Wpost) (hb : AllReal bpost) :
    kerOutOf bc Wpost bpost h f = refOutOf bc Wpost bpost h f := by
  funext i
  obtain ⟨g, z, rfl⟩ : ∃ (g : Fin 512) (z : Fin 1), i = ix2 g z := ⟨i 0, i 1, eq_ix2 i⟩
  obtain rfl : z = 0 := Subsingleton.elim _ _
  show ((∑ t : Fin 128, f (ix2 g t) * Wpost (ix2 (⟨128 + t.val, by have := t.isLt; omega⟩ : Fin 256) (0 : Fin 1)))
        + Ideal.div (segCol bc (dot h (top Wpost)) (ix1 g)) (den bc (ix1 g))) + bpost (ix1 (0 : Fin 1))
      = (∑ t : Fin 256, cat bc h f (ix2 g t) * Wpost (ix2 t (0 : Fin 1))) + bpost (ix1 (0 : Fin 1))
  refine congrArg (· + bpost (ix1 (0 : Fin 1))) ?_
  rw [← pooled_top bc Wpost h hh hW g, sum_fin_256, add_comm]
  refine congrArg₂ (· + ·) (Finset.sum_congr rfl fun t _ => ?_) (Finset.sum_congr rfl fun t _ => ?_)
  · rw [cat_left]
  · rw [cat_right]

/-- The two programs' outputs agree when all eighteen float arrays are real and the aggregation keeps reals real. -/
theorem kerOut_eq_refOut (A : Mat 100000 128 → Mat 100000 128) (hA : ∀ h, AllReal h → AllReal (A h))
    (x : Mat 100000 128) (fp : Mat 512 2048) (bc : Col 100000)
    (Wpre : Mat 128 128) (bpre apre : Vc 128)
    (Wl1 : Mat 128 128) (bl1 : Vc 128) (Wr1 : Mat 128 128) (a1 : Vc 128)
    (Wl2 : Mat 128 128) (bl2 : Vc 128) (Wr2 : Mat 128 128) (a2 : Vc 128)
    (Wfp : Mat 2048 128) (bfp afp : Vc 128) (Wpost : Mat 256 1) (bpost : Vc 1)
    (hx : AllReal x) (hfp : AllReal fp) (hWpre : AllReal Wpre) (hbpre : AllReal bpre) (hapre : AllReal apre)
    (hWl1 : AllReal Wl1) (hbl1 : AllReal bl1) (hWr1 : AllReal Wr1) (ha1 : AllReal a1)
    (hWl2 : AllReal Wl2) (hbl2 : AllReal bl2) (hWr2 : AllReal Wr2) (ha2 : AllReal a2)
    (hWfp : AllReal Wfp) (hbfp : AllReal bfp) (hafp : AllReal afp) (hWpost : AllReal Wpost) (hbpost : AllReal bpost) :
    kerOut A x fp bc Wpre bpre apre Wl1 bl1 Wr1 a1 Wl2 bl2 Wr2 a2 Wfp bfp afp Wpost bpost
      = refOut A x fp bc Wpre bpre apre Wl1 bl1 Wr1 a1 Wl2 bl2 Wr2 a2 Wfp bfp afp Wpost bpost :=
  out_eq bc Wpost bpost _ _
    (h2_real A hA x Wpre bpre apre Wl1 bl1 Wr1 a1 Wl2 bl2 Wr2 a2 hx hWpre hbpre hapre hWl1 hbl1 hWr1 ha1 hWl2 hbl2 hWr2 ha2)
    (fpEmb_real fp Wfp bfp afp hfp hWfp hbfp hafp) hWpost hbpost

end Cert.Net

end
-- ==== Proof.LibGatherRows.lean ====
/-
  Rows of a matrix gathered by a column of indices, read at an index: with an operand `[N, C]`, start indices
  `[E, 1]` and a result `[E, C]` (the slice one whole row, the row axis collapsed, the start index naming the row
  axis), the result at `(e, j)` is the operand at `(r, j)`, where `r` is the index `idx[e, 0]` read signed and
  clamped into `[0, N − 1]`. The row `r` depends on the indices and on `N` alone, not on the column or on `C`.
-/
import Idealize.ShloMosaic.Lib.ValueIdx

namespace Cert.LibGatherRows

open Idealize.ShloMosaic Idealize.ShloMosaic.ValueIdx

variable {α : Type}

/-- The dimension numbers of a gather of whole rows by a column of indices. -/
abbrev rowDims (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row entry `e` reads: its index read signed and clamped into `[0, N − 1]`. -/
def rowOf {N E w : ℕ} (hN : 0 < N) (idx : IVec ⟨2, ![E, 1]⟩ w) (e : Fin E) : Fin N :=
  ⟨min (idx (ix2 e (0 : Fin 1))).toInt.toNat (N - 1), by omega⟩

/-- The gather read at `(e, j)`. -/
theorem gather_rows_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j) = x (ix2 (rowOf hN idx e) j) := by
  unfold Host.gather
  congr 1
  funext a
  refine Fin.ext ?_
  match a with
  | ⟨0, _⟩ =>
    show (rowDims N E C wf).start (ix2 e j) idx (0 : Fin 2) + (rowDims N E C wf).batchCoord (ix2 e j) (0 : Fin 2)
      + (rowDims N E C wf).offCoord (ix2 e j) (0 : Fin 2) = (rowOf hN idx e).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e j) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e j) idx (1 : Fin 2) + (rowDims N E C wf).batchCoord (ix2 e j) (1 : Fin 2)
      + (rowDims N E C wf).offCoord (ix2 e j) (1 : Fin 2) = j.val
    rw [GatherDims.batchCoord_eq_zero _ _ _ List.not_mem_nil]
    unfold GatherDims.start
    rw [dif_neg (show (1 : Fin 2) ∉ (rowDims N E C wf).startIndexMap from
      fun h => absurd (Fin.val_eq_of_eq (List.mem_singleton.mp h)) Nat.one_ne_zero)]
    unfold GatherDims.offCoord
    rw [dif_pos (show (1 : Fin 2) ∈ (rowDims N E C wf).sKept from
      (GatherDims.mem_sKept _ _).mpr ⟨fun h => absurd (Fin.val_eq_of_eq (List.mem_singleton.mp h)) Nat.one_ne_zero, List.not_mem_nil⟩)]
    simp only [Nat.zero_add, Nat.add_zero]
    rfl

end Cert.LibGatherRows
-- ==== Proof.AggReal.lean ====
/-
  Gathering rows and adding them into rows keeps real entries real.

  The aggregation over the edges first reads, for every edge, one whole row of the node matrix (the row named by the
  edge's source word, clamped into range), and then adds every such row into the row named by the edge's target word
  (an edge whose target word names no row is dropped).  So an entry of the result is an entry of the start matrix plus
  a finite sum whose terms are entries of the node matrix or zero: a real, when both matrices hold reals.
-/
import proofs.«151545_j56994216017995_2_alg».proof.Proof.Net
import proofs.«151545_j56994216017995_2_alg».proof.Proof.Algebra
import proofs.«151545_j56994216017995_2_alg».proof.Proof.LibScatterAdd
import proofs.«151545_j56994216017995_2_alg».proof.Proof.LibGatherRows

noncomputable section

open scoped BigOperators

namespace Cert.Net

open Idealize.ShloMosaic Idealize.ShloMosaic.ValueIdx

/-- Rows gathered by one column of words and added into rows by another: real entries in, real entries out. -/
theorem agg_real {N E C : ℕ} {φ : FTy} (hN : 0 < N)
    (gwf : GatherDims.WF ⟨2, ![N, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (z : Mat N C) (hz : AllReal z) (si di : (⟨2, ![E, 1]⟩ : Shape).Idx → BitVec 32) (h : Mat N C) (hh : AllReal h) :
    AllReal (Host.scatterAdd (F := Ideal) (φ := φ) (Cert.LibScatterAdd.rowDims N E C swf) z di
      (Host.gather (Cert.LibGatherRows.rowDims N E C gwf) h si)) := by
  intro i
  obtain ⟨n, j, rfl⟩ : ∃ (n : Fin N) (j : Fin C), i = ix2 n j := ⟨i 0, i 1, eq_ix2 i⟩
  rw [Cert.LibScatterAdd.scatterAdd_rows_apply]
  refine real_add (hz _) (real_sum _ _ fun e _ => ?_)
  split
  · rw [Cert.LibGatherRows.gather_rows_apply hN]
    exact hh _
  · exact ⟨0, rfl⟩

end Cert.Net

end
-- ==== Proof.Finite.lean ====
/-
  The precondition, read back: every entry of every float argument is a real number.

  The precondition computes, for each of the eighteen float arguments `x`, the array of bits `|x| < +∞`, folds each
  array by "and" from the bit one, and joins the eighteen results by "and"; it asserts that the result is the bit one.
  An "and" of two bits is one exactly when both are, so each of the eighteen folds is one; a fold by "and" from one that
  comes out one met only ones, so at every index `|x i| < +∞` holds; and an extended real whose absolute value
  `max x (-x)` lies below `+∞` is neither infinity: at `+∞` the maximum is `+∞`, and at `-∞` it is `-(-∞) = +∞` again.
-/
import proofs.«151545_j56994216017995_2_alg».proof.Pre_finite_inputs
import proofs.«151545_j56994216017995_2_alg».proof.Proof.Gen.Pre_finite_inputs
import proofs.«151545_j56994216017995_2_alg».proof.Proof.Algebra
import Idealize.ShloMosaic.Lib.ReduceAll

namespace Cert.Net

open Idealize.ShloMosaic Idealize.ShloMosaic.ValueIdx Cert.Pre_finite_inputs

/-- An extended real whose absolute value is below `+∞` (the float word `0x7F800000`) is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

/-- The scalar shape has one index. -/
instance subsingleton_scalar_idx : Subsingleton S_.Idx := ⟨fun _ _ => funext fun d => d.elim0⟩

/-- One argument: if the fold by "and" of the bits `|a i| < +∞` is one, every entry of `a` is a real. -/
theorem all_real {s : Shape} {axes : List (Fin s.rank)} (hb : S_.BroadcastsInDim s (![] : Fin 0 → Fin s.rank))
    (hr : s.ReducesTo axes S_) (hS : 0 < S_.numel) (a : FVec Ideal s .f32) (init : IVec S_ 1) (j : S_.Idx)
    (h : Host.reduce IntOp.andi
          (cmpf .olt (Host.absf a) (broadcastInDim s ![] hb (constant (F := Ideal) S_ .f32 0x7F800000#32)))
          init hr hS j = 1#1) : AllReal a :=
  fun i => real_of_abs_lt_top (a i) (Host.reduce_andi_all _ init hr hS j h i)

variable [Facts]

/-- All eighteen float arguments: the precondition holds only of arrays of reals. -/
theorem args_real
    (a0 : FVec Ideal S100000x128 .f32) (a1 : FVec Ideal S512x2048 .f32) (a2 : IVec S2x1600000 32)
    (a3 : IVec S100000 32) (a4 : FVec Ideal S128x128 .f32) (a5 : FVec Ideal S128 .f32) (a6 : FVec Ideal S128 .f32)
    (a7 : FVec Ideal S128x128 .f32) (a8 : FVec Ideal S128 .f32) (a9 : FVec Ideal S128x128 .f32)
    (a10 : FVec Ideal S128 .f32) (a11 : FVec Ideal S128x128 .f32) (a12 : FVec Ideal S128 .f32)
    (a13 : FVec Ideal S128x128 .f32) (a14 : FVec Ideal S128 .f32) (a15 : FVec Ideal S2048x128 .f32)
    (a16 : FVec Ideal S128 .f32) (a17 : FVec Ideal S128 .f32) (a18 : FVec Ideal S256x1 .f32)
    (a19 : FVec Ideal S1 .f32)
    (h : fn (F := Ideal) a0 a1 a2 a3 a4 a5 a6 a7 a8 a9 a10 a11 a12 a13 a14 a15 a16 a17 a18 a19 = fun _ => 1#1) :
    AllReal a0 ∧ AllReal a1 ∧ AllReal a4 ∧ AllReal a5 ∧ AllReal a6 ∧ AllReal a7 ∧
      AllReal a8 ∧ AllReal a9 ∧ AllReal a10 ∧ AllReal a11 ∧ AllReal a12 ∧ AllReal a13 ∧
      AllReal a14 ∧ AllReal a15 ∧ AllReal a16 ∧ AllReal a17 ∧ AllReal a18 ∧ AllReal a19 := by
  have h0 := congrFun h ix0
  dsimp only [fn, fn_part1, fn_part2, fn_part3, fn_part4, fn_part5] at h0
  obtain ⟨h0, h_19⟩ := IntOp.andi_eq_one.1 h0
  obtain ⟨h0, h_18⟩ := IntOp.andi_eq_one.1 h0
  obtain ⟨h0, h_17⟩ := IntOp.andi_eq_one.1 h0
  obtain ⟨h0, h_16⟩ := IntOp.andi_eq_one.1 h0
  obtain ⟨h0, h_15⟩ := IntOp.andi_eq_one.1 h0
  obtain ⟨h0, h_14⟩ := IntOp.andi_eq_one.1 h0
  obtain ⟨h0, h_13⟩ := IntOp.andi_eq_one.1 h0
  obtain ⟨h0, h_12⟩ := IntOp.andi_eq_one.1 h0
  obtain ⟨h0, h_11⟩ := IntOp.andi_eq_one.1 h0
  obtain ⟨h0, h_10⟩ := IntOp.andi_eq_one.1 h0
  obtain ⟨h0, h_9⟩ := IntOp.andi_eq_one.1 h0
  obtain ⟨h0, h_8⟩ := IntOp.andi_eq_one.1 h0
  obtain ⟨h0, h_7⟩ := IntOp.andi_eq_one.1 h0
  obtain ⟨h0, h_6⟩ := IntOp.andi_eq_one.1 h0
  obtain ⟨h0, h_5⟩ := IntOp.andi_eq_one.1 h0
  obtain ⟨h0, h_4⟩ := IntOp.andi_eq_one.1 h0
  obtain ⟨h0, h_1⟩ := IntOp.andi_eq_one.1 h0
  exact ⟨all_real Facts.bcast_S_S100000x128 Facts.reducesTo_S100000x128_S_d0_1 Facts.h_S_ a0 _ _ h0,
    all_real Facts.bcast_S_S512x2048 Facts.reducesTo_S512x2048_S_d0_1 Facts.h_S_ a1 _ _ h_1,
    all_real Facts.bcast_S_S128x128 Facts.reducesTo_S128x128_S_d0_1 Facts.h_S_ a4 _ _ h_4,
    all_real Facts.bcast_S_S128 Facts.reducesTo_S128_S_d0 Facts.h_S_ a5 _ _ h_5,
    all_real Facts.bcast_S_S128 Facts.reducesTo_S128_S_d0 Facts.h_S_ a6 _ _ h_6,
    all_real Facts.bcast_S_S128x128 Facts.reducesTo_S128x128_S_d0_1 Facts.h_S_ a7 _ _ h_7,
    all_real Facts.bcast_S_S128 Facts.reducesTo_S128_S_d0 Facts.h_S_ a8 _ _ h_8,
    all_real Facts.bcast_S_S128x128 Facts.reducesTo_S128x128_S_d0_1 Facts.h_S_ a9 _ _ h_9,
    all_real Facts.bcast_S_S128 Facts.reducesTo_S128_S_d0 Facts.h_S_ a10 _ _ h_10,
    all_real Facts.bcast_S_S128x128 Facts.reducesTo_S128x128_S_d0_1 Facts.h_S_ a11 _ _ h_11,
    all_real Facts.bcast_S_S128 Facts.reducesTo_S128_S_d0 Facts.h_S_ a12 _ _ h_12,
    all_real Facts.bcast_S_S128x128 Facts.reducesTo_S128x128_S_d0_1 Facts.h_S_ a13 _ _ h_13,
    all_real Facts.bcast_S_S128 Facts.reducesTo_S128_S_d0 Facts.h_S_ a14 _ _ h_14,
    all_real Facts.bcast_S_S2048x128 Facts.reducesTo_S2048x128_S_d0_1 Facts.h_S_ a15 _ _ h_15,
    all_real Facts.bcast_S_S128 Facts.reducesTo_S128_S_d0 Facts.h_S_ a16 _ _ h_16,
    all_real Facts.bcast_S_S128 Facts.reducesTo_S128_S_d0 Facts.h_S_ a17 _ _ h_17,
    all_real Facts.bcast_S_S256x1 Facts.reducesTo_S256x1_S_d0_1 Facts.h_S_ a18 _ _ h_18,
    all_real Facts.bcast_S_S1 Facts.reducesTo_S1_S_d0 Facts.h_S_ a19 _ _ h_19⟩

end Cert.Net
-- ==== Proof.Bridge.lean ====
/-
  The reference's result is the kernel's arrangement of the same network. The aggregation over edges maps real
  matrices to real matrices (a gathered entry is an entry of the operand, a scatter-add entry is a finite sum of them),
  so every layer's entries are real when the inputs are; then pooling the 128 columns and projecting equals projecting
  each node row and pooling the numbers, since a finite sum of reals distributes over a product.
-/
import proofs.«151545_j56994216017995_2_alg».proof.Proof.RefSide
import proofs.«151545_j56994216017995_2_alg».proof.Proof.Algebra
import proofs.«151545_j56994216017995_2_alg».proof.Proof.AggReal
import proofs.«151545_j56994216017995_2_alg».proof.Proof.Finite

noncomputable section

namespace Cert.Bridge

open Idealize.ShloMosaic Cert.ReferenceIdeal Cert.ReferenceIdeal.Read Cert.Net

variable [Cert.Pre_finite_inputs.Facts]

/-- The array of zeros the scatter adds into is an array of reals. -/
theorem zeros_real : AllReal (val_main_v21 (F := Ideal)) := fun i => ⟨0, by
  show Ideal.ofBits .f32 0x00000000#32 = _
  rw [Ideal.ofBits_zero_f32]; rfl⟩

/-- The aggregation over edges maps a real matrix to a real matrix. -/
theorem ragg_real (x2 : (⟨S2x1600000, .i32⟩ : BufTy).Contents (Elt Ideal)) (h : Mat 100000 128) (hh : AllReal h) :
    AllReal (Cert.RefSide.agg x2 h) :=
  agg_real (N := 100000) (E := 1600000) (C := 128) (φ := .f32) (by decide)
    Cert.ReferenceIdeal.gather_S100000x128_S1600000x1_S1600000x128_1_0_n_n_0_1_1128.wf
    Cert.ReferenceIdeal.scatter_S100000x128_S1600000x1_S1600000x128_1_0_0_1.wf
    (val_main_v21 (F := Ideal)) zeros_real (val_main_v19 (F := Ideal) x2) (val_main_v22 (F := Ideal) x2) h hh

/-- Under the precondition the reference's result is the kernel's arrangement, at the reference's aggregation. -/
theorem ref_is_ker (a0 : FVec Ideal Cert.Pre_finite_inputs.S100000x128 .f32) (a1 : FVec Ideal Cert.Pre_finite_inputs.S512x2048 .f32) (a2 : IVec Cert.Pre_finite_inputs.S2x1600000 32) (a3 : IVec Cert.Pre_finite_inputs.S100000 32) (a4 : FVec Ideal Cert.Pre_finite_inputs.S128x128 .f32) (a5 : FVec Ideal Cert.Pre_finite_inputs.S128 .f32) (a6 : FVec Ideal Cert.Pre_finite_inputs.S128 .f32) (a7 : FVec Ideal Cert.Pre_finite_inputs.S128x128 .f32) (a8 : FVec Ideal Cert.Pre_finite_inputs.S128 .f32) (a9 : FVec Ideal Cert.Pre_finite_inputs.S128x128 .f32) (a10 : FVec Ideal Cert.Pre_finite_inputs.S128 .f32) (a11 : FVec Ideal Cert.Pre_finite_inputs.S128x128 .f32) (a12 : FVec Ideal Cert.Pre_finite_inputs.S128 .f32) (a13 : FVec Ideal Cert.Pre_finite_inputs.S128x128 .f32) (a14 : FVec Ideal Cert.Pre_finite_inputs.S128 .f32) (a15 : FVec Ideal Cert.Pre_finite_inputs.S2048x128 .f32) (a16 : FVec Ideal Cert.Pre_finite_inputs.S128 .f32) (a17 : FVec Ideal Cert.Pre_finite_inputs.S128 .f32) (a18 : FVec Ideal Cert.Pre_finite_inputs.S256x1 .f32) (a19 : FVec Ideal Cert.Pre_finite_inputs.S1 .f32)
    (hpre : Cert.Pre_finite_inputs.fn (F := Ideal) a0 a1 a2 a3 a4 a5 a6 a7 a8 a9 a10 a11 a12 a13 a14 a15 a16 a17 a18 a19 = fun _ => 1#1) :
    val_main_v84 (F := Ideal) a0 a1 a2 a3 a4 a5 a6 a7 a8 a9 a10 a11 a12 a13 a14 a15 a16 a17 a18 a19
      = Net.kerOut (Cert.RefSide.agg a2) a0 a1 (val_main_v59 (F := Ideal) a3) a4 a5 a6 a7 a8 a9 a10 a11 a12 a13 a14 a15 a16 a17 a18 a19 := by
  obtain ⟨h0, h1, h4, h5, h6, h7, h8, h9, h10, h11, h12, h13, h14, h15, h16, h17, h18, h19⟩ := args_real a0 a1 a2 a3 a4 a5 a6 a7 a8 a9 a10 a11 a12 a13 a14 a15 a16 a17 a18 a19 hpre
  rw [Cert.RefSide.ref_eq]
  exact (kerOut_eq_refOut (Cert.RefSide.agg a2) (ragg_real a2) a0 a1 (val_main_v59 (F := Ideal) a3) a4 a5 a6 a7 a8 a9 a10 a11 a12 a13 a14 a15 a16 a17 a18 a19
    h0 h1 h4 h5 h6 h7 h8 h9 h10 h11 h12 h13 h14 h15 h16 h17 h18 h19).symm

end Cert.Bridge

end
-- ==== Proof.lean ====
/-
  The kernel, a two-layer graph network run as four dense kernels with the gather and scatter-add of edges between
  them, against its plain reference, on the extended reals and under the precondition that every float input is finite.

  Both programs compute the same node rows: an input layer `prelu (x W + b)`, then twice a graph layer
  `prelu ((agg W_l + b_l) + h W_r)` where `agg` sums, for every node, the rows of its in-neighbours (the same gather and
  scatter-add in both programs; the kernel gathers from a copy of the rows in a narrower float format, which on the
  extended reals is the same array). A change of float format is the identity, a matrix product into a zero accumulator
  and the host's `dot_general` are the same finite sum, and the kernels' row blocks tile the arrays.

  They differ at the end. The reference sums the 128-entry node rows of each graph, divides by the graph's size, puts the
  pooled row beside the fingerprint row and multiplies by the 256-row column `W_post`. The kernel multiplies every node row
  by the first 128 rows of `W_post` first, sums the resulting numbers per graph, divides by the graph's size, and adds the
  fingerprint row's product with the last 128 rows. These agree because a finite sum of REAL numbers distributes over a
  product; on the extended reals this needs every entry to be real, which holds because the inputs are finite and every
  layer (sums, products, the rectifier, the gather and the scatter-add) maps reals to reals. That is the one place the
  precondition is used.

  The three frames: the two kernel programs' are the frame of their four regions; the reference's is its run with the
  result dropped. The idealization rewrote nothing, so there is nothing to preserve.
-/
import proofs.«151545_j56994216017995_2_alg».proof.Defs
import proofs.«151545_j56994216017995_2_alg».proof.Proof.Gen.Kernel
import proofs.«151545_j56994216017995_2_alg».proof.Proof.Gen.Kernel.Skeleton
import proofs.«151545_j56994216017995_2_alg».proof.Proof.Gen.Kernel.Launch
import proofs.«151545_j56994216017995_2_alg».proof.Proof.Gen.Kernel.Points
import proofs.«151545_j56994216017995_2_alg».proof.Proof.Gen.Kernel.Frame
import proofs.«151545_j56994216017995_2_alg».proof.Proof.Gen.KernelIdeal
import proofs.«151545_j56994216017995_2_alg».proof.Proof.Gen.KernelIdeal.Skeleton
import proofs.«151545_j56994216017995_2_alg».proof.Proof.Gen.KernelIdeal.Launch
import proofs.«151545_j56994216017995_2_alg».proof.Proof.Gen.KernelIdeal.Points
import proofs.«151545_j56994216017995_2_alg».proof.Proof.Gen.KernelIdeal.Frame
import proofs.«151545_j56994216017995_2_alg».proof.Proof.Gen.ReferenceIdeal
import proofs.«151545_j56994216017995_2_alg».proof.Proof.Gen.Pre_finite_inputs
import proofs.«151545_j56994216017995_2_alg».proof.Proof.KRun
import proofs.«151545_j56994216017995_2_alg».proof.Proof.Blocks0
import proofs.«151545_j56994216017995_2_alg».proof.Proof.Blocks1
import proofs.«151545_j56994216017995_2_alg».proof.Proof.Blocks2
import proofs.«151545_j56994216017995_2_alg».proof.Proof.Blocks3
import proofs.«151545_j56994216017995_2_alg».proof.Proof.Chain
import proofs.«151545_j56994216017995_2_alg».proof.Proof.AggEq
import proofs.«151545_j56994216017995_2_alg».proof.Proof.RefRunSeg
import proofs.«151545_j56994216017995_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.RefSeg.run (F := Ideal) m ρ)

theorem preserves : Cert.preserves_Kernel_KernelIdeal := trivial

set_option maxHeartbeats 40000000 in
/-- Both programs end with the reference's last stage of the launch arguments: the reference by its run, the kernel by
    its four regions and the host operations between them, then the pooling identity under the precondition. -/
theorem algebraic : Cert.algebraic_KernelIdeal_ReferenceIdeal := by
  intro m ρ m' ρ' hpre hagree
  refine ⟨fun c => Cert.ReferenceIdeal.Read.val_main_v84 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19)), ?_, ?_⟩
  · refine (θ_run Cert.KernelIdeal.defs _ _).mono (fun r h c => ⟨(h c).1.trans ?_, (h c).2⟩)
      (Cert.KernelIdeal.Gen.run_named (F := Ideal) m ρ)
    rw [Cert.KernelIdeal.Chain.result_eq m ρ c
      (fun V c => ⟨Cert.KernelIdeal.Blocks0.arr4 V c, Cert.KernelIdeal.Blocks0.arr5 V c⟩)
      (fun V c => ⟨Cert.KernelIdeal.Blocks1.arr6 V c, Cert.KernelIdeal.Blocks1.arr7 V c⟩)
      (fun V c => Cert.KernelIdeal.Blocks2.arr7 V c)
      (fun V c => Cert.KernelIdeal.Blocks3.arr7 V c), Cert.AggEq.kagg_eq, Cert.AggEq.kbcol_eq]
    exact (Cert.Bridge.ref_is_ker _ _ _ _ _ _ _ _ _ _ _ _ _ _ _ _ _ _ _ _ (hpre c)).symm
  · refine (θ_run Cert.ReferenceIdeal.defs _ _).mono (fun r h c => ⟨(h c).1.trans ?_, (h c).2⟩)
      (Cert.RefSeg.run (F := Ideal) m' ρ')
    obtain ⟨e0, e1, e2, e3, e4, e5, e6, e7, e8, e9, e10, e11, e12, e13, e14, e15, e16, e17, e18, e19⟩ := hagree c
    exact (congr (congr (congr (congr (congr (congr (congr (congr (congr (congr (congr (congr (congr (congr (congr (congr (congr (congr (congr (congrArg (Cert.ReferenceIdeal.Read.val_main_v84 (F := Ideal)) e0) e1) e2) e3) e4) e5) e6) e7) e8) e9) e10) e11) e12) e13) e14) e15) e16) e17) e18) e19)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
